-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v8_3)) (v1 : (c : Dev Cert.KernelIdeal.nD) → Buf (Elt Ideal) ((c.tc : Thread Cert.KernelIdeal.nD Cert.KernelIdeal.τ).loc Cert.KernelIdeal.main_v8_0)) (v2 : (c : Dev Cert.KernelIdeal.nD) → Buf (Elt Ideal) ((c.tc : Thread Cert.KernelIdeal.nD Cert.KernelIdeal.τ).loc Cert.KernelIdeal.main_v8_1)) (v3 : (c : Dev Cert.KernelIdeal.nD) → Buf (Elt Ideal) ((c.tc : Thread Cert.KernelIdeal.nD Cert.KernelIdeal.τ).loc Cert.KernelIdeal.main_v8_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_3) = v0 c
          ∧ r.2.mem ((c.tc : Thread Cert.KernelIdeal.nD Cert.KernelIdeal.τ).loc Cert.KernelIdeal.main_v8_0) = v1 c
          ∧ r.2.mem ((c.tc : Thread Cert.KernelIdeal.nD Cert.KernelIdeal.τ).loc Cert.KernelIdeal.main_v8_1) = v2 c
          ∧ r.2.mem ((c.tc : Thread Cert.KernelIdeal.nD Cert.KernelIdeal.τ).loc Cert.KernelIdeal.main_v8_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_v60) = v2 c
          ∧ r.2.mem ((c.tc : Thread Cert.ReferenceIdeal.nD Cert.ReferenceIdeal.τ).loc Cert.ReferenceIdeal.main_v66) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096x1024 : Shape := ⟨2, ![4096, 1024]⟩
abbrev S512x6144 : Shape := ⟨2, ![512, 6144]⟩
abbrev S1024x6144 : Shape := ⟨2, ![1024, 6144]⟩
abbrev S1024x3072 : Shape := ⟨2, ![1024, 3072]⟩
abbrev S1024x4096 : Shape := ⟨2, ![1024, 4096]⟩
abbrev S6144 : Shape := ⟨1, ![6144]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S512x6144 : S_.BroadcastsInDim S512x6144 (![] : Fin 0 → Fin S512x6144.rank)
  reducesTo_S512x6144_S_d0_1 : S512x6144.ReducesTo [0, 1] S_
  bcast_S_S1024x6144 : S_.BroadcastsInDim S1024x6144 (![] : Fin 0 → Fin S1024x6144.rank)
  reducesTo_S1024x6144_S_d0_1 : S1024x6144.ReducesTo [0, 1] S_
  bcast_S_S1024x3072 : S_.BroadcastsInDim S1024x3072 (![] : Fin 0 → Fin S1024x3072.rank)
  reducesTo_S1024x3072_S_d0_1 : S1024x3072.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S6144 : S_.BroadcastsInDim S6144 (![] : Fin 0 → Fin S6144.rank)
  reducesTo_S6144_S_d0 : S6144.ReducesTo [0] S_

variable [Facts]

def fn_part3 {F : FTy → Type} [FloatOps F] (main_arg11 : FVec F S6144 .f32) (main_v48 : IVec S_ 1) (main_v49 : FVec F S6144 .f32) (main_v50 : FVec F S6144 .f32) : IVec S_ 1 :=
  let main_v51 : IVec S6144 1 := cmpf .olt main_v49 main_v50
  let main_c_19 : IVec S_ 1 := constantI S_ 1 1#1
  let main_v52 : IVec S_ 1 := (fun x v => Host.reduce IntOp.andi x v reducesTo_S6144_S_d0 h_S_) main_v51 main_c_19
  let main_v53 : IVec S_ 1 := andi main_v48 main_v52
  let main_v54 : FVec F S6144 .f32 := Host.absf main_arg11
  let main_cst_20 : FVec F S_ .f32 := constant S_ .f32 0x7F800000#32
  let main_v55 : FVec F S6144 .f32 := broadcastInDim S6144 ![] bcast_S_S6144 main_cst_20
  let main_v56 : IVec S6144 1 := cmpf .olt main_v54 main_v55
  let main_c_21 : IVec S_ 1 := constantI S_ 1 1#1
  let main_v57 : IVec S_ 1 := (fun x v => Host.reduce IntOp.andi x v reducesTo_S6144_S_d0 h_S_) main_v56 main_c_21
  let main_v58 : IVec S_ 1 := andi main_v53 main_v57
  main_v58

def fn_part2 {F : FTy → Type} [FloatOps F] (main_arg7 : FVec F S1024x3072 .f32) (main_arg8 : FVec F S1024x4096 .f32) (main_arg9 : FVec F S1024x4096 .f32) (main_arg10 : FVec F S6144 .f32) (main_arg11 : FVec F S6144 .f32) (main_v33 : IVec S_ 1) : IVec S_ 1 :=
  let main_v34 : FVec F S1024x3072 .f32 := Host.absf main_arg7
  let main_cst_12 : FVec F S_ .f32 := constant S_ .f32 0x7F800000#32
  let main_v35 : FVec F S1024x3072 .f32 := broadcastInDim S1024x3072 ![] bcast_S_S1024x3072 main_cst_12
  let main_v36 : IVec S1024x3072 1 := cmpf .olt main_v34 main_v35
  let main_c_13 : IVec S_ 1 := constantI S_ 1 1#1
  let main_v37 : IVec S_ 1 := (fun x v => Host.reduce IntOp.andi x v reducesTo_S1024x3072_S_d0_1 h_S_) main_v36 main_c_13
  let main_v38 : IVec S_ 1 := andi main_v33 main_v37
  let main_v39 : FVec F S1024x4096 .f32 := Host.absf main_arg8
  let main_cst_14 : FVec F S_ .f32 := constant S_ .f32 0x7F800000#32
  let main_v40 : FVec F S1024x4096 .f32 := broadcastInDim S1024x4096 ![] bcast_S_S1024x4096 main_cst_14
  let main_v41 : IVec S1024x4096 1 := cmpf .olt main_v39 main_v40
  let main_c_15 : IVec S_ 1 := constantI S_ 1 1#1
  let main_v42 : IVec S_ 1 := (fun x v => Host.reduce IntOp.andi x v reducesTo_S1024x4096_S_d0_1 h_S_) main_v41 main_c_15
  let main_v43 : IVec S_ 1 := andi main_v38 main_v42
  let main_v44 : FVec F S1024x4096 .f32 := Host.absf main_arg9
  let main_cst_16 : FVec F S_ .f32 := constant S_ .f32 0x7F800000#32
  let main_v45 : FVec F S1024x4096 .f32 := broadcastInDim S1024x4096 ![] bcast_S_S1024x4096 main_cst_16
  let main_v46 : IVec S1024x4096 1 := cmpf .olt main_v44 main_v45
  let main_c_17 : IVec S_ 1 := constantI S_ 1 1#1
  let main_v47 : IVec S_ 1 := (fun x v => Host.reduce IntOp.andi x v reducesTo_S1024x4096_S_d0_1 h_S_) main_v46 main_c_17
  let main_v48 : IVec S_ 1 := andi main_v43 main_v47
  let main_v49 : FVec F S6144 .f32 := Host.absf main_arg10
  let main_cst_18 : FVec F S_ .f32 := constant S_ .f32 0x7F800000#32
  let main_v50 : FVec F S6144 .f32 := broadcastInDim S6144 ![] bcast_S_S6144 main_cst_18
  fn_part3 (F := F) main_arg11 main_v48 main_v49 main_v50

def fn_part1 {F : FTy → Type} [FloatOps F] (main_arg4 : FVec F S4096x1024 .f32) (main_arg5 : FVec F S512x6144 .f32) (main_arg6 : FVec F S1024x6144 .f32) (main_arg7 : FVec F S1024x3072 .f32) (main_arg8 : FVec F S1024x4096 .f32) (main_arg9 : FVec F S1024x4096 .f32) (main_arg10 : FVec F S6144 .f32) (main_arg11 : FVec F S6144 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S512x6144 .f32 := Host.absf main_arg5
  let main_cst_8 : FVec F S_ .f32 := constant S_ .f32 0x7F800000#32
  let main_v25 : FVec F S512x6144 .f32 := broadcastInDim S512x6144 ![] bcast_S_S512x6144 main_cst_8
  let main_v26 : IVec S512x6144 1 := cmpf .olt main_v24 main_v25
  let main_c_9 : IVec S_ 1 := constantI S_ 1 1#1
  let main_v27 : IVec S_ 1 := (fun x v => Host.reduce IntOp.andi x v reducesTo_S512x6144_S_d0_1 h_S_) main_v26 main_c_9
  let main_v28 : IVec S_ 1 := andi main_v23 main_v27
  let main_v29 : FVec F S1024x6144 .f32 := Host.absf main_arg6
  let main_cst_10 : FVec F S_ .f32 := constant S_ .f32 0x7F800000#32
  let main_v30 : FVec F S1024x6144 .f32 := broadcastInDim S1024x6144 ![] bcast_S_S1024x6144 main_cst_10
  let main_v31 : IVec S1024x6144 1 := cmpf .olt main_v29 main_v30
  let main_c_11 : IVec S_ 1 := constantI S_ 1 1#1
  let main_v32 : IVec S_ 1 := (fun x v => Host.reduce IntOp.andi x v reducesTo_S1024x6144_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S4096x512 .f32) (main_arg1 : FVec F S4096x1024 .f32) (main_arg2 : FVec F S4096x1024 .f32) (main_arg3 : FVec F S4096x1024 .f32) (main_arg4 : FVec F S4096x1024 .f32) (main_arg5 : FVec F S512x6144 .f32) (main_arg6 : FVec F S1024x6144 .f32) (main_arg7 : FVec F S1024x3072 .f32) (main_arg8 : FVec F S1024x4096 .f32) (main_arg9 : FVec F S1024x4096 .f32) (main_arg10 : FVec F S6144 .f32) (main_arg11 : FVec F S6144 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_arg6 main_arg7 main_arg8 main_arg9 main_arg10 main_arg11 main_v13 main_v16
-- ==== Kernel.lean ====
abbrev S4096x512 : Shape := ⟨2, ![4096, 512]⟩
abbrev S4096x1024 : Shape := ⟨2, ![4096, 1024]⟩
abbrev S512x6144 : Shape := ⟨2, ![512, 6144]⟩
abbrev S1024x6144 : Shape := ⟨2, ![1024, 6144]⟩
abbrev S1024x3072 : Shape := ⟨2, ![1024, 3072]⟩
abbrev S1024x4096 : Shape := ⟨2, ![1024, 4096]⟩
abbrev S6144 : Shape := ⟨1, ![6144]⟩
abbrev S1x6144 : Shape := ⟨2, ![1, 6144]⟩
abbrev S4096x5120 : Shape := ⟨2, ![4096, 5120]⟩
abbrev S128x512 : Shape := ⟨2, ![128, 512]⟩
abbrev S128x1024 : Shape := ⟨2, ![128, 1024]⟩
abbrev S512x5120 : Shape := ⟨2, ![512, 5120]⟩
abbrev S1024x5120 : Shape := ⟨2, ![1024, 5120]⟩
abbrev S1x5120 : Shape := ⟨2, ![1, 5120]⟩
abbrev S128x5120 : Shape := ⟨2, ![128, 5120]⟩
abbrev S1024x2048 : Shape := ⟨2, ![1024, 2048]⟩
abbrev S1024x1024 : Shape := ⟨2, ![1024, 1024]⟩
abbrev S128x2048 : Shape := ⟨2, ![128, 2048]⟩

abbrev nBuf : Space → Nat
  | .hbm => 24
  | .vmem => 28
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S512x6144, .f32⟩
  | .hbm, ⟨6, _⟩ => ⟨S1024x6144, .f32⟩
  | .hbm, ⟨7, _⟩ => ⟨S1024x3072, .f32⟩
  | .hbm, ⟨8, _⟩ => ⟨S1024x4096, .f32⟩
  | .hbm, ⟨9, _⟩ => ⟨S1024x4096, .f32⟩
  | .hbm, ⟨10, _⟩ => ⟨S6144, .f32⟩
  | .hbm, ⟨11, _⟩ => ⟨S6144, .f32⟩
  | .hbm, ⟨12, _⟩ => ⟨S512x6144, .bf16⟩
  | .hbm, ⟨13, _⟩ => ⟨S1024x6144, .bf16⟩
  | .hbm, ⟨14, _⟩ => ⟨S1024x3072, .bf16⟩
  | .hbm, ⟨15, _⟩ => ⟨S1024x4096, .bf16⟩
  | .hbm, ⟨16, _⟩ => ⟨S1024x4096, .bf16⟩
  | .hbm, ⟨17, _⟩ => ⟨S6144, .f32⟩
  | .hbm, ⟨18, _⟩ => ⟨S1x6144, .f32⟩
  | .hbm, ⟨19, _⟩ => ⟨S4096x5120, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .local _ .vmem, ⟨0, _⟩ => ⟨S128x512, .f32⟩
  | .local _ .vmem, ⟨1, _⟩ => ⟨S128x512, .f32⟩
  | .local _ .vmem, ⟨2, _⟩ => ⟨S128x1024, .f32⟩
  | .local _ .vmem, ⟨3, _⟩ => ⟨S128x1024, .f32⟩
  | .local _ .vmem, ⟨4, _⟩ => ⟨S512x5120, .bf16⟩
  | .local _ .vmem, ⟨5, _⟩ => ⟨S1024x5120, .bf16⟩
  | .local _ .vmem, ⟨6, _⟩ => ⟨S1x5120, .f32⟩
  | .local _ .vmem, ⟨7, _⟩ => ⟨S128x5120, .f32⟩
  | .local _ .vmem, ⟨8, _⟩ => ⟨S128x5120, .f32⟩
  | .local _ .vmem, ⟨9, _⟩ => ⟨S128x5120, .f32⟩
  | .local _ .vmem, ⟨10, _⟩ => ⟨S128x5120, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S1024x3072, .bf16⟩
  | .local _ .vmem, ⟨18, _⟩ => ⟨S1024x4096, .bf16⟩
  | .local _ .vmem, ⟨19, _⟩ => ⟨S1024x4096, .bf16⟩
  | .local _ .vmem, ⟨20, _⟩ => ⟨S128x1024, .f32⟩
  | .local _ .vmem, ⟨21, _⟩ => ⟨S128x1024, .f32⟩
  | .local _ .vmem, ⟨22, _⟩ => ⟨S128x1024, .f32⟩
  | .local _ .vmem, ⟨23, _⟩ => ⟨S128x1024, .f32⟩
  | .local _ .vmem, ⟨24, _⟩ => ⟨S128x1024, .f32⟩
  | .local _ .vmem, ⟨25, _⟩ => ⟨S128x1024, .f32⟩
  | .local _ .vmem, ⟨26, _⟩ => ⟨S128x1024, .f32⟩
  | .local _ .vmem, ⟨27, _⟩ => ⟨S128x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8_0 : Ref sig .tc := ⟨.hbm, 20, rfl⟩
abbrev main_v8_1 : Ref sig .tc := ⟨.hbm, 21, rfl⟩
abbrev main_v8_2 : Ref sig .tc := ⟨.hbm, 22, rfl⟩
abbrev main_v8_3 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc1_stg8_0 : Ref sig .tc := ⟨.vmem, 22, rfl⟩
abbrev cc1_stg8_1 : Ref sig .tc := ⟨.vmem, 23, rfl⟩
abbrev cc1_stg9_0 : Ref sig .tc := ⟨.vmem, 24, rfl⟩
abbrev cc1_stg9_1 : Ref sig .tc := ⟨.vmem, 25, rfl⟩
abbrev cc1_stg10_0 : Ref sig .tc := ⟨.vmem, 26, rfl⟩
abbrev cc1_stg10_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21
abbrev cc1_sem8_0 : DmaSem sig := 22
abbrev cc1_sem8_1 : DmaSem sig := 23
abbrev cc1_sem9_0 : DmaSem sig := 24
abbrev cc1_sem9_1 : DmaSem sig := 25
abbrev cc1_sem10_0 : DmaSem sig := 26
abbrev cc1_sem10_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x5120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5120 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x5120 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x5120 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1024x3072 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x4096 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1024x4096 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S128x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S128x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S128x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S128x1024 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  bitsLt_bf16_f32 : FTy.bits .bf16 < FTy.bits .f32
  shapeCasts_S6144_S1x6144 : S6144.ShapeCasts S1x6144
  inb_S128x512_S128x512_0_0 : ∀ a, (![0, 0] : Fin 2 → Nat) a + S128x512.size a ≤ S128x512.size a
  h_S128x512 : 0 < S128x512.numel
  inb_S128x1024_S128x1024_0_0 : ∀ a, (![0, 0] : Fin 2 → Nat) a + S128x1024.size a ≤ S128x1024.size a
  h_S128x1024 : 0 < S128x1024.numel
  inb_S512x5120_S512x5120_0_0 : ∀ a, (![0, 0] : Fin 2 → Nat) a + S512x5120.size a ≤ S512x5120.size a
  h_S512x5120 : 0 < S512x5120.numel
  shapeCasts_S512x5120_S512x5120 : S512x5120.ShapeCasts S512x5120
  inb_S1024x5120_S1024x5120_0_0 : ∀ a, (![0, 0] : Fin 2 → Nat) a + S1024x5120.size a ≤ S1024x5120.size a
  h_S1024x5120 : 0 < S1024x5120.numel
  shapeCasts_S1024x5120_S1024x5120 : S1024x5120.ShapeCasts S1024x5120
  inb_S1x5120_S1x5120_0_0 : ∀ a, (![0, 0] : Fin 2 → Nat) a + S1x5120.size a ≤ S1x5120.size a
  h_S1x5120 : 0 < S1x5120.numel
  shapeCasts_S1x5120_S1x5120 : S1x5120.ShapeCasts S1x5120
  broadcasts_S1x5120_S128x5120 : S1x5120.Broadcasts S128x5120
  inb_S128x5120_S128x5120_0_0 : ∀ a, (![0, 0] : Fin 2 → Nat) a + S128x5120.size a ≤ S128x5120.size a
  h_S128x5120 : 0 < S128x5120.numel
  shapeCasts_S128x5120_S128x5120 : S128x5120.ShapeCasts S128x5120
  slices_S128x5120_o0_0_S128x1024 : S128x5120.Slices ![0, 0] S128x1024
  slices_S128x5120_o0_1024_S128x1024 : S128x5120.Slices ![0, 1024] S128x1024
  slices_S128x5120_o0_2048_S128x1024 : S128x5120.Slices ![0, 2048] S128x1024
  slices_S128x5120_o0_3072_S128x1024 : S128x5120.Slices ![0, 3072] S128x1024
  slices_S128x5120_o0_4096_S128x1024 : S128x5120.Slices ![0, 4096] S128x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  slices_S1024x3072_o0_0_S1024x2048 : S1024x3072.Slices ![0, 0] S1024x2048
  slices_S1024x3072_o0_2048_S1024x1024 : S1024x3072.Slices ![0, 2048] S1024x1024
  slices_S1024x4096_o0_0_S1024x2048 : S1024x4096.Slices ![0, 0] S1024x2048
  slices_S1024x4096_o0_2048_S1024x1024 : S1024x4096.Slices ![0, 2048] S1024x1024
  slices_S1024x4096_o0_3072_S1024x1024 : S1024x4096.Slices ![0, 3072] S1024x1024
  slices_S128x2048_o0_0_S128x1024 : S128x2048.Slices ![0, 0] S128x1024
  slices_S128x2048_o0_1024_S128x1024 : S128x2048.Slices ![0, 1024] S128x1024
  dot_S128x512_S512x5120_S128x5120_1_0_0_1_n_n_wf : DotDims.WF S128x512 S512x5120 S128x5120 [1] [0] [0] [1] [] []
  dot_S128x1024_S1024x5120_S128x5120_1_0_0_1_n_n_wf : DotDims.WF S128x1024 S1024x5120 S128x5120 [1] [0] [0] [1] [] []
  dot_S128x1024_S1024x2048_S128x2048_1_0_0_1_n_n_wf : DotDims.WF S128x1024 S1024x2048 S128x2048 [1] [0] [0] [1] [] []
  dot_S128x1024_S1024x1024_S128x1024_1_0_0_1_n_n_wf : DotDims.WF S128x1024 S1024x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S4096x512.size a
  hwx0_0 : ∀ i : grid0.Coords, EltTy.bits .f32 = 32 ∨ (Rect.block (s := S4096x512) S128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S4096x1024.size a
  hwx0_1 : ∀ i : grid0.Coords, EltTy.bits .f32 = 32 ∨ (Rect.block (s := S4096x1024) S128x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hstart0_2 : ∀ (i : grid0.Coords) a, cc0_transform_2 i a * S512x5120.size a < S512x6144.size a
  hwx0_2 : ∀ i : grid0.Coords, EltTy.bits .bf16 = 32 ∨ (Rect.unit (s := S512x6144) (fun a => cc0_transform_2 i a * S512x5120.size a) (fun a => (Pipeline.Clip.of (cc0_transform_2 i a) (S512x5120.size a) (S512x6144.size a)).extent (S512x5120.size a)) fun a => Pipeline.Clip.inb (Pipeline.Clip.ok_of (hstart0_2 i a))).WholeWords (EltTy.packing .bf16)
  hwxs0_2 : ∀ i : grid0.Coords, EltTy.bits .bf16 = 32 ∨ (Rect.unit (s := S512x5120) (fun _ => 0) (fun a => (Pipeline.Clip.of (cc0_transform_2 i a) (S512x5120.size a) (S512x6144.size a)).extent (S512x5120.size a)) fun a => (Nat.zero_add _).trans_le (Pipeline.Clip.extent_le (Pipeline.Clip.ok_of (hstart0_2 i a)))).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hstart0_3 : ∀ (i : grid0.Coords) a, cc0_transform_3 i a * S1024x5120.size a < S1024x6144.size a
  hwx0_3 : ∀ i : grid0.Coords, EltTy.bits .bf16 = 32 ∨ (Rect.unit (s := S1024x6144) (fun a => cc0_transform_3 i a * S1024x5120.size a) (fun a => (Pipeline.Clip.of (cc0_transform_3 i a) (S1024x5120.size a) (S1024x6144.size a)).extent (S1024x5120.size a)) fun a => Pipeline.Clip.inb (Pipeline.Clip.ok_of (hstart0_3 i a))).WholeWords (EltTy.packing .bf16)
  hwxs0_3 : ∀ i : grid0.Coords, EltTy.bits .bf16 = 32 ∨ (Rect.unit (s := S1024x5120) (fun _ => 0) (fun a => (Pipeline.Clip.of (cc0_transform_3 i a) (S1024x5120.size a) (S1024x6144.size a)).extent (S1024x5120.size a)) fun a => (Nat.zero_add _).trans_le (Pipeline.Clip.extent_le (Pipeline.Clip.ok_of (hstart0_3 i a)))).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hstart0_4 : ∀ (i : grid0.Coords) a, cc0_transform_4 i a * S1x5120.size a < S1x6144.size a
  hwx0_4 : ∀ i : grid0.Coords, EltTy.bits .f32 = 32 ∨ (Rect.unit (s := S1x6144) (fun a => cc0_transform_4 i a * S1x5120.size a) (fun a => (Pipeline.Clip.of (cc0_transform_4 i a) (S1x5120.size a) (S1x6144.size a)).extent (S1x5120.size a)) fun a => Pipeline.Clip.inb (Pipeline.Clip.ok_of (hstart0_4 i a))).WholeWords (EltTy.packing .f32)
  hwxs0_4 : ∀ i : grid0.Coords, EltTy.bits .f32 = 32 ∨ (Rect.unit (s := S1x5120) (fun _ => 0) (fun a => (Pipeline.Clip.of (cc0_transform_4 i a) (S1x5120.size a) (S1x6144.size a)).extent (S1x5120.size a)) fun a => (Nat.zero_add _).trans_le (Pipeline.Clip.extent_le (Pipeline.Clip.ok_of (hstart0_4 i a)))).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x5120.size a ≤ S4096x5120.size a
  hwx0_5 : ∀ i : grid0.Coords, EltTy.bits .f32 = 32 ∨ (Rect.block (s := S4096x5120) S128x5120.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x5120.size a ≤ S4096x5120.size a
  hwx1_0 : ∀ i : grid1.Coords, EltTy.bits .f32 = 32 ∨ (Rect.block (s := S4096x5120) S128x5120.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x1024.size a ≤ S4096x1024.size a
  hwx1_1 : ∀ i : grid1.Coords, EltTy.bits .f32 = 32 ∨ (Rect.block (s := S4096x1024) S128x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x1024.size a ≤ S4096x1024.size a
  hwx1_2 : ∀ i : grid1.Coords, EltTy.bits .f32 = 32 ∨ (Rect.block (s := S4096x1024) S128x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x1024.size a ≤ S4096x1024.size a
  hwx1_3 : ∀ i : grid1.Coords, EltTy.bits .f32 = 32 ∨ (Rect.block (s := S4096x1024) S128x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x3072.size a ≤ S1024x3072.size a
  hwx1_4 : ∀ i : grid1.Coords, EltTy.bits .bf16 = 32 ∨ (Rect.block (s := S1024x3072) S1024x3072.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024x4096.size a ≤ S1024x4096.size a
  hwx1_5 : ∀ i : grid1.Coords, EltTy.bits .bf16 = 32 ∨ (Rect.block (s := S1024x4096) S1024x4096.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1024x4096.size a ≤ S1024x4096.size a
  hwx1_6 : ∀ i : grid1.Coords, EltTy.bits .bf16 = 32 ∨ (Rect.block (s := S1024x4096) S1024x4096.size (cc1_transform_6 i) (hinb1_6 i)).WholeWords (EltTy.packing .bf16)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S128x1024.size a ≤ S4096x1024.size a
  hwx1_7 : ∀ i : grid1.Coords, EltTy.bits .f32 = 32 ∨ (Rect.block (s := S4096x1024) S128x1024.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S128x1024.size a ≤ S4096x1024.size a
  hwx1_8 : ∀ i : grid1.Coords, EltTy.bits .f32 = 32 ∨ (Rect.block (s := S4096x1024) S128x1024.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S128x1024.size a ≤ S4096x1024.size a
  hwx1_9 : ∀ i : grid1.Coords, EltTy.bits .f32 = 32 ∨ (Rect.block (s := S4096x1024) S128x1024.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S128x1024.size a ≤ S4096x1024.size a
  hwx1_10 : ∀ i : grid1.Coords, EltTy.bits .f32 = 32 ∨ (Rect.block (s := S4096x1024) S128x1024.size (cc1_transform_10 i) (hinb1_10 i)).WholeWords (EltTy.packing .f32)

variable [Facts₀]

def dot_S128x512_S512x5120_S128x5120_1_0_0_1_n_n : DotDims S128x512 S512x5120 S128x5120 where
  lhsContracting := [1]
  rhsContracting := [0]
  lhsNonContracting := [0]
  rhsNonContracting := [1]
  lhsBatch := []
  rhsBatch := []
  wf := dot_S128x512_S512x5120_S128x5120_1_0_0_1_n_n_wf
def dot_S128x1024_S1024x5120_S128x5120_1_0_0_1_n_n : DotDims S128x1024 S1024x5120 S128x5120 where
  lhsContracting := [1]
  rhsContracting := [0]
  lhsNonContracting := [0]
  rhsNonContracting := [1]
  lhsBatch := []
  rhsBatch := []
  wf := dot_S128x1024_S1024x5120_S128x5120_1_0_0_1_n_n_wf
def dot_S128x1024_S1024x2048_S128x2048_1_0_0_1_n_n : DotDims S128x1024 S1024x2048 S128x2048 where
  lhsContracting := [1]
  rhsContracting := [0]
  lhsNonContracting := [0]
  rhsNonContracting := [1]
  lhsBatch := []
  rhsBatch := []
  wf := dot_S128x1024_S1024x2048_S128x2048_1_0_0_1_n_n_wf
def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf

abbrev win0_0 : Pipeline.Window sig grid0 :=
  Pipeline.Window.ofSpec (Memref.whole main_arg0) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpecClip (Memref.whole main_v0) S512x5120.size cc0_transform_2 reads0_2 false true 1 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v1) S1024x5120.size cc0_transform_3 reads0_3 false true 1 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_v6) S1x5120.size cc0_transform_4 reads0_4 false true 1 stage0_4 sem0_4
    hrank0 hreads0_4 hstart0_4 nbuf0_4 (Memref.isWhole_whole _) hwx0_4 hwxs0_4 hstage0_4

abbrev win0_5 : Pipeline.Window sig grid0 :=
  Pipeline.Window.ofSpec (Memref.whole main_v7) S128x5120.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v7) S128x5120.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S128x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1024x3072.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3) S1024x4096.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v4) S1024x4096.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v8_0) S128x1024.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v8_1) S128x1024.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v8_2) S128x1024.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v8_3) S128x1024.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S4096x512 : Shape := ⟨2, ![4096, 512]⟩
abbrev S4096x1024 : Shape := ⟨2, ![4096, 1024]⟩
abbrev S512x6144 : Shape := ⟨2, ![512, 6144]⟩
abbrev S1024x6144 : Shape := ⟨2, ![1024, 6144]⟩
abbrev S1024x3072 : Shape := ⟨2, ![1024, 3072]⟩
abbrev S1024x4096 : Shape := ⟨2, ![1024, 4096]⟩
abbrev S6144 : Shape := ⟨1, ![6144]⟩
abbrev S4096x6144 : Shape := ⟨2, ![4096, 6144]⟩
abbrev S1x6144 : Shape := ⟨2, ![1, 6144]⟩
abbrev S1024x1024 : Shape := ⟨2, ![1024, 1024]⟩
abbrev S_ : Shape := ⟨0, ![]⟩

abbrev nBuf : Space → Nat
  | .hbm => 106
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S512x6144, .f32⟩
  | .hbm, ⟨6, _⟩ => ⟨S1024x6144, .f32⟩
  | .hbm, ⟨7, _⟩ => ⟨S1024x3072, .f32⟩
  | .hbm, ⟨8, _⟩ => ⟨S1024x4096, .f32⟩
  | .hbm, ⟨9, _⟩ => ⟨S1024x4096, .f32⟩
  | .hbm, ⟨10, _⟩ => ⟨S6144, .f32⟩
  | .hbm, ⟨11, _⟩ => ⟨S6144, .f32⟩
  | .hbm, ⟨12, _⟩ => ⟨S4096x6144, .f32⟩
  | .hbm, ⟨13, _⟩ => ⟨S4096x6144, .f32⟩
  | .hbm, ⟨14, _⟩ => ⟨S4096x6144, .f32⟩
  | .hbm, ⟨15, _⟩ => ⟨S6144, .f32⟩
  | .hbm, ⟨16, _⟩ => ⟨S1x6144, .f32⟩
  | .hbm, ⟨17, _⟩ => ⟨S4096x6144, .f32⟩
  | .hbm, ⟨18, _⟩ => ⟨S4096x6144, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S1024x1024, .f32⟩
  | .hbm, ⟨26, _⟩ => ⟨S1024x1024, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S1024x1024, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S1024x1024, .f32⟩
  | .hbm, ⟨35, _⟩ => ⟨S1024x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S_, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S_, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S4096x1024, .f32⟩
  | .hbm, ⟨92, _⟩ => ⟨S4096x1024, .f32⟩
  | .hbm, ⟨93, _⟩ => ⟨S4096x1024, .f32⟩
  | .hbm, ⟨94, _⟩ => ⟨S_, .f32⟩
  | .hbm, ⟨95, _⟩ => ⟨S4096x1024, .f32⟩
  | .hbm, ⟨96, _⟩ => ⟨S4096x1024, .f32⟩
  | .hbm, ⟨97, _⟩ => ⟨S_, .f32⟩
  | .hbm, ⟨98, _⟩ => ⟨S4096x1024, .f32⟩
  | .hbm, ⟨99, _⟩ => ⟨S4096x1024, .f32⟩
  | .hbm, ⟨100, _⟩ => ⟨S4096x1024, .f32⟩
  | .hbm, ⟨101, _⟩ => ⟨S_, .f32⟩
  | .hbm, ⟨102, _⟩ => ⟨S4096x1024, .f32⟩
  | .hbm, ⟨103, _⟩ => ⟨S4096x1024, .f32⟩
  | .hbm, ⟨104, _⟩ => ⟨S4096x1024, .f32⟩
  | .hbm, ⟨105, _⟩ => ⟨S4096x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst : Ref sig .tc := ⟨.hbm, 44, rfl⟩
abbrev main_v32 : Ref sig .tc := ⟨.hbm, 45, rfl⟩
abbrev main_v33 : Ref sig .tc := ⟨.hbm, 46, rfl⟩
abbrev main_cst_0 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_1 : Ref sig .tc := ⟨.hbm, 58, rfl⟩
abbrev main_v44 : Ref sig .tc := ⟨.hbm, 59, rfl⟩
abbrev main_v45 : Ref sig .tc := ⟨.hbm, 60, rfl⟩
abbrev main_cst_2 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_3 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_4 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_5 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_cst_6 : Ref sig .tc := ⟨.hbm, 94, rfl⟩
abbrev main_v75 : Ref sig .tc := ⟨.hbm, 95, rfl⟩
abbrev main_v76 : Ref sig .tc := ⟨.hbm, 96, rfl⟩
abbrev main_cst_7 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_cst_8 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩

abbrev nD : Nat := 1
abbrev τ : Topo := Topo.v7x

variable {F : FTy → Type} [FloatOps F]

class Facts₀ : Prop where
  bcast_S6144_S1x6144_1 : S6144.BroadcastsInDim S1x6144 (![1] : Fin 1 → Fin S1x6144.rank)
  bcast_S1x6144_S4096x6144_0_1 : S1x6144.BroadcastsInDim S4096x6144 (![0, 1] : Fin 2 → Fin S4096x6144.rank)
  slices_S4096x6144_S4096x1024_0_0 : S4096x6144.Slices ![0, 0] S4096x1024
  slices_S4096x6144_S4096x1024_0_1024 : S4096x6144.Slices ![0, 1024] S4096x1024
  slices_S4096x6144_S4096x1024_0_2048 : S4096x6144.Slices ![0, 2048] S4096x1024
  slices_S4096x6144_S4096x1024_0_3072 : S4096x6144.Slices ![0, 3072] S4096x1024
  slices_S4096x6144_S4096x1024_0_4096 : S4096x6144.Slices ![0, 4096] S4096x1024
  slices_S4096x6144_S4096x1024_0_5120 : S4096x6144.Slices ![0, 5120] S4096x1024
  slices_S1024x3072_S1024x1024_0_0 : S1024x3072.Slices ![0, 0] S1024x1024
  slices_S1024x3072_S1024x1024_0_1024 : S1024x3072.Slices ![0, 1024] S1024x1024
  slices_S1024x3072_S1024x1024_0_2048 : S1024x3072.Slices ![0, 2048] S1024x1024
  slices_S1024x4096_S1024x1024_0_0 : S1024x4096.Slices ![0, 0] S1024x1024
  slices_S1024x4096_S1024x1024_0_1024 : S1024x4096.Slices ![0, 1024] S1024x1024
  slices_S1024x4096_S1024x1024_0_2048 : S1024x4096.Slices ![0, 2048] S1024x1024
  slices_S1024x4096_S1024x1024_0_3072 : S1024x4096.Slices ![0, 3072] S1024x1024
  bcast_S_S4096x1024 : S_.BroadcastsInDim S4096x1024 (![] : Fin 0 → Fin S4096x1024.rank)
  dot_S4096x512_S512x6144_S4096x6144_1_0_0_1_n_n_wf : DotDims.WF S4096x512 S512x6144 S4096x6144 [1] [0] [0] [1] [] []
  dot_S4096x1024_S1024x6144_S4096x6144_1_0_0_1_n_n_wf : DotDims.WF S4096x1024 S1024x6144 S4096x6144 [1] [0] [0] [1] [] []
  dot_S4096x1024_S1024x1024_S4096x1024_1_0_0_1_n_n_wf : DotDims.WF S4096x1024 S1024x1024 S4096x1024 [1] [0] [0] [1] [] []

variable [Facts₀]

def dot_S4096x512_S512x6144_S4096x6144_1_0_0_1_n_n : DotDims S4096x512 S512x6144 S4096x6144 where
  lhsContracting := [1]
  rhsContracting := [0]
  lhsNonContracting := [0]
  rhsNonContracting := [1]
  lhsBatch := []
  rhsBatch := []
  wf := dot_S4096x512_S512x6144_S4096x6144_1_0_0_1_n_n_wf
def dot_S4096x1024_S1024x6144_S4096x6144_1_0_0_1_n_n : DotDims S4096x1024 S1024x6144 S4096x6144 where
  lhsContracting := [1]
  rhsContracting := [0]
  lhsNonContracting := [0]
  rhsNonContracting := [1]
  lhsBatch := []
  rhsBatch := []
  wf := dot_S4096x1024_S1024x6144_S4096x6144_1_0_0_1_n_n_wf
def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf

class Facts : Prop extends Facts₀ where

variable [Facts]
-- ==== Proof.KFrameR0.lean ====
/-
  Region 0 (the projection kernel) at a generic float instance: what its one output block holds after the body at a grid
  point, the body's triple, the proof data of its pipeline and the body obligation.

  The grid has 32 points; point t stages rows 128·t … 128·t + 127 of x and of h, the first 5120 columns of the two
  converted weight matrices and of the bias row (the same block at every point: these three windows are wider arrays
  cut to their first block, which lies wholly inside the array), and writes back rows 128·t … of the [4096, 5120] result.
-/
import proofs.«129931_j44435731645052_2_alg».proof.Proof.Gen.Kernel.Launch
import proofs.«129931_j44435731645052_2_alg».proof.Proof.Gen.Kernel.Skeleton
import proofs.«129931_j44435731645052_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The three cut windows move their whole block at every point: the first block lies inside the array. -/
theorem moved0_2 (i : grid0.Coords) (j : win0_2.block.Idx) : win0_2.moved i j = true :=
  (win0_2.moved_iff i j).mpr fun a => by
    have h := (j a).isLt
    match a with
    | ⟨0, _⟩ => exact h
    | ⟨1, _⟩ => exact h
theorem moved0_3 (i : grid0.Coords) (j : win0_3.block.Idx) : win0_3.moved i j = true :=
  (win0_3.moved_iff i j).mpr fun a => by
    have h := (j a).isLt
    match a with
    | ⟨0, _⟩ => exact h
    | ⟨1, _⟩ => exact h
theorem moved0_4 (i : grid0.Coords) (j : win0_4.block.Idx) : win0_4.moved i j = true :=
  (win0_4.moved_iff i j).mpr fun a => by
    have h := (j a).isLt
    match a with
    | ⟨0, _⟩ => exact h
    | ⟨1, _⟩ => exact h

/-- A block moved whole is filled whole: what was there before does not show. -/
theorem fill_whole {G : Pipeline.Grid} (w : Pipeline.Window sig G) {α : Type} (i : G.Coords) (hm : ∀ j, w.moved i j = true)
    (d d' : w.block.Idx → α) (g : (w.xblock i).Idx → α) : w.fill i d g = w.fill i d' g := by
  funext j; unfold Pipeline.Window.fill; rw [dif_pos (hm j), dif_pos (hm j)]

/-- A cut window's block at a point, as a staging buffer filled by a fetch holds it. -/
def sblk0_2 (c : Dev nD) (t : Fin cfg0.N) : Vec F S512x5120 .bf16 :=
  win0_2.fill (grid0.coords t) (fun _ => Scalar.ofBits .bf16 0#16) (iblk0 V c 2 t)
def sblk0_3 (c : Dev nD) (t : Fin cfg0.N) : Vec F S1024x5120 .bf16 :=
  win0_3.fill (grid0.coords t) (fun _ => Scalar.ofBits .bf16 0#16) (iblk0 V c 3 t)
def sblk0_4 (c : Dev nD) (t : Fin cfg0.N) : Vec F S1x5120 .f32 :=
  win0_4.fill (grid0.coords t) (fun _ => Scalar.ofBits .f32 0#32) (iblk0 V c 4 t)

/-! ## The body's accesses and what it leaves in the output block -/

abbrev r0_0 : Rect S128x512 := Rect.unit (s := S128x512) ![0, 0] S128x512.size inb_S128x512_S128x512_0_0
abbrev r0_1 : Rect S128x1024 := Rect.unit (s := S128x1024) ![0, 0] S128x1024.size inb_S128x1024_S128x1024_0_0
abbrev r0_2 : Rect S512x5120 := Rect.unit (s := S512x5120) ![0, 0] S512x5120.size inb_S512x5120_S512x5120_0_0
abbrev r0_3 : Rect S1024x5120 := Rect.unit (s := S1024x5120) ![0, 0] S1024x5120.size inb_S1024x5120_S1024x5120_0_0
abbrev r0_4 : Rect S1x5120 := Rect.unit (s := S1x5120) ![0, 0] S1x5120.size inb_S1x5120_S1x5120_0_0
abbrev r0_5 : Rect S128x5120 := Rect.unit (s := S128x5120) ![0, 0] S128x5120.size inb_S128x5120_S128x5120_0_0

/-- The output block after the body, from the five input blocks: its one whole store. -/
def out0_5 (x0 : Vec F S128x512 .f32) (x1 : Vec F S128x1024 .f32) (x2 : Vec F S512x5120 .bf16) (x3 : Vec F S1024x5120 .bf16) (x4 : Vec F S1x5120 .f32) : Vec F S128x5120 .f32 :=
  View.canon [⟨r0_5, k0_pay1 (View.ld x0 r0_0) (View.ld x1 r0_1) (View.ld x2 r0_2) (View.ld x3 r0_3) (View.ld x4 r0_4)⟩]

/-- The one store covers the block. -/
theorem cover0_5 (p0 : Vec F S128x5120 .f32) (y : S128x5120.Idx) :
    ∃ pc ∈ ([⟨r0_5, p0⟩] : List (View.Piece (Elt F) S128x5120 .f32)), y ∈ pc.1.set :=
  View.cover_of_tiled [⟨r0_5, p0⟩] S128x5120.size (by rfl) y

set_option maxHeartbeats 4000000 in
/-- The body on whole staging buffers, the inputs' at read contents and the output's at anything, runs and leaves the
    inputs as they were and the output at `out0_5` of the inputs. -/
theorem sound_kernel0 (c : Dev nD) (E : Set ℕ) (i : grid0.Coords)
    (arg1 : Memref sig .tc .vmem S128x512 .f32) (harg1 : arg1.IsWhole) (arg2 : Memref sig .tc .vmem S128x1024 .f32) (harg2 : arg2.IsWhole)
    (arg3 : Memref sig .tc .vmem S512x5120 .bf16) (harg3 : arg3.IsWhole) (arg4 : Memref sig .tc .vmem S1024x5120 .bf16) (harg4 : arg4.IsWhole)
    (arg5 : Memref sig .tc .vmem S1x5120 .f32) (harg5 : arg5.IsWhole) (arg6 : Memref sig .tc .vmem S128x5120 .f32) (harg6 : arg6.IsWhole)
    (x0 : Vec F S128x512 .f32) (x1 : Vec F S128x1024 .f32) (x2 : Vec F S512x5120 .bf16) (x3 : Vec F S1024x5120 .bf16) (x4 : Vec F S1x5120 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__proj_kernel i arg1 harg1 arg2 harg2 arg3 harg3 arg4 harg4 arg5 harg5 arg6 harg6) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## What the body finds in each input window's buffer -/

/-- Input window 0 holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- A cut window moved whole holds its block too, whatever the buffer held outside the moved part (there is no outside). -/
theorem before0_2_of {c : Dev nD} (dat : Dat τ (Elt F) Unit ℕ (UR sig nD τ) ℕ cfg0 c) (hA : dat.A 2 = V c (Pipeline.arrRef spec0 2))
    (hafter : ∀ t, dat.after 2 t = sblk0_2 V c t) (t : Fin cfg0.N) (d) : dat.before 2 t d = sblk0_2 V c t :=
  (dat.before_in_eq_fetched 2 rfl (fun _ => rfl) (fun _ _ _ => rfl)
      (fun t => by rw [hafter]; unfold sblk0_2; exact (win0_2.cut_fill _ _ _).trans (by unfold Dat.blockOf iblk0; rw [hA]; try rfl)) t d).trans
    (by unfold Dat.fetched Dat.blockOf sblk0_2 iblk0; rw [hA]; exact fill_whole win0_2 _ (moved0_2 _) _ _ _)
theorem before0_3_of {c : Dev nD} (dat : Dat τ (Elt F) Unit ℕ (UR sig nD τ) ℕ cfg0 c) (hA : dat.A 3 = V c (Pipeline.arrRef spec0 3))
    (hafter : ∀ t, dat.after 3 t = sblk0_3 V c t) (t : Fin cfg0.N) (d) : dat.before 3 t d = sblk0_3 V c t :=
  (dat.before_in_eq_fetched 3 rfl (fun _ => rfl) (fun _ _ _ => rfl)
      (fun t => by rw [hafter]; unfold sblk0_3; exact (win0_3.cut_fill _ _ _).trans (by unfold Dat.blockOf iblk0; rw [hA]; try rfl)) t d).trans
    (by unfold Dat.fetched Dat.blockOf sblk0_3 iblk0; rw [hA]; exact fill_whole win0_3 _ (moved0_3 _) _ _ _)
theorem before0_4_of {c : Dev nD} (dat : Dat τ (Elt F) Unit ℕ (UR sig nD τ) ℕ cfg0 c) (hA : dat.A 4 = V c (Pipeline.arrRef spec0 4))
    (hafter : ∀ t, dat.after 4 t = sblk0_4 V c t) (t : Fin cfg0.N) (d) : dat.before 4 t d = sblk0_4 V c t :=
  (dat.before_in_eq_fetched 4 rfl (fun _ => rfl) (fun _ _ _ => rfl)
      (fun t => by rw [hafter]; unfold sblk0_4; exact (win0_4.cut_fill _ _ _).trans (by unfold Dat.blockOf iblk0; rw [hA]; try rfl)) t d).trans
    (by unfold Dat.fetched Dat.blockOf sblk0_4 iblk0; rw [hA]; exact fill_whole win0_4 _ (moved0_4 _) _ _ _)

/-! ## The pipeline's proof data -/

/-- The proof data of pipeline 0 on core `c`: the arrays as the region finds them; after the body at point `t` each
    input's buffer at its block and the output's at `out0_5` of the input blocks; the invariant the core's other scoped buffers and
    its random-number register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => sblk0_2 V c t
    | ⟨3, _⟩ => sblk0_3 V c t
    | ⟨4, _⟩ => sblk0_4 V c t
    | ⟨5, _⟩ => out0_5 (iblk0 V c 0 t) (iblk0 V c 1 t) (sblk0_2 V c t) (sblk0_3 V c t) (sblk0_4 V c t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = sblk0_2 V c t := by dsimp only [dat0]
theorem after0_3 (c : Dev nD) (t : Fin cfg0.N) : (dat0 V c).after 3 t = sblk0_3 V c t := by dsimp only [dat0]
theorem after0_4 (c : Dev nD) (t : Fin cfg0.N) : (dat0 V c).after 4 t = sblk0_4 V c t := by dsimp only [dat0]
theorem after0_5 (c : Dev nD) (t : Fin cfg0.N) : (dat0 V c).after 5 t = out0_5 (iblk0 V c 0 t) (iblk0 V c 1 t) (sblk0_2 V c t) (sblk0_3 V c t) (sblk0_4 V c t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = sblk0_2 V c t :=
  before0_2_of V (dat0 V c) (A_eq0 V c 2) (after0_2 V c) t d
theorem before0_3 (c : Dev nD) (t : Fin cfg0.N) (d) : (dat0 V c).before 3 t d = sblk0_3 V c t :=
  before0_3_of V (dat0 V c) (A_eq0 V c 3) (after0_3 V c) t d
theorem before0_4 (c : Dev nD) (t : Fin cfg0.N) (d) : (dat0 V c).before 4 t d = sblk0_4 V c t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns: the three cut windows' buffers are described on the part their transfers move. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ (∃ d, owns (c : Thread nD τ) (st0_2 t) fullShare ((cfg0.win 2).fill (cfg0.grid.coords t) d ((cfg0.win 2).cut (cfg0.grid.coords t) ((dat0 V c).after 2 t))))
    ∗ (∃ d, owns (c : Thread nD τ) (st0_3 t) fullShare ((cfg0.win 3).fill (cfg0.grid.coords t) d ((cfg0.win 3).cut (cfg0.grid.coords t) ((dat0 V c).after 3 t))))
    ∗ (∃ d, owns (c : Thread nD τ) (st0_4 t) fullShare ((cfg0.win 4).fill (cfg0.grid.coords t) d ((cfg0.win 4).cut (cfg0.grid.coords t) ((dat0 V c).after 4 t))))
    ∗ owns (c : Thread nD τ) (st0_5 t) fullShare ((dat0 V c).after 5 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (sblk0_2 V c t) (sblk0_3 V c t) (sblk0_4 V c t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]
  · iexists (sblk0_2 V c t); rw [Pipeline.Window.fill_cut]; iexact H2
  isplitl [H3]
  · iexists (sblk0_3 V c t); rw [Pipeline.Window.fill_cut]; iexact H3
  isplitl [H4]
  · iexists (sblk0_4 V c t); rw [Pipeline.Window.fill_cut]; iexact H4
  iexact H5

/-- The library's body obligation, at every point. -/
theorem body_obligation0 (c : Dev nD) : BodyObligationLoose (dat0 (F := F) V c) (defs₀ (F := F)) Variants.none () Set.univ := fun t => by
  rw [bigSep_W0, bigSep_W0]
  exact sound_body0 V c t

end Cert.Kernel.Hand

end
-- ==== Proof.KFrameR1.lean ====
/-
  Region 1 (the gates kernel) at a generic float instance: what its four output blocks hold after the body at a grid
  point, the body's triple, the proof data of its pipeline and the body obligation.

  The grid has 32 points; point t stages rows 128·t … 128·t + 127 of the projection and of c, e, r, and the three
  converted weight matrices whole (the same block at every point), and writes back rows 128·t … of the four results.
  Every block lies inside its array.
-/
import proofs.«129931_j44435731645052_2_alg».proof.Proof.Gen.Kernel.Launch
import proofs.«129931_j44435731645052_2_alg».proof.Proof.Gen.Kernel.Skeleton
import proofs.«129931_j44435731645052_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses and what it leaves in the output blocks -/

abbrev rA : Rect S128x5120 := Rect.unit (s := S128x5120) ![0, 0] S128x5120.size inb_S128x5120_S128x5120_0_0
abbrev rB : Rect S128x1024 := Rect.unit (s := S128x1024) ![0, 0] S128x1024.size inb_S128x1024_S128x1024_0_0
abbrev rC : Rect S1024x3072 := Rect.unit (s := S1024x3072) ![0, 0] S1024x3072.size inb_S1024x3072_S1024x3072_0_0
abbrev rD : Rect S1024x4096 := Rect.unit (s := S1024x4096) ![0, 0] S1024x4096.size inb_S1024x4096_S1024x4096_0_0

/-- Output window 7's block after the body, from the seven input blocks: its one whole store. -/
def out1_7 (x0 : Vec F S128x5120 .f32) (x1 : Vec F S128x1024 .f32) (x2 : Vec F S128x1024 .f32) (x3 : Vec F S128x1024 .f32) (x4 : Vec F S1024x3072 .bf16) (x5 : Vec F S1024x4096 .bf16) (x6 : Vec F S1024x4096 .bf16) : Vec F S128x1024 .f32 :=
  View.canon [⟨rB, k1_pay1 (k1_pay6 (View.ld x0 rA)) (View.ld x1 rB) (k1_pay22 (View.ld x0 rA) (View.ld x1 rB) (View.ld x2 rB) (View.ld x3 rB) (View.ld x4 rC) (View.ld x5 rD) (View.ld x6 rD)) (k1_pay23 (View.ld x0 rA) (View.ld x1 rB) (View.ld x2 rB) (View.ld x4 rC) (View.ld x5 rD)) (k1_pay24 (View.ld x3 rB) (View.ld x6 rD))⟩]
/-- Output window 8's block after the body, from the seven input blocks: its one whole store. -/
def out1_8 (x0 : Vec F S128x5120 .f32) (x1 : Vec F S128x1024 .f32) (x2 : Vec F S128x1024 .f32) (x3 : Vec F S128x1024 .f32) (x4 : Vec F S1024x3072 .bf16) (x5 : Vec F S1024x4096 .bf16) (x6 : Vec F S1024x4096 .bf16) : Vec F S128x1024 .f32 :=
  View.canon [⟨rB, k1_pay2 (k1_pay7 (View.ld x0 rA)) (k1_pay9 (View.ld x2 rB)) (k1_pay15 (View.ld x5 rD))⟩]
/-- Output window 9's block after the body, from the seven input blocks: its one whole store. -/
def out1_9 (x0 : Vec F S128x5120 .f32) (x1 : Vec F S128x1024 .f32) (x2 : Vec F S128x1024 .f32) (x3 : Vec F S128x1024 .f32) (x4 : Vec F S1024x3072 .bf16) (x5 : Vec F S1024x4096 .bf16) (x6 : Vec F S1024x4096 .bf16) : Vec F S128x1024 .f32 :=
  View.canon [⟨rB, k1_pay3 (k1_pay7 (View.ld x0 rA)) (k1_pay10 (View.ld x3 rB)) (k1_pay17 (View.ld x6 rD))⟩]
/-- Output window 10's block after the body, from the seven input blocks: its one whole store. -/
def out1_10 (x0 : Vec F S128x5120 .f32) (x1 : Vec F S128x1024 .f32) (x2 : Vec F S128x1024 .f32) (x3 : Vec F S128x1024 .f32) (x4 : Vec F S1024x3072 .bf16) (x5 : Vec F S1024x4096 .bf16) (x6 : Vec F S1024x4096 .bf16) : Vec F S128x1024 .f32 :=
  View.canon [⟨rB, k1_pay4 (k1_pay6 (View.ld x0 rA)) (k1_pay7 (View.ld x0 rA)) (k1_pay8 (View.ld x0 rA)) (View.ld x1 rB) (k1_pay9 (View.ld x2 rB)) (k1_pay10 (View.ld x3 rB)) (k1_pay14 (View.ld x4 rC)) (k1_pay15 (View.ld x5 rD)) (k1_pay16 (View.ld x5 rD)) (k1_pay17 (View.ld x6 rD)) (k1_pay18 (View.ld x6 rD)) (k1_pay22 (View.ld x0 rA) (View.ld x1 rB) (View.ld x2 rB) (View.ld x3 rB) (View.ld x4 rC) (View.ld x5 rD) (View.ld x6 rD)) (k1_pay23 (View.ld x0 rA) (View.ld x1 rB) (View.ld x2 rB) (View.ld x4 rC) (View.ld x5 rD)) (k1_pay24 (View.ld x3 rB) (View.ld x6 rD))⟩]

/-- One whole store covers the block. -/
theorem cover1 (p0 : Vec F S128x1024 .f32) (y : S128x1024.Idx) :
    ∃ pc ∈ ([⟨rB, p0⟩] : List (View.Piece (Elt F) S128x1024 .f32)), y ∈ pc.1.set :=
  View.cover_of_tiled [⟨rB, p0⟩] S128x1024.size (by rfl) y

set_option maxHeartbeats 8000000 in
/-- The body on whole staging buffers, the inputs' at read contents and the outputs' at anything, runs and leaves the
    inputs as they were and each output at its `out1_W` of the inputs. -/
theorem sound_kernel1 (c : Dev nD) (E : Set ℕ) (i : grid1.Coords)
    (arg1 : Memref sig .tc .vmem S128x5120 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S1024x3072 .bf16) (harg5 : arg5.IsWhole) (arg6 : Memref sig .tc .vmem S1024x4096 .bf16) (harg6 : arg6.IsWhole) (arg7 : Memref sig .tc .vmem S1024x4096 .bf16) (harg7 : arg7.IsWhole) (arg8 : Memref sig .tc .vmem S128x1024 .f32) (harg8 : arg8.IsWhole) (arg9 : Memref sig .tc .vmem S128x1024 .f32) (harg9 : arg9.IsWhole) (arg10 : Memref sig .tc .vmem S128x1024 .f32) (harg10 : arg10.IsWhole) (arg11 : Memref sig .tc .vmem S128x1024 .f32) (harg11 : arg11.IsWhole)
    (x0 : Vec F S128x5120 .f32) (x1 : Vec F S128x1024 .f32) (x2 : Vec F S128x1024 .f32) (x3 : Vec F S128x1024 .f32) (x4 : Vec F S1024x3072 .bf16) (x5 : Vec F S1024x4096 .bf16) (x6 : Vec F S1024x4096 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out1_7 x0 x1 x2 x3 x4 x5 x6) ∗ owns (c : Thread nD τ) arg9 fullShare (out1_8 x0 x1 x2 x3 x4 x5 x6)
            ∗ owns (c : Thread nD τ) arg10 fullShare (out1_9 x0 x1 x2 x3 x4 x5 x6) ∗ owns (c : Thread nD τ) arg11 fullShare (out1_10 x0 x1 x2 x3 x4 x5 x6)) -∗ K ⟨⟩))
      ⊢ wp frame (wpE (defs₀ (F := F)) Variants.none c none) E (cc1__gates_out_kernel i arg1 harg1 arg2 harg2 arg3 harg3 arg4 harg4 arg5 harg5 arg6 harg6 arg7 harg7 arg8 harg8 arg9 harg9 arg10 harg10 arg11 harg11) K := by
  simp only [cc1__gates_out_kernel_eq_skeleton]; unfold cc1__gates_out_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover1 _)
  isplitl [H8]
  · iexists _; isplitr
    swap; · iexact H8
    ipureintro
    exact View.read_writes_eq_canon _ _ _ (cover1 _)
  isplitl [H9]
  · iexists _; isplitr
    swap; · iexact H9
    ipureintro
    exact View.read_writes_eq_canon _ _ _ (cover1 _)
  iexists _; isplitr
  swap; · iexact H10
  ipureintro
  exact View.read_writes_eq_canon _ _ _ (cover1 _)

/-! ## The pipeline's proof data -/

/-- The proof data of pipeline 1 on core `c`: the arrays as the region finds them; after the body at point `t` each
    input's buffer at its block and each output's at its `out1_W` of the input blocks; the invariant the core's other
    scoped buffers and its random-number register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
    | ⟨8, _⟩ => out1_8 (iblk1 V c 0 t) (iblk1 V c 1 t) (iblk1 V c 2 t) (iblk1 V c 3 t) (iblk1 V c 4 t) (iblk1 V c 5 t) (iblk1 V c 6 t)
    | ⟨9, _⟩ => out1_9 (iblk1 V c 0 t) (iblk1 V c 1 t) (iblk1 V c 2 t) (iblk1 V c 3 t) (iblk1 V c 4 t) (iblk1 V c 5 t) (iblk1 V c 6 t)
    | ⟨10, _⟩ => out1_10 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) := by dsimp only [dat1]
theorem after1_10 (c : Dev nD) (t : Fin cfg1.N) : (dat1 V c).after 10 t = out1_10 (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

/-- The body at any point: the inputs' buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel1 c Set.univ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KFrameRun.lean ====
/-
  The run of @main at a generic float instance: the host stretch, then the two regions, as the segments of one launch.
  Between segments every unscoped buffer of the core is held whole at named contents: the launch memory, then what the
  host stretch computes, then region 0's arrays at what its write-backs leave, then region 1's. Every weakly fair
  execution terminates, and the final memory holds each unscoped buffer at the last of these contents; the arguments
  are never written, and the results are the output windows' arrays after their last write-back.
-/
import proofs.«129931_j44435731645052_2_alg».proof.Proof.Gen.Kernel.Launch
import proofs.«129931_j44435731645052_2_alg».proof.Proof.Gen.Kernel.Skeleton
import proofs.«129931_j44435731645052_2_alg».proof.Proof.Gen.Kernel.Points
import proofs.«129931_j44435731645052_2_alg».proof.Proof.KFrameR0
import proofs.«129931_j44435731645052_2_alg».proof.Proof.KFrameR1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev Wa : Dev nD → Valuation τ sig (Elt F) := fun c b => (s₀ m ρ).mem ((c : Dev nD), b)
/-- After the host stretch (region 0's entry). -/
abbrev Wb : Dev nD → Valuation τ sig (Elt F) := fun c => StableHlo.after hostOps0 (Wa m ρ c)
abbrev Vb : (c : Dev nD) → (b : Ref sig .tc) → Buf (Elt F) ((c : Thread nD τ).loc b) := fun c b => Wb m ρ c b
/-- At region 0's exit (region 1's entry): its arrays at what the pipeline leaves, every other buffer as entered. -/
def Wc (c : Dev nD) : Valuation τ sig (Elt F) :=
  Pipeline.withArrays spec0 c (Wb m ρ c) fun w => (dat0 (Vb m ρ) c).arrAt w cfg0.N
theorem Wc_arr (c : Dev nD) (w : Fin cfg0.W) :
    Wc m ρ c (Proc.devRef .tc (Pipeline.arrRef spec0 w)) = (dat0 (Vb m ρ) c).arrAt w cfg0.N := by
  unfold Wc; exact Pipeline.withArrays_arr spec0 launch0.win.arr_inj c _ _ w
theorem Wc_of_ne (c : Dev nD) (b : Ref sig .tc) (hb : ∀ w, Pipeline.arrRef spec0 w ≠ b) :
    Wc m ρ c (Proc.devRef .tc b) = Wb m ρ c (Proc.devRef .tc b) := by
  unfold Wc; exact Pipeline.withArrays_of_ne spec0 c _ _ b hb
abbrev Vc : (c : Dev nD) → (b : Ref sig .tc) → Buf (Elt F) ((c : Thread nD τ).loc b) := fun c b => Wc m ρ c b
theorem hF0 (c : Dev nD) (w : Fin cfg0.W) : (dat0 (Vb m ρ) c).arrAt w cfg0.N = Vc m ρ c (Pipeline.arrRef spec0 w) :=
  (Wc_arr m ρ c w).symm
theorem hrest0 (c : Dev nD) : ∀ b, b ∉ Finset.univ.image (Pipeline.arrRef spec0) → Vc m ρ c b = Vb m ρ c b :=
  fun b hb => Wc_of_ne m ρ c b fun w e => hb (Finset.mem_image.mpr ⟨w, Finset.mem_univ _, e⟩)
/-- At region 1's exit: its arrays at what the pipeline leaves, every other buffer as entered. -/
def Wd (c : Dev nD) : Valuation τ sig (Elt F) :=
  Pipeline.withArrays spec1 c (Wc m ρ c) fun w => (dat1 (Vc m ρ) c).arrAt w cfg1.N
theorem Wd_arr (c : Dev nD) (w : Fin cfg1.W) :
    Wd m ρ c (Proc.devRef .tc (Pipeline.arrRef spec1 w)) = (dat1 (Vc m ρ) c).arrAt w cfg1.N := by
  unfold Wd; exact Pipeline.withArrays_arr spec1 launch1.win.arr_inj c _ _ w
theorem Wd_of_ne (c : Dev nD) (b : Ref sig .tc) (hb : ∀ w, Pipeline.arrRef spec1 w ≠ b) :
    Wd m ρ c (Proc.devRef .tc b) = Wc m ρ c (Proc.devRef .tc b) := by
  unfold Wd; exact Pipeline.withArrays_of_ne spec1 c _ _ b hb
abbrev Vd : (c : Dev nD) → (b : Ref sig .tc) → Buf (Elt F) ((c : Thread nD τ).loc b) := fun c b => Wd m ρ c b
theorem hF1 (c : Dev nD) (w : Fin cfg1.W) : (dat1 (Vc m ρ) c).arrAt w cfg1.N = Vd m ρ c (Pipeline.arrRef spec1 w) :=
  (Wd_arr m ρ c w).symm
theorem hrest1 (c : Dev nD) : ∀ b, b ∉ Finset.univ.image (Pipeline.arrRef spec1) → Vd m ρ c b = Vc m ρ c b :=
  fun b hb => Wd_of_ne m ρ c b fun w e => hb (Finset.mem_image.mpr ⟨w, Finset.mem_univ _, e⟩)

/-- The references the host stretch writes. -/
abbrev hostW : List (Ref sig .tc) := [main_v0, main_v1, main_v2, main_v3, main_v4, main_v5, main_v6]
/-- A buffer the host stretch does not write holds after it what it held before. -/
theorem Wb_of_not_written (c : Dev nD) (b : Ref sig .tc) (hb : b ∉ hostW) :
    Wb m ρ c (Proc.devRef .tc b) = Wa m ρ c (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    have h0 : b ≠ main_v0 := fun e => hb (e ▸ by decide)
    have h1 : b ≠ main_v1 := fun e => hb (e ▸ by decide)
    have h2 : b ≠ main_v2 := fun e => hb (e ▸ by decide)
    have h3 : b ≠ main_v3 := fun e => hb (e ▸ by decide)
    have h4 : b ≠ main_v4 := fun e => hb (e ▸ by decide)
    have h5 : b ≠ main_v5 := fun e => hb (e ▸ by decide)
    have h6 : b ≠ main_v6 := fun e => hb (e ▸ by decide)
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6⟩))

/-! ### The arguments end as launched -/

theorem Wd_main_arg0 (c : Dev nD) : Wd m ρ c (Proc.devRef .tc main_arg0) = m ((c : Thread nD τ).loc main_arg0) :=
  calc Wd m ρ c (Proc.devRef .tc main_arg0)
    _ = Wc m ρ c (Proc.devRef .tc main_arg0) := Wd_of_ne m ρ c main_arg0 (by decide)
    _ = Wb m ρ c (Proc.devRef .tc main_arg0) := (Wc_arr m ρ c 0).trans (((dat0 (Vb m ρ) c).arrAt_in 0 rfl _).trans (A_eq0 (Vb m ρ) c 0))
    _ = Wa m ρ c (Proc.devRef .tc main_arg0) := Wb_of_not_written m ρ c main_arg0 (by decide)
    _ = m ((c : Thread nD τ).loc main_arg0) := rfl
theorem Wd_main_arg1 (c : Dev nD) : Wd m ρ c (Proc.devRef .tc main_arg1) = m ((c : Thread nD τ).loc main_arg1) :=
  calc Wd m ρ c (Proc.devRef .tc main_arg1)
    _ = Wc m ρ c (Proc.devRef .tc main_arg1) := Wd_of_ne m ρ c main_arg1 (by decide)
    _ = Wb m ρ c (Proc.devRef .tc main_arg1) := (Wc_arr m ρ c 1).trans (((dat0 (Vb m ρ) c).arrAt_in 1 rfl _).trans (A_eq0 (Vb m ρ) c 1))
    _ = Wa m ρ c (Proc.devRef .tc main_arg1) := Wb_of_not_written m ρ c main_arg1 (by decide)
    _ = m ((c : Thread nD τ).loc main_arg1) := rfl
theorem Wd_main_arg2 (c : Dev nD) : Wd m ρ c (Proc.devRef .tc main_arg2) = m ((c : Thread nD τ).loc main_arg2) :=
  calc Wd m ρ c (Proc.devRef .tc main_arg2)
    _ = Wc m ρ c (Proc.devRef .tc main_arg2) := (Wd_arr m ρ c 1).trans (((dat1 (Vc m ρ) c).arrAt_in 1 rfl _).trans (A_eq1 (Vc m ρ) c 1))
    _ = Wb m ρ c (Proc.devRef .tc main_arg2) := Wc_of_ne m ρ c main_arg2 (by decide)
    _ = Wa m ρ c (Proc.devRef .tc main_arg2) := Wb_of_not_written m ρ c main_arg2 (by decide)
    _ = m ((c : Thread nD τ).loc main_arg2) := rfl
theorem Wd_main_arg3 (c : Dev nD) : Wd m ρ c (Proc.devRef .tc main_arg3) = m ((c : Thread nD τ).loc main_arg3) :=
  calc Wd m ρ c (Proc.devRef .tc main_arg3)
    _ = Wc m ρ c (Proc.devRef .tc main_arg3) := (Wd_arr m ρ c 2).trans (((dat1 (Vc m ρ) c).arrAt_in 2 rfl _).trans (A_eq1 (Vc m ρ) c 2))
    _ = Wb m ρ c (Proc.devRef .tc main_arg3) := Wc_of_ne m ρ c main_arg3 (by decide)
    _ = Wa m ρ c (Proc.devRef .tc main_arg3) := Wb_of_not_written m ρ c main_arg3 (by decide)
    _ = m ((c : Thread nD τ).loc main_arg3) := rfl
theorem Wd_main_arg4 (c : Dev nD) : Wd m ρ c (Proc.devRef .tc main_arg4) = m ((c : Thread nD τ).loc main_arg4) :=
  calc Wd m ρ c (Proc.devRef .tc main_arg4)
    _ = Wc m ρ c (Proc.devRef .tc main_arg4) := (Wd_arr m ρ c 3).trans (((dat1 (Vc m ρ) c).arrAt_in 3 rfl _).trans (A_eq1 (Vc m ρ) c 3))
    _ = Wb m ρ c (Proc.devRef .tc main_arg4) := Wc_of_ne m ρ c main_arg4 (by decide)
    _ = Wa m ρ c (Proc.devRef .tc main_arg4) := Wb_of_not_written m ρ c main_arg4 (by decide)
    _ = m ((c : Thread nD τ).loc main_arg4) := rfl
theorem Wd_main_arg5 (c : Dev nD) : Wd m ρ c (Proc.devRef .tc main_arg5) = m ((c : Thread nD τ).loc main_arg5) :=
  calc Wd m ρ c (Proc.devRef .tc main_arg5)
    _ = Wc m ρ c (Proc.devRef .tc main_arg5) := Wd_of_ne m ρ c main_arg5 (by decide)
    _ = Wb m ρ c (Proc.devRef .tc main_arg5) := Wc_of_ne m ρ c main_arg5 (by decide)
    _ = Wa m ρ c (Proc.devRef .tc main_arg5) := Wb_of_not_written m ρ c main_arg5 (by decide)
    _ = m ((c : Thread nD τ).loc main_arg5) := rfl
theorem Wd_main_arg6 (c : Dev nD) : Wd m ρ c (Proc.devRef .tc main_arg6) = m ((c : Thread nD τ).loc main_arg6) :=
  calc Wd m ρ c (Proc.devRef .tc main_arg6)
    _ = Wc m ρ c (Proc.devRef .tc main_arg6) := Wd_of_ne m ρ c main_arg6 (by decide)
    _ = Wb m ρ c (Proc.devRef .tc main_arg6) := Wc_of_ne m ρ c main_arg6 (by decide)
    _ = Wa m ρ c (Proc.devRef .tc main_arg6) := Wb_of_not_written m ρ c main_arg6 (by decide)
    _ = m ((c : Thread nD τ).loc main_arg6) := rfl
theorem Wd_main_arg7 (c : Dev nD) : Wd m ρ c (Proc.devRef .tc main_arg7) = m ((c : Thread nD τ).loc main_arg7) :=
  calc Wd m ρ c (Proc.devRef .tc main_arg7)
    _ = Wc m ρ c (Proc.devRef .tc main_arg7) := Wd_of_ne m ρ c main_arg7 (by decide)
    _ = Wb m ρ c (Proc.devRef .tc main_arg7) := Wc_of_ne m ρ c main_arg7 (by decide)
    _ = Wa m ρ c (Proc.devRef .tc main_arg7) := Wb_of_not_written m ρ c main_arg7 (by decide)
    _ = m ((c : Thread nD τ).loc main_arg7) := rfl
theorem Wd_main_arg8 (c : Dev nD) : Wd m ρ c (Proc.devRef .tc main_arg8) = m ((c : Thread nD τ).loc main_arg8) :=
  calc Wd m ρ c (Proc.devRef .tc main_arg8)
    _ = Wc m ρ c (Proc.devRef .tc main_arg8) := Wd_of_ne m ρ c main_arg8 (by decide)
    _ = Wb m ρ c (Proc.devRef .tc main_arg8) := Wc_of_ne m ρ c main_arg8 (by decide)
    _ = Wa m ρ c (Proc.devRef .tc main_arg8) := Wb_of_not_written m ρ c main_arg8 (by decide)
    _ = m ((c : Thread nD τ).loc main_arg8) := rfl
theorem Wd_main_arg9 (c : Dev nD) : Wd m ρ c (Proc.devRef .tc main_arg9) = m ((c : Thread nD τ).loc main_arg9) :=
  calc Wd m ρ c (Proc.devRef .tc main_arg9)
    _ = Wc m ρ c (Proc.devRef .tc main_arg9) := Wd_of_ne m ρ c main_arg9 (by decide)
    _ = Wb m ρ c (Proc.devRef .tc main_arg9) := Wc_of_ne m ρ c main_arg9 (by decide)
    _ = Wa m ρ c (Proc.devRef .tc main_arg9) := Wb_of_not_written m ρ c main_arg9 (by decide)
    _ = m ((c : Thread nD τ).loc main_arg9) := rfl
theorem Wd_main_arg10 (c : Dev nD) : Wd m ρ c (Proc.devRef .tc main_arg10) = m ((c : Thread nD τ).loc main_arg10) :=
  calc Wd m ρ c (Proc.devRef .tc main_arg10)
    _ = Wc m ρ c (Proc.devRef .tc main_arg10) := Wd_of_ne m ρ c main_arg10 (by decide)
    _ = Wb m ρ c (Proc.devRef .tc main_arg10) := Wc_of_ne m ρ c main_arg10 (by decide)
    _ = Wa m ρ c (Proc.devRef .tc main_arg10) := Wb_of_not_written m ρ c main_arg10 (by decide)
    _ = m ((c : Thread nD τ).loc main_arg10) := rfl
theorem Wd_main_arg11 (c : Dev nD) : Wd m ρ c (Proc.devRef .tc main_arg11) = m ((c : Thread nD τ).loc main_arg11) :=
  calc Wd m ρ c (Proc.devRef .tc main_arg11)
    _ = Wc m ρ c (Proc.devRef .tc main_arg11) := Wd_of_ne m ρ c main_arg11 (by decide)
    _ = Wb m ρ c (Proc.devRef .tc main_arg11) := Wc_of_ne m ρ c main_arg11 (by decide)
    _ = Wa m ρ c (Proc.devRef .tc main_arg11) := Wb_of_not_written m ρ c main_arg11 (by decide)
    _ = m ((c : Thread nD τ).loc main_arg11) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Vb m ρ) c
  | ⟨1, _⟩ => fun c => dat1 (Vc m ρ) c
abbrev 𝒱₀ : Variants := Variants.none
abbrev L : GSem nD τ sig → Finset Unit := fun _ => ∅
abbrev lv : GSem nD τ sig → Unit → ℕ := fun _ _ => 0
/-- What rides beside the buffers through every segment: the core's random-number register at some state and its dues, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (Wd m ρ c) ∗ ∃ r, prngReg c r)

/-! ## The regions as segments -/

set_option backward.isDefEq.respectTransparency.types false in
/-- Region 0 over the thread state: entered from every unscoped buffer at the contents after the host stretch, left at
    its exit contents. Its arrays are split out of the unscoped buffers and put back; the register goes into the
    body's invariant and comes out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := body_obligation0 (Vb m ρ) c
  hwaits := Pipeline.hwaits_of_owed_zero _ _ _ _ L lv 0 fun _ _ => rfl
  pre c := iprop(StableHlo.held (c : Thread nD τ) (Pipeline.ucRefs τ sig) (Wb m ρ c) ∗ R c)
  post c := iprop(StableHlo.held (c : Thread nD τ) (Pipeline.ucRefs τ sig) (Wc m ρ c) ∗ R c)
  X c := iprop(∃ r, prngReg c r)
  Y c := iprop(∃ r, prngReg c r)
  Z c := Pipeline.unscopedRest (Ix := Unit) (Name := ℕ) (U := UR sig nD τ) (Lvl := ℕ) spec0 c (Vb m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vb m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vb m ρ c) (Vc m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from region 0's exit contents, left at its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vc m ρ) c).loose
  hwaits := Pipeline.hwaits_of_owed_zero _ _ _ _ L lv 1 fun _ _ => rfl
  pre c := iprop(StableHlo.held (c : Thread nD τ) (Pipeline.ucRefs τ sig) (Wc m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vc m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vc m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vc m ρ c) (Vd m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh' (Wa m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: from any memory with zero counters, every weakly fair execution of @main terminates, nothing faulting, and
    the final memory holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wd m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wa m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Wa m ρ c)
        from Pipeline.unscopedBufs_held c (Wa m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wd m ρ c b)
    (hfin := fun c s' => by
      iintro ⟨⟨Hh, -⟩, HSI⟩
      unfold StableHlo.held
      imodintro
      iapply (pointsTo_read_all (Pipeline.ucRefs τ sig) (fun b => (((c : Thread nD τ)).1, b)) (Wd m ρ c) s')
      isplitl [Hh] <;> iassumption)
    (hQ := fun s h c => h c)

/-- The frame at any float instance: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_arg0 (by decide))).trans (Wd_main_arg0 m ρ c),
     (h c _ (mem_uc main_arg1 (by decide))).trans (Wd_main_arg1 m ρ c),
     (h c _ (mem_uc main_arg2 (by decide))).trans (Wd_main_arg2 m ρ c),
     (h c _ (mem_uc main_arg3 (by decide))).trans (Wd_main_arg3 m ρ c),
     (h c _ (mem_uc main_arg4 (by decide))).trans (Wd_main_arg4 m ρ c),
     (h c _ (mem_uc main_arg5 (by decide))).trans (Wd_main_arg5 m ρ c),
     (h c _ (mem_uc main_arg6 (by decide))).trans (Wd_main_arg6 m ρ c),
     (h c _ (mem_uc main_arg7 (by decide))).trans (Wd_main_arg7 m ρ c),
     (h c _ (mem_uc main_arg8 (by decide))).trans (Wd_main_arg8 m ρ c),
     (h c _ (mem_uc main_arg9 (by decide))).trans (Wd_main_arg9 m ρ c),
     (h c _ (mem_uc main_arg10 (by decide))).trans (Wd_main_arg10 m ρ c),
     (h c _ (mem_uc main_arg11 (by decide))).trans (Wd_main_arg11 m ρ c)⟩)
    (run_all m ρ)

end Cert.Kernel.Hand

end
-- ==== Proof.FrameR0.lean ====
/-
  Region 0 (the projection kernel) at a generic float instance: what its one output block holds after the body at a grid
  point, the body's triple, the proof data of its pipeline and the body obligation.

  The grid has 32 points; point t stages rows 128·t … 128·t + 127 of x and of h, the first 5120 columns of the two
  converted weight matrices and of the bias row (the same block at every point: these three windows are wider arrays
  cut to their first block, which lies wholly inside the array), and writes back rows 128·t … of the [4096, 5120] result.
-/
import proofs.«129931_j44435731645052_2_alg».proof.Proof.Gen.KernelIdeal.Launch
import proofs.«129931_j44435731645052_2_alg».proof.Proof.Gen.KernelIdeal.Skeleton
import proofs.«129931_j44435731645052_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The three cut windows move their whole block at every point: the first block lies inside the array. -/
theorem moved0_2 (i : grid0.Coords) (j : win0_2.block.Idx) : win0_2.moved i j = true :=
  (win0_2.moved_iff i j).mpr fun a => by
    have h := (j a).isLt
    match a with
    | ⟨0, _⟩ => exact h
    | ⟨1, _⟩ => exact h
theorem moved0_3 (i : grid0.Coords) (j : win0_3.block.Idx) : win0_3.moved i j = true :=
  (win0_3.moved_iff i j).mpr fun a => by
    have h := (j a).isLt
    match a with
    | ⟨0, _⟩ => exact h
    | ⟨1, _⟩ => exact h
theorem moved0_4 (i : grid0.Coords) (j : win0_4.block.Idx) : win0_4.moved i j = true :=
  (win0_4.moved_iff i j).mpr fun a => by
    have h := (j a).isLt
    match a with
    | ⟨0, _⟩ => exact h
    | ⟨1, _⟩ => exact h

/-- A block moved whole is filled whole: what was there before does not show. -/
theorem fill_whole {G : Pipeline.Grid} (w : Pipeline.Window sig G) {α : Type} (i : G.Coords) (hm : ∀ j, w.moved i j = true)
    (d d' : w.block.Idx → α) (g : (w.xblock i).Idx → α) : w.fill i d g = w.fill i d' g := by
  funext j; unfold Pipeline.Window.fill; rw [dif_pos (hm j), dif_pos (hm j)]

/-- A cut window's block at a point, as a staging buffer filled by a fetch holds it. -/
def sblk0_2 (c : Dev nD) (t : Fin cfg0.N) : Vec F S512x5120 .bf16 :=
  win0_2.fill (grid0.coords t) (fun _ => Scalar.ofBits .bf16 0#16) (iblk0 V c 2 t)
def sblk0_3 (c : Dev nD) (t : Fin cfg0.N) : Vec F S1024x5120 .bf16 :=
  win0_3.fill (grid0.coords t) (fun _ => Scalar.ofBits .bf16 0#16) (iblk0 V c 3 t)
def sblk0_4 (c : Dev nD) (t : Fin cfg0.N) : Vec F S1x5120 .f32 :=
  win0_4.fill (grid0.coords t) (fun _ => Scalar.ofBits .f32 0#32) (iblk0 V c 4 t)

/-! ## The body's accesses and what it leaves in the output block -/

abbrev r0_0 : Rect S128x512 := Rect.unit (s := S128x512) ![0, 0] S128x512.size inb_S128x512_S128x512_0_0
abbrev r0_1 : Rect S128x1024 := Rect.unit (s := S128x1024) ![0, 0] S128x1024.size inb_S128x1024_S128x1024_0_0
abbrev r0_2 : Rect S512x5120 := Rect.unit (s := S512x5120) ![0, 0] S512x5120.size inb_S512x5120_S512x5120_0_0
abbrev r0_3 : Rect S1024x5120 := Rect.unit (s := S1024x5120) ![0, 0] S1024x5120.size inb_S1024x5120_S1024x5120_0_0
abbrev r0_4 : Rect S1x5120 := Rect.unit (s := S1x5120) ![0, 0] S1x5120.size inb_S1x5120_S1x5120_0_0
abbrev r0_5 : Rect S128x5120 := Rect.unit (s := S128x5120) ![0, 0] S128x5120.size inb_S128x5120_S128x5120_0_0

/-- The output block after the body, from the five input blocks: its one whole store. -/
def out0_5 (x0 : Vec F S128x512 .f32) (x1 : Vec F S128x1024 .f32) (x2 : Vec F S512x5120 .bf16) (x3 : Vec F S1024x5120 .bf16) (x4 : Vec F S1x5120 .f32) : Vec F S128x5120 .f32 :=
  View.canon [⟨r0_5, k0_pay1 (View.ld x0 r0_0) (View.ld x1 r0_1) (View.ld x2 r0_2) (View.ld x3 r0_3) (View.ld x4 r0_4)⟩]

/-- The one store covers the block. -/
theorem cover0_5 (p0 : Vec F S128x5120 .f32) (y : S128x5120.Idx) :
    ∃ pc ∈ ([⟨r0_5, p0⟩] : List (View.Piece (Elt F) S128x5120 .f32)), y ∈ pc.1.set :=
  View.cover_of_tiled [⟨r0_5, p0⟩] S128x5120.size (by rfl) y

set_option maxHeartbeats 4000000 in
/-- The body on whole staging buffers, the inputs' at read contents and the output's at anything, runs and leaves the
    inputs as they were and the output at `out0_5` of the inputs. -/
theorem sound_kernel0 (c : Dev nD) (E : Set ℕ) (i : grid0.Coords)
    (arg1 : Memref sig .tc .vmem S128x512 .f32) (harg1 : arg1.IsWhole) (arg2 : Memref sig .tc .vmem S128x1024 .f32) (harg2 : arg2.IsWhole)
    (arg3 : Memref sig .tc .vmem S512x5120 .bf16) (harg3 : arg3.IsWhole) (arg4 : Memref sig .tc .vmem S1024x5120 .bf16) (harg4 : arg4.IsWhole)
    (arg5 : Memref sig .tc .vmem S1x5120 .f32) (harg5 : arg5.IsWhole) (arg6 : Memref sig .tc .vmem S128x5120 .f32) (harg6 : arg6.IsWhole)
    (x0 : Vec F S128x512 .f32) (x1 : Vec F S128x1024 .f32) (x2 : Vec F S512x5120 .bf16) (x3 : Vec F S1024x5120 .bf16) (x4 : Vec F S1x5120 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__proj_kernel i arg1 harg1 arg2 harg2 arg3 harg3 arg4 harg4 arg5 harg5 arg6 harg6) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## What the body finds in each input window's buffer -/

/-- Input window 0 holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- A cut window moved whole holds its block too, whatever the buffer held outside the moved part (there is no outside). -/
theorem before0_2_of {c : Dev nD} (dat : Dat τ (Elt F) Unit ℕ (UR sig nD τ) ℕ cfg0 c) (hA : dat.A 2 = V c (Pipeline.arrRef spec0 2))
    (hafter : ∀ t, dat.after 2 t = sblk0_2 V c t) (t : Fin cfg0.N) (d) : dat.before 2 t d = sblk0_2 V c t :=
  (dat.before_in_eq_fetched 2 rfl (fun _ => rfl) (fun _ _ _ => rfl)
      (fun t => by rw [hafter]; unfold sblk0_2; exact (win0_2.cut_fill _ _ _).trans (by unfold Dat.blockOf iblk0; rw [hA]; try rfl)) t d).trans
    (by unfold Dat.fetched Dat.blockOf sblk0_2 iblk0; rw [hA]; exact fill_whole win0_2 _ (moved0_2 _) _ _ _)
theorem before0_3_of {c : Dev nD} (dat : Dat τ (Elt F) Unit ℕ (UR sig nD τ) ℕ cfg0 c) (hA : dat.A 3 = V c (Pipeline.arrRef spec0 3))
    (hafter : ∀ t, dat.after 3 t = sblk0_3 V c t) (t : Fin cfg0.N) (d) : dat.before 3 t d = sblk0_3 V c t :=
  (dat.before_in_eq_fetched 3 rfl (fun _ => rfl) (fun _ _ _ => rfl)
      (fun t => by rw [hafter]; unfold sblk0_3; exact (win0_3.cut_fill _ _ _).trans (by unfold Dat.blockOf iblk0; rw [hA]; try rfl)) t d).trans
    (by unfold Dat.fetched Dat.blockOf sblk0_3 iblk0; rw [hA]; exact fill_whole win0_3 _ (moved0_3 _) _ _ _)
theorem before0_4_of {c : Dev nD} (dat : Dat τ (Elt F) Unit ℕ (UR sig nD τ) ℕ cfg0 c) (hA : dat.A 4 = V c (Pipeline.arrRef spec0 4))
    (hafter : ∀ t, dat.after 4 t = sblk0_4 V c t) (t : Fin cfg0.N) (d) : dat.before 4 t d = sblk0_4 V c t :=
  (dat.before_in_eq_fetched 4 rfl (fun _ => rfl) (fun _ _ _ => rfl)
      (fun t => by rw [hafter]; unfold sblk0_4; exact (win0_4.cut_fill _ _ _).trans (by unfold Dat.blockOf iblk0; rw [hA]; try rfl)) t d).trans
    (by unfold Dat.fetched Dat.blockOf sblk0_4 iblk0; rw [hA]; exact fill_whole win0_4 _ (moved0_4 _) _ _ _)

/-! ## The pipeline's proof data -/

/-- The proof data of pipeline 0 on core `c`: the arrays as the region finds them; after the body at point `t` each
    input's buffer at its block and the output's at `out0_5` of the input blocks; the invariant the core's other scoped buffers and
    its random-number register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => sblk0_2 V c t
    | ⟨3, _⟩ => sblk0_3 V c t
    | ⟨4, _⟩ => sblk0_4 V c t
    | ⟨5, _⟩ => out0_5 (iblk0 V c 0 t) (iblk0 V c 1 t) (sblk0_2 V c t) (sblk0_3 V c t) (sblk0_4 V c t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = sblk0_2 V c t := by dsimp only [dat0]
theorem after0_3 (c : Dev nD) (t : Fin cfg0.N) : (dat0 V c).after 3 t = sblk0_3 V c t := by dsimp only [dat0]
theorem after0_4 (c : Dev nD) (t : Fin cfg0.N) : (dat0 V c).after 4 t = sblk0_4 V c t := by dsimp only [dat0]
theorem after0_5 (c : Dev nD) (t : Fin cfg0.N) : (dat0 V c).after 5 t = out0_5 (iblk0 V c 0 t) (iblk0 V c 1 t) (sblk0_2 V c t) (sblk0_3 V c t) (sblk0_4 V c t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = sblk0_2 V c t :=
  before0_2_of V (dat0 V c) (A_eq0 V c 2) (after0_2 V c) t d
theorem before0_3 (c : Dev nD) (t : Fin cfg0.N) (d) : (dat0 V c).before 3 t d = sblk0_3 V c t :=
  before0_3_of V (dat0 V c) (A_eq0 V c 3) (after0_3 V c) t d
theorem before0_4 (c : Dev nD) (t : Fin cfg0.N) (d) : (dat0 V c).before 4 t d = sblk0_4 V c t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns: the three cut windows' buffers are described on the part their transfers move. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ (∃ d, owns (c : Thread nD τ) (st0_2 t) fullShare ((cfg0.win 2).fill (cfg0.grid.coords t) d ((cfg0.win 2).cut (cfg0.grid.coords t) ((dat0 V c).after 2 t))))
    ∗ (∃ d, owns (c : Thread nD τ) (st0_3 t) fullShare ((cfg0.win 3).fill (cfg0.grid.coords t) d ((cfg0.win 3).cut (cfg0.grid.coords t) ((dat0 V c).after 3 t))))
    ∗ (∃ d, owns (c : Thread nD τ) (st0_4 t) fullShare ((cfg0.win 4).fill (cfg0.grid.coords t) d ((cfg0.win 4).cut (cfg0.grid.coords t) ((dat0 V c).after 4 t))))
    ∗ owns (c : Thread nD τ) (st0_5 t) fullShare ((dat0 V c).after 5 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (sblk0_2 V c t) (sblk0_3 V c t) (sblk0_4 V c t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]
  · iexists (sblk0_2 V c t); rw [Pipeline.Window.fill_cut]; iexact H2
  isplitl [H3]
  · iexists (sblk0_3 V c t); rw [Pipeline.Window.fill_cut]; iexact H3
  isplitl [H4]
  · iexists (sblk0_4 V c t); rw [Pipeline.Window.fill_cut]; iexact H4
  iexact H5

/-- The library's body obligation, at every point. -/
theorem body_obligation0 (c : Dev nD) : BodyObligationLoose (dat0 (F := F) V c) (defs₀ (F := F)) Variants.none () Set.univ := fun t => by
  rw [bigSep_W0, bigSep_W0]
  exact sound_body0 V c t

end Cert.KernelIdeal.Hand

end
-- ==== Proof.FrameR1.lean ====
/-
  Region 1 (the gates kernel) at a generic float instance: what its four output blocks hold after the body at a grid
  point, the body's triple, the proof data of its pipeline and the body obligation.

  The grid has 32 points; point t stages rows 128·t … 128·t + 127 of the projection and of c, e, r, and the three
  converted weight matrices whole (the same block at every point), and writes back rows 128·t … of the four results.
  Every block lies inside its array.
-/
import proofs.«129931_j44435731645052_2_alg».proof.Proof.Gen.KernelIdeal.Launch
import proofs.«129931_j44435731645052_2_alg».proof.Proof.Gen.KernelIdeal.Skeleton
import proofs.«129931_j44435731645052_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses and what it leaves in the output blocks -/

abbrev rA : Rect S128x5120 := Rect.unit (s := S128x5120) ![0, 0] S128x5120.size inb_S128x5120_S128x5120_0_0
abbrev rB : Rect S128x1024 := Rect.unit (s := S128x1024) ![0, 0] S128x1024.size inb_S128x1024_S128x1024_0_0
abbrev rC : Rect S1024x3072 := Rect.unit (s := S1024x3072) ![0, 0] S1024x3072.size inb_S1024x3072_S1024x3072_0_0
abbrev rD : Rect S1024x4096 := Rect.unit (s := S1024x4096) ![0, 0] S1024x4096.size inb_S1024x4096_S1024x4096_0_0

/-- Output window 7's block after the body, from the seven input blocks: its one whole store. -/
def out1_7 (x0 : Vec F S128x5120 .f32) (x1 : Vec F S128x1024 .f32) (x2 : Vec F S128x1024 .f32) (x3 : Vec F S128x1024 .f32) (x4 : Vec F S1024x3072 .bf16) (x5 : Vec F S1024x4096 .bf16) (x6 : Vec F S1024x4096 .bf16) : Vec F S128x1024 .f32 :=
  View.canon [⟨rB, k1_pay1 (k1_pay6 (View.ld x0 rA)) (View.ld x1 rB) (k1_pay22 (View.ld x0 rA) (View.ld x1 rB) (View.ld x2 rB) (View.ld x3 rB) (View.ld x4 rC) (View.ld x5 rD) (View.ld x6 rD)) (k1_pay23 (View.ld x0 rA) (View.ld x1 rB) (View.ld x2 rB) (View.ld x4 rC) (View.ld x5 rD)) (k1_pay24 (View.ld x3 rB) (View.ld x6 rD))⟩]
/-- Output window 8's block after the body, from the seven input blocks: its one whole store. -/
def out1_8 (x0 : Vec F S128x5120 .f32) (x1 : Vec F S128x1024 .f32) (x2 : Vec F S128x1024 .f32) (x3 : Vec F S128x1024 .f32) (x4 : Vec F S1024x3072 .bf16) (x5 : Vec F S1024x4096 .bf16) (x6 : Vec F S1024x4096 .bf16) : Vec F S128x1024 .f32 :=
  View.canon [⟨rB, k1_pay2 (k1_pay7 (View.ld x0 rA)) (k1_pay9 (View.ld x2 rB)) (k1_pay15 (View.ld x5 rD))⟩]
/-- Output window 9's block after the body, from the seven input blocks: its one whole store. -/
def out1_9 (x0 : Vec F S128x5120 .f32) (x1 : Vec F S128x1024 .f32) (x2 : Vec F S128x1024 .f32) (x3 : Vec F S128x1024 .f32) (x4 : Vec F S1024x3072 .bf16) (x5 : Vec F S1024x4096 .bf16) (x6 : Vec F S1024x4096 .bf16) : Vec F S128x1024 .f32 :=
  View.canon [⟨rB, k1_pay3 (k1_pay7 (View.ld x0 rA)) (k1_pay10 (View.ld x3 rB)) (k1_pay17 (View.ld x6 rD))⟩]
/-- Output window 10's block after the body, from the seven input blocks: its one whole store. -/
def out1_10 (x0 : Vec F S128x5120 .f32) (x1 : Vec F S128x1024 .f32) (x2 : Vec F S128x1024 .f32) (x3 : Vec F S128x1024 .f32) (x4 : Vec F S1024x3072 .bf16) (x5 : Vec F S1024x4096 .bf16) (x6 : Vec F S1024x4096 .bf16) : Vec F S128x1024 .f32 :=
  View.canon [⟨rB, k1_pay4 (k1_pay6 (View.ld x0 rA)) (k1_pay7 (View.ld x0 rA)) (k1_pay8 (View.ld x0 rA)) (View.ld x1 rB) (k1_pay9 (View.ld x2 rB)) (k1_pay10 (View.ld x3 rB)) (k1_pay14 (View.ld x4 rC)) (k1_pay15 (View.ld x5 rD)) (k1_pay16 (View.ld x5 rD)) (k1_pay17 (View.ld x6 rD)) (k1_pay18 (View.ld x6 rD)) (k1_pay22 (View.ld x0 rA) (View.ld x1 rB) (View.ld x2 rB) (View.ld x3 rB) (View.ld x4 rC) (View.ld x5 rD) (View.ld x6 rD)) (k1_pay23 (View.ld x0 rA) (View.ld x1 rB) (View.ld x2 rB) (View.ld x4 rC) (View.ld x5 rD)) (k1_pay24 (View.ld x3 rB) (View.ld x6 rD))⟩]

/-- One whole store covers the block. -/
theorem cover1 (p0 : Vec F S128x1024 .f32) (y : S128x1024.Idx) :
    ∃ pc ∈ ([⟨rB, p0⟩] : List (View.Piece (Elt F) S128x1024 .f32)), y ∈ pc.1.set :=
  View.cover_of_tiled [⟨rB, p0⟩] S128x1024.size (by rfl) y

set_option maxHeartbeats 8000000 in
/-- The body on whole staging buffers, the inputs' at read contents and the outputs' at anything, runs and leaves the
    inputs as they were and each output at its `out1_W` of the inputs. -/
theorem sound_kernel1 (c : Dev nD) (E : Set ℕ) (i : grid1.Coords)
    (arg1 : Memref sig .tc .vmem S128x5120 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S1024x3072 .bf16) (harg5 : arg5.IsWhole) (arg6 : Memref sig .tc .vmem S1024x4096 .bf16) (harg6 : arg6.IsWhole) (arg7 : Memref sig .tc .vmem S1024x4096 .bf16) (harg7 : arg7.IsWhole) (arg8 : Memref sig .tc .vmem S128x1024 .f32) (harg8 : arg8.IsWhole) (arg9 : Memref sig .tc .vmem S128x1024 .f32) (harg9 : arg9.IsWhole) (arg10 : Memref sig .tc .vmem S128x1024 .f32) (harg10 : arg10.IsWhole) (arg11 : Memref sig .tc .vmem S128x1024 .f32) (harg11 : arg11.IsWhole)
    (x0 : Vec F S128x5120 .f32) (x1 : Vec F S128x1024 .f32) (x2 : Vec F S128x1024 .f32) (x3 : Vec F S128x1024 .f32) (x4 : Vec F S1024x3072 .bf16) (x5 : Vec F S1024x4096 .bf16) (x6 : Vec F S1024x4096 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out1_7 x0 x1 x2 x3 x4 x5 x6) ∗ owns (c : Thread nD τ) arg9 fullShare (out1_8 x0 x1 x2 x3 x4 x5 x6)
            ∗ owns (c : Thread nD τ) arg10 fullShare (out1_9 x0 x1 x2 x3 x4 x5 x6) ∗ owns (c : Thread nD τ) arg11 fullShare (out1_10 x0 x1 x2 x3 x4 x5 x6)) -∗ K ⟨⟩))
      ⊢ wp frame (wpE (defs₀ (F := F)) Variants.none c none) E (cc1__gates_out_kernel i arg1 harg1 arg2 harg2 arg3 harg3 arg4 harg4 arg5 harg5 arg6 harg6 arg7 harg7 arg8 harg8 arg9 harg9 arg10 harg10 arg11 harg11) K := by
  simp only [cc1__gates_out_kernel_eq_skeleton]; unfold cc1__gates_out_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover1 _)
  isplitl [H8]
  · iexists _; isplitr
    swap; · iexact H8
    ipureintro
    exact View.read_writes_eq_canon _ _ _ (cover1 _)
  isplitl [H9]
  · iexists _; isplitr
    swap; · iexact H9
    ipureintro
    exact View.read_writes_eq_canon _ _ _ (cover1 _)
  iexists _; isplitr
  swap; · iexact H10
  ipureintro
  exact View.read_writes_eq_canon _ _ _ (cover1 _)

/-! ## The pipeline's proof data -/

/-- The proof data of pipeline 1 on core `c`: the arrays as the region finds them; after the body at point `t` each
    input's buffer at its block and each output's at its `out1_W` of the input blocks; the invariant the core's other
    scoped buffers and its random-number register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
    | ⟨8, _⟩ => out1_8 (iblk1 V c 0 t) (iblk1 V c 1 t) (iblk1 V c 2 t) (iblk1 V c 3 t) (iblk1 V c 4 t) (iblk1 V c 5 t) (iblk1 V c 6 t)
    | ⟨9, _⟩ => out1_9 (iblk1 V c 0 t) (iblk1 V c 1 t) (iblk1 V c 2 t) (iblk1 V c 3 t) (iblk1 V c 4 t) (iblk1 V c 5 t) (iblk1 V c 6 t)
    | ⟨10, _⟩ => out1_10 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) := by dsimp only [dat1]
theorem after1_10 (c : Dev nD) (t : Fin cfg1.N) : (dat1 V c).after 10 t = out1_10 (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

/-- The body at any point: the inputs' buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel1 c Set.univ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.FrameRun.lean ====
/-
  The run of @main at a generic float instance: the host stretch, then the two regions, as the segments of one launch.
  Between segments every unscoped buffer of the core is held whole at named contents: the launch memory, then what the
  host stretch computes, then region 0's arrays at what its write-backs leave, then region 1's. Every weakly fair
  execution terminates, and the final memory holds each unscoped buffer at the last of these contents; the arguments
  are never written, and the results are the output windows' arrays after their last write-back.
-/
import proofs.«129931_j44435731645052_2_alg».proof.Proof.Gen.KernelIdeal.Launch
import proofs.«129931_j44435731645052_2_alg».proof.Proof.Gen.KernelIdeal.Skeleton
import proofs.«129931_j44435731645052_2_alg».proof.Proof.Gen.KernelIdeal.Points
import proofs.«129931_j44435731645052_2_alg».proof.Proof.FrameR0
import proofs.«129931_j44435731645052_2_alg».proof.Proof.FrameR1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev Wa : Dev nD → Valuation τ sig (Elt F) := fun c b => (s₀ m ρ).mem ((c : Dev nD), b)
/-- After the host stretch (region 0's entry). -/
abbrev Wb : Dev nD → Valuation τ sig (Elt F) := fun c => StableHlo.after hostOps0 (Wa m ρ c)
abbrev Vb : (c : Dev nD) → (b : Ref sig .tc) → Buf (Elt F) ((c : Thread nD τ).loc b) := fun c b => Wb m ρ c b
/-- At region 0's exit (region 1's entry): its arrays at what the pipeline leaves, every other buffer as entered. -/
def Wc (c : Dev nD) : Valuation τ sig (Elt F) :=
  Pipeline.withArrays spec0 c (Wb m ρ c) fun w => (dat0 (Vb m ρ) c).arrAt w cfg0.N
theorem Wc_arr (c : Dev nD) (w : Fin cfg0.W) :
    Wc m ρ c (Proc.devRef .tc (Pipeline.arrRef spec0 w)) = (dat0 (Vb m ρ) c).arrAt w cfg0.N := by
  unfold Wc; exact Pipeline.withArrays_arr spec0 launch0.win.arr_inj c _ _ w
theorem Wc_of_ne (c : Dev nD) (b : Ref sig .tc) (hb : ∀ w, Pipeline.arrRef spec0 w ≠ b) :
    Wc m ρ c (Proc.devRef .tc b) = Wb m ρ c (Proc.devRef .tc b) := by
  unfold Wc; exact Pipeline.withArrays_of_ne spec0 c _ _ b hb
abbrev Vc : (c : Dev nD) → (b : Ref sig .tc) → Buf (Elt F) ((c : Thread nD τ).loc b) := fun c b => Wc m ρ c b
theorem hF0 (c : Dev nD) (w : Fin cfg0.W) : (dat0 (Vb m ρ) c).arrAt w cfg0.N = Vc m ρ c (Pipeline.arrRef spec0 w) :=
  (Wc_arr m ρ c w).symm
theorem hrest0 (c : Dev nD) : ∀ b, b ∉ Finset.univ.image (Pipeline.arrRef spec0) → Vc m ρ c b = Vb m ρ c b :=
  fun b hb => Wc_of_ne m ρ c b fun w e => hb (Finset.mem_image.mpr ⟨w, Finset.mem_univ _, e⟩)
/-- At region 1's exit: its arrays at what the pipeline leaves, every other buffer as entered. -/
def Wd (c : Dev nD) : Valuation τ sig (Elt F) :=
  Pipeline.withArrays spec1 c (Wc m ρ c) fun w => (dat1 (Vc m ρ) c).arrAt w cfg1.N
theorem Wd_arr (c : Dev nD) (w : Fin cfg1.W) :
    Wd m ρ c (Proc.devRef .tc (Pipeline.arrRef spec1 w)) = (dat1 (Vc m ρ) c).arrAt w cfg1.N := by
  unfold Wd; exact Pipeline.withArrays_arr spec1 launch1.win.arr_inj c _ _ w
theorem Wd_of_ne (c : Dev nD) (b : Ref sig .tc) (hb : ∀ w, Pipeline.arrRef spec1 w ≠ b) :
    Wd m ρ c (Proc.devRef .tc b) = Wc m ρ c (Proc.devRef .tc b) := by
  unfold Wd; exact Pipeline.withArrays_of_ne spec1 c _ _ b hb
abbrev Vd : (c : Dev nD) → (b : Ref sig .tc) → Buf (Elt F) ((c : Thread nD τ).loc b) := fun c b => Wd m ρ c b
theorem hF1 (c : Dev nD) (w : Fin cfg1.W) : (dat1 (Vc m ρ) c).arrAt w cfg1.N = Vd m ρ c (Pipeline.arrRef spec1 w) :=
  (Wd_arr m ρ c w).symm
theorem hrest1 (c : Dev nD) : ∀ b, b ∉ Finset.univ.image (Pipeline.arrRef spec1) → Vd m ρ c b = Vc m ρ c b :=
  fun b hb => Wd_of_ne m ρ c b fun w e => hb (Finset.mem_image.mpr ⟨w, Finset.mem_univ _, e⟩)

/-- The references the host stretch writes. -/
abbrev hostW : List (Ref sig .tc) := [main_v0, main_v1, main_v2, main_v3, main_v4, main_v5, main_v6]
/-- A buffer the host stretch does not write holds after it what it held before. -/
theorem Wb_of_not_written (c : Dev nD) (b : Ref sig .tc) (hb : b ∉ hostW) :
    Wb m ρ c (Proc.devRef .tc b) = Wa m ρ c (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    have h0 : b ≠ main_v0 := fun e => hb (e ▸ by decide)
    have h1 : b ≠ main_v1 := fun e => hb (e ▸ by decide)
    have h2 : b ≠ main_v2 := fun e => hb (e ▸ by decide)
    have h3 : b ≠ main_v3 := fun e => hb (e ▸ by decide)
    have h4 : b ≠ main_v4 := fun e => hb (e ▸ by decide)
    have h5 : b ≠ main_v5 := fun e => hb (e ▸ by decide)
    have h6 : b ≠ main_v6 := fun e => hb (e ▸ by decide)
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6⟩))

/-! ### The arguments end as launched -/

theorem Wd_main_arg0 (c : Dev nD) : Wd m ρ c (Proc.devRef .tc main_arg0) = m ((c : Thread nD τ).loc main_arg0) :=
  calc Wd m ρ c (Proc.devRef .tc main_arg0)
    _ = Wc m ρ c (Proc.devRef .tc main_arg0) := Wd_of_ne m ρ c main_arg0 (by decide)
    _ = Wb m ρ c (Proc.devRef .tc main_arg0) := (Wc_arr m ρ c 0).trans (((dat0 (Vb m ρ) c).arrAt_in 0 rfl _).trans (A_eq0 (Vb m ρ) c 0))
    _ = Wa m ρ c (Proc.devRef .tc main_arg0) := Wb_of_not_written m ρ c main_arg0 (by decide)
    _ = m ((c : Thread nD τ).loc main_arg0) := rfl
theorem Wd_main_arg1 (c : Dev nD) : Wd m ρ c (Proc.devRef .tc main_arg1) = m ((c : Thread nD τ).loc main_arg1) :=
  calc Wd m ρ c (Proc.devRef .tc main_arg1)
    _ = Wc m ρ c (Proc.devRef .tc main_arg1) := Wd_of_ne m ρ c main_arg1 (by decide)
    _ = Wb m ρ c (Proc.devRef .tc main_arg1) := (Wc_arr m ρ c 1).trans (((dat0 (Vb m ρ) c).arrAt_in 1 rfl _).trans (A_eq0 (Vb m ρ) c 1))
    _ = Wa m ρ c (Proc.devRef .tc main_arg1) := Wb_of_not_written m ρ c main_arg1 (by decide)
    _ = m ((c : Thread nD τ).loc main_arg1) := rfl
theorem Wd_main_arg2 (c : Dev nD) : Wd m ρ c (Proc.devRef .tc main_arg2) = m ((c : Thread nD τ).loc main_arg2) :=
  calc Wd m ρ c (Proc.devRef .tc main_arg2)
    _ = Wc m ρ c (Proc.devRef .tc main_arg2) := (Wd_arr m ρ c 1).trans (((dat1 (Vc m ρ) c).arrAt_in 1 rfl _).trans (A_eq1 (Vc m ρ) c 1))
    _ = Wb m ρ c (Proc.devRef .tc main_arg2) := Wc_of_ne m ρ c main_arg2 (by decide)
    _ = Wa m ρ c (Proc.devRef .tc main_arg2) := Wb_of_not_written m ρ c main_arg2 (by decide)
    _ = m ((c : Thread nD τ).loc main_arg2) := rfl
theorem Wd_main_arg3 (c : Dev nD) : Wd m ρ c (Proc.devRef .tc main_arg3) = m ((c : Thread nD τ).loc main_arg3) :=
  calc Wd m ρ c (Proc.devRef .tc main_arg3)
    _ = Wc m ρ c (Proc.devRef .tc main_arg3) := (Wd_arr m ρ c 2).trans (((dat1 (Vc m ρ) c).arrAt_in 2 rfl _).trans (A_eq1 (Vc m ρ) c 2))
    _ = Wb m ρ c (Proc.devRef .tc main_arg3) := Wc_of_ne m ρ c main_arg3 (by decide)
    _ = Wa m ρ c (Proc.devRef .tc main_arg3) := Wb_of_not_written m ρ c main_arg3 (by decide)
    _ = m ((c : Thread nD τ).loc main_arg3) := rfl
theorem Wd_main_arg4 (c : Dev nD) : Wd m ρ c (Proc.devRef .tc main_arg4) = m ((c : Thread nD τ).loc main_arg4) :=
  calc Wd m ρ c (Proc.devRef .tc main_arg4)
    _ = Wc m ρ c (Proc.devRef .tc main_arg4) := (Wd_arr m ρ c 3).trans (((dat1 (Vc m ρ) c).arrAt_in 3 rfl _).trans (A_eq1 (Vc m ρ) c 3))
    _ = Wb m ρ c (Proc.devRef .tc main_arg4) := Wc_of_ne m ρ c main_arg4 (by decide)
    _ = Wa m ρ c (Proc.devRef .tc main_arg4) := Wb_of_not_written m ρ c main_arg4 (by decide)
    _ = m ((c : Thread nD τ).loc main_arg4) := rfl
theorem Wd_main_arg5 (c : Dev nD) : Wd m ρ c (Proc.devRef .tc main_arg5) = m ((c : Thread nD τ).loc main_arg5) :=
  calc Wd m ρ c (Proc.devRef .tc main_arg5)
    _ = Wc m ρ c (Proc.devRef .tc main_arg5) := Wd_of_ne m ρ c main_arg5 (by decide)
    _ = Wb m ρ c (Proc.devRef .tc main_arg5) := Wc_of_ne m ρ c main_arg5 (by decide)
    _ = Wa m ρ c (Proc.devRef .tc main_arg5) := Wb_of_not_written m ρ c main_arg5 (by decide)
    _ = m ((c : Thread nD τ).loc main_arg5) := rfl
theorem Wd_main_arg6 (c : Dev nD) : Wd m ρ c (Proc.devRef .tc main_arg6) = m ((c : Thread nD τ).loc main_arg6) :=
  calc Wd m ρ c (Proc.devRef .tc main_arg6)
    _ = Wc m ρ c (Proc.devRef .tc main_arg6) := Wd_of_ne m ρ c main_arg6 (by decide)
    _ = Wb m ρ c (Proc.devRef .tc main_arg6) := Wc_of_ne m ρ c main_arg6 (by decide)
    _ = Wa m ρ c (Proc.devRef .tc main_arg6) := Wb_of_not_written m ρ c main_arg6 (by decide)
    _ = m ((c : Thread nD τ).loc main_arg6) := rfl
theorem Wd_main_arg7 (c : Dev nD) : Wd m ρ c (Proc.devRef .tc main_arg7) = m ((c : Thread nD τ).loc main_arg7) :=
  calc Wd m ρ c (Proc.devRef .tc main_arg7)
    _ = Wc m ρ c (Proc.devRef .tc main_arg7) := Wd_of_ne m ρ c main_arg7 (by decide)
    _ = Wb m ρ c (Proc.devRef .tc main_arg7) := Wc_of_ne m ρ c main_arg7 (by decide)
    _ = Wa m ρ c (Proc.devRef .tc main_arg7) := Wb_of_not_written m ρ c main_arg7 (by decide)
    _ = m ((c : Thread nD τ).loc main_arg7) := rfl
theorem Wd_main_arg8 (c : Dev nD) : Wd m ρ c (Proc.devRef .tc main_arg8) = m ((c : Thread nD τ).loc main_arg8) :=
  calc Wd m ρ c (Proc.devRef .tc main_arg8)
    _ = Wc m ρ c (Proc.devRef .tc main_arg8) := Wd_of_ne m ρ c main_arg8 (by decide)
    _ = Wb m ρ c (Proc.devRef .tc main_arg8) := Wc_of_ne m ρ c main_arg8 (by decide)
    _ = Wa m ρ c (Proc.devRef .tc main_arg8) := Wb_of_not_written m ρ c main_arg8 (by decide)
    _ = m ((c : Thread nD τ).loc main_arg8) := rfl
theorem Wd_main_arg9 (c : Dev nD) : Wd m ρ c (Proc.devRef .tc main_arg9) = m ((c : Thread nD τ).loc main_arg9) :=
  calc Wd m ρ c (Proc.devRef .tc main_arg9)
    _ = Wc m ρ c (Proc.devRef .tc main_arg9) := Wd_of_ne m ρ c main_arg9 (by decide)
    _ = Wb m ρ c (Proc.devRef .tc main_arg9) := Wc_of_ne m ρ c main_arg9 (by decide)
    _ = Wa m ρ c (Proc.devRef .tc main_arg9) := Wb_of_not_written m ρ c main_arg9 (by decide)
    _ = m ((c : Thread nD τ).loc main_arg9) := rfl
theorem Wd_main_arg10 (c : Dev nD) : Wd m ρ c (Proc.devRef .tc main_arg10) = m ((c : Thread nD τ).loc main_arg10) :=
  calc Wd m ρ c (Proc.devRef .tc main_arg10)
    _ = Wc m ρ c (Proc.devRef .tc main_arg10) := Wd_of_ne m ρ c main_arg10 (by decide)
    _ = Wb m ρ c (Proc.devRef .tc main_arg10) := Wc_of_ne m ρ c main_arg10 (by decide)
    _ = Wa m ρ c (Proc.devRef .tc main_arg10) := Wb_of_not_written m ρ c main_arg10 (by decide)
    _ = m ((c : Thread nD τ).loc main_arg10) := rfl
theorem Wd_main_arg11 (c : Dev nD) : Wd m ρ c (Proc.devRef .tc main_arg11) = m ((c : Thread nD τ).loc main_arg11) :=
  calc Wd m ρ c (Proc.devRef .tc main_arg11)
    _ = Wc m ρ c (Proc.devRef .tc main_arg11) := Wd_of_ne m ρ c main_arg11 (by decide)
    _ = Wb m ρ c (Proc.devRef .tc main_arg11) := Wc_of_ne m ρ c main_arg11 (by decide)
    _ = Wa m ρ c (Proc.devRef .tc main_arg11) := Wb_of_not_written m ρ c main_arg11 (by decide)
    _ = m ((c : Thread nD τ).loc main_arg11) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Vb m ρ) c
  | ⟨1, _⟩ => fun c => dat1 (Vc m ρ) c
abbrev 𝒱₀ : Variants := Variants.none
abbrev L : GSem nD τ sig → Finset Unit := fun _ => ∅
abbrev lv : GSem nD τ sig → Unit → ℕ := fun _ _ => 0
/-- What rides beside the buffers through every segment: the core's random-number register at some state and its dues, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (Wd m ρ c) ∗ ∃ r, prngReg c r)

/-! ## The regions as segments -/

set_option backward.isDefEq.respectTransparency.types false in
/-- Region 0 over the thread state: entered from every unscoped buffer at the contents after the host stretch, left at
    its exit contents. Its arrays are split out of the unscoped buffers and put back; the register goes into the
    body's invariant and comes out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := body_obligation0 (Vb m ρ) c
  hwaits := Pipeline.hwaits_of_owed_zero _ _ _ _ L lv 0 fun _ _ => rfl
  pre c := iprop(StableHlo.held (c : Thread nD τ) (Pipeline.ucRefs τ sig) (Wb m ρ c) ∗ R c)
  post c := iprop(StableHlo.held (c : Thread nD τ) (Pipeline.ucRefs τ sig) (Wc m ρ c) ∗ R c)
  X c := iprop(∃ r, prngReg c r)
  Y c := iprop(∃ r, prngReg c r)
  Z c := Pipeline.unscopedRest (Ix := Unit) (Name := ℕ) (U := UR sig nD τ) (Lvl := ℕ) spec0 c (Vb m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vb m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vb m ρ c) (Vc m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from region 0's exit contents, left at its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vc m ρ) c).loose
  hwaits := Pipeline.hwaits_of_owed_zero _ _ _ _ L lv 1 fun _ _ => rfl
  pre c := iprop(StableHlo.held (c : Thread nD τ) (Pipeline.ucRefs τ sig) (Wc m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vc m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vc m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vc m ρ c) (Vd m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh' (Wa m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: from any memory with zero counters, every weakly fair execution of @main terminates, nothing faulting, and
    the final memory holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wd m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wa m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Wa m ρ c)
        from Pipeline.unscopedBufs_held c (Wa m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wd m ρ c b)
    (hfin := fun c s' => by
      iintro ⟨⟨Hh, -⟩, HSI⟩
      unfold StableHlo.held
      imodintro
      iapply (pointsTo_read_all (Pipeline.ucRefs τ sig) (fun b => (((c : Thread nD τ)).1, b)) (Wd m ρ c) s')
      isplitl [Hh] <;> iassumption)
    (hQ := fun s h c => h c)

/-- The frame at any float instance: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_arg0 (by decide))).trans (Wd_main_arg0 m ρ c),
     (h c _ (mem_uc main_arg1 (by decide))).trans (Wd_main_arg1 m ρ c),
     (h c _ (mem_uc main_arg2 (by decide))).trans (Wd_main_arg2 m ρ c),
     (h c _ (mem_uc main_arg3 (by decide))).trans (Wd_main_arg3 m ρ c),
     (h c _ (mem_uc main_arg4 (by decide))).trans (Wd_main_arg4 m ρ c),
     (h c _ (mem_uc main_arg5 (by decide))).trans (Wd_main_arg5 m ρ c),
     (h c _ (mem_uc main_arg6 (by decide))).trans (Wd_main_arg6 m ρ c),
     (h c _ (mem_uc main_arg7 (by decide))).trans (Wd_main_arg7 m ρ c),
     (h c _ (mem_uc main_arg8 (by decide))).trans (Wd_main_arg8 m ρ c),
     (h c _ (mem_uc main_arg9 (by decide))).trans (Wd_main_arg9 m ρ c),
     (h c _ (mem_uc main_arg10 (by decide))).trans (Wd_main_arg10 m ρ c),
     (h c _ (mem_uc main_arg11 (by decide))).trans (Wd_main_arg11 m ρ c)⟩)
    (run_all m ρ)

end Cert.KernelIdeal.Hand

end
-- ==== Proof.Spec.lean ====
/-
  What the cell computes, entry by entry, over the extended reals: the specification both programs are compared with.

  The inputs are the five batch-major arrays x [4096, 512] and h, c, e, r [4096, 1024], the weight matrices
  w_ii [512, 6144], w_hh [1024, 6144], w_cc [1024, 3072], w_ee, w_rr [1024, 4096] (one block of 1024 columns per gate)
  and the two bias rows b_ih, b_hh [6144].  With  softsign z = z / (1 + |z|)  and  σ z = 1 / (1 + e^(-z)):

    wb      = x·w_ii + h·w_hh + (b_hh + b_ih)                                   (6144 columns, six blocks wb₀ … wb₅)
    forget  = σ (wb₀ + c·w_cc₀ + e·w_ee₀ + r·w_rr₀)
    input   = σ (wb₁ + c·w_cc₁ + e·w_ee₁ + r·w_rr₁)
    c'      = forget ⊙ c + input ⊙ softsign wb₂
    e'      = softsign (wb₃ + e·w_ee₂)
    r'      = softsign (wb₃ + r·w_rr₂)
    out     = σ (wb₄ + e'·w_cc₂ + e'·w_ee₃ + r'·w_rr₃)
    h'      = out ⊙ softsign c'

  Every sum is a plain finite sum over the contracted coordinate, every addition associated to the left as written.
-/
import Idealize.ShloMosaic.PureOps.Ideal
import Idealize.ShloMosaic.Lib.ValueIdx

noncomputable section

open scoped BigOperators

namespace Cert.Spec

open Idealize.ShloMosaic Idealize.ShloMosaic.ValueIdx

/-- An `a × b` matrix of extended reals, indexed the way the programs index a rank-2 array. -/
abbrev Mat (a b : Nat) : Type := (⟨2, ![a, b]⟩ : Shape).Idx → EReal
/-- A row of `a` extended reals, indexed the way the programs index a rank-1 array. -/
abbrev Row (a : Nat) : Type := (⟨1, ![a]⟩ : Shape).Idx → EReal

/-- The twelve inputs. -/
structure Args where
  x : Mat 4096 512
  h : Mat 4096 1024
  c : Mat 4096 1024
  e : Mat 4096 1024
  r : Mat 4096 1024
  wii : Mat 512 6144
  whh : Mat 1024 6144
  wcc : Mat 1024 3072
  wee : Mat 1024 4096
  wrr : Mat 1024 4096
  bih : Row 6144
  bhh : Row 6144

/-- softsign z = z / (1 + |z|), with |z| = max z (-z). -/
def softsign (z : EReal) : EReal := Ideal.div z (1 + max z (-z))

/-- Column `off + j` of a matrix of `n` columns: column `j` of the 1024-wide block that starts at `off`. -/
def col {n : Nat} (off : Nat) (j : Fin 1024) (h : off + 1024 ≤ n := by omega) : Fin n :=
  ⟨off + j.val, by have := j.isLt; omega⟩

@[simp] theorem col_val {n : Nat} (off : Nat) (j : Fin 1024) (h : off + 1024 ≤ n) : (col (n := n) off j h).val = off + j.val := rfl

variable (A : Args)

/-- The fused projection with the combined bias. -/
def wb (p : Fin 4096) (q : Fin 6144) : EReal :=
  ((∑ k : Fin 512, A.x (ix2 p k) * A.wii (ix2 k q)) + ∑ k : Fin 1024, A.h (ix2 p k) * A.whh (ix2 k q))
    + (A.bhh (ix1 q) + A.bih (ix1 q))

/-- The forget gate. -/
def forget (p : Fin 4096) (j : Fin 1024) : EReal :=
  Ideal.logistic (((wb A p (col 0 j) + ∑ k : Fin 1024, A.c (ix2 p k) * A.wcc (ix2 k (col 0 j)))
    + ∑ k : Fin 1024, A.e (ix2 p k) * A.wee (ix2 k (col 0 j)))
    + ∑ k : Fin 1024, A.r (ix2 p k) * A.wrr (ix2 k (col 0 j)))

/-- The input gate. -/
def input (p : Fin 4096) (j : Fin 1024) : EReal :=
  Ideal.logistic (((wb A p (col 1024 j) + ∑ k : Fin 1024, A.c (ix2 p k) * A.wcc (ix2 k (col 1024 j)))
    + ∑ k : Fin 1024, A.e (ix2 p k) * A.wee (ix2 k (col 1024 j)))
    + ∑ k : Fin 1024, A.r (ix2 p k) * A.wrr (ix2 k (col 1024 j)))

/-- The new cell state. -/
def cnew (p : Fin 4096) (j : Fin 1024) : EReal :=
  forget A p j * A.c (ix2 p j) + input A p j * softsign (wb A p (col 2048 j))

/-- The new e state. -/
def enew (p : Fin 4096) (j : Fin 1024) : EReal :=
  softsign (wb A p (col 3072 j) + ∑ k : Fin 1024, A.e (ix2 p k) * A.wee (ix2 k (col 2048 j)))

/-- The new r state (it reads the same block wb₃ as e'). -/
def rnew (p : Fin 4096) (j : Fin 1024) : EReal :=
  softsign (wb A p (col 3072 j) + ∑ k : Fin 1024, A.r (ix2 p k) * A.wrr (ix2 k (col 2048 j)))

/-- The output gate. -/
def outg (p : Fin 4096) (j : Fin 1024) : EReal :=
  Ideal.logistic (((wb A p (col 4096 j) + ∑ k : Fin 1024, enew A p k * A.wcc (ix2 k (col 2048 j)))
    + ∑ k : Fin 1024, enew A p k * A.wee (ix2 k (col 3072 j)))
    + ∑ k : Fin 1024, rnew A p k * A.wrr (ix2 k (col 3072 j)))

/-- The new hidden state. -/
def hnew (p : Fin 4096) (j : Fin 1024) : EReal :=
  outg A p j * softsign (cnew A p j)

end Cert.Spec

end
-- ==== Proof.KernelRows.lean ====
/-
  The kernel's arrangement of the cell, row by row.

  Every output entry in batch row p depends only on row p of the projected block wb (5120 columns, five blocks of 1024),
  row p of c, e, r, and the three weight matrices. The formulas below are written in the kernel's own association:

    forget  = σ (((wb₀ + c·w_cc₀) + e·w_ee₀) + r·w_rr₀)          input likewise at the blocks 1
    c'      = forget ⊙ c + input ⊙ softsign wb₂
    e'      = softsign (wb₃ + e·w_ee₂)                            r' = softsign (wb₃ + r·w_rr₂)
    out     = σ ((wb₄ + e'·(w_cc₂ + w_ee₃)) + r'·w_rr₃)           (one product against the summed weights)
    h'      = out ⊙ softsign c'

  and the projection adds the two bias rows as b_ih + b_hh.
-/
import proofs.«129931_j44435731645052_2_alg».proof.Proof.Spec

noncomputable section

open scoped BigOperators

namespace Cert.KernelMath

open Idealize.ShloMosaic Idealize.ShloMosaic.ValueIdx Cert.Spec

section Rows

variable (w : Fin 5120 → EReal) (c e r : Fin 1024 → EReal) (wcc : Mat 1024 3072) (wee wrr : Mat 1024 4096)

/-- The forget gate of one batch row. -/
def forgetRow (j : Fin 1024) : EReal :=
  Ideal.logistic (((w (col 0 j) + ∑ k : Fin 1024, c k * wcc (ix2 k (col 0 j)))
    + ∑ k : Fin 1024, e k * wee (ix2 k (col 0 j)))
    + ∑ k : Fin 1024, r k * wrr (ix2 k (col 0 j)))

/-- The input gate of one batch row. -/
def inputRow (j : Fin 1024) : EReal :=
  Ideal.logistic (((w (col 1024 j) + ∑ k : Fin 1024, c k * wcc (ix2 k (col 1024 j)))
    + ∑ k : Fin 1024, e k * wee (ix2 k (col 1024 j)))
    + ∑ k : Fin 1024, r k * wrr (ix2 k (col 1024 j)))

/-- The new cell state of one batch row. -/
def cRow (j : Fin 1024) : EReal :=
  forgetRow w c e r wcc wee wrr j * c j + inputRow w c e r wcc wee wrr j * softsign (w (col 2048 j))

/-- The new e state of one batch row. -/
def eRow (j : Fin 1024) : EReal :=
  softsign (w (col 3072 j) + ∑ k : Fin 1024, e k * wee (ix2 k (col 2048 j)))

/-- The new r state of one batch row (it reads the same block wb₃). -/
def rRow (j : Fin 1024) : EReal :=
  softsign (w (col 3072 j) + ∑ k : Fin 1024, r k * wrr (ix2 k (col 2048 j)))

/-- The output gate of one batch row: e' is multiplied once, against the sum of the two weight blocks. -/
def outRow (j : Fin 1024) : EReal :=
  Ideal.logistic ((w (col 4096 j)
    + ∑ k : Fin 1024, eRow w e wee k * (wcc (ix2 k (col 2048 j)) + wee (ix2 k (col 3072 j))))
    + ∑ k : Fin 1024, rRow w r wrr k * wrr (ix2 k (col 3072 j)))

/-- The new hidden state of one batch row. -/
def hRow (j : Fin 1024) : EReal :=
  outRow w e r wcc wee wrr j * softsign (cRow w c e r wcc wee wrr j)

end Rows

/-- Column q of a 5120-column block read as a column of the 6144-column arrays. -/
def wide (q : Fin 5120) : Fin 6144 := ⟨q.val, by have := q.isLt; omega⟩

@[simp] theorem wide_val (q : Fin 5120) : (wide q).val = q.val := rfl

variable (A : Args)

/-- The projection the first kernel stores: x·w_ii + h·w_hh + (b_ih + b_hh), on the first 5120 columns. -/
def wbK (p : Fin 4096) (q : Fin 5120) : EReal :=
  ((∑ k : Fin 512, A.x (ix2 p k) * A.wii (ix2 k (wide q))) + ∑ k : Fin 1024, A.h (ix2 p k) * A.whh (ix2 k (wide q)))
    + (A.bih (ix1 (wide q)) + A.bhh (ix1 (wide q)))

variable (W : Mat 4096 5120)

/-- The new cell state the second kernel stores, from a stored projection W. -/
def cK (p : Fin 4096) (j : Fin 1024) : EReal :=
  cRow (fun q => W (ix2 p q)) (fun k => A.c (ix2 p k)) (fun k => A.e (ix2 p k)) (fun k => A.r (ix2 p k)) A.wcc A.wee A.wrr j

/-- The new e state the second kernel stores. -/
def eK (p : Fin 4096) (j : Fin 1024) : EReal :=
  eRow (fun q => W (ix2 p q)) (fun k => A.e (ix2 p k)) A.wee j

/-- The new r state the second kernel stores. -/
def rK (p : Fin 4096) (j : Fin 1024) : EReal :=
  rRow (fun q => W (ix2 p q)) (fun k => A.r (ix2 p k)) A.wrr j

/-- The new hidden state the second kernel stores. -/
def hK (p : Fin 4096) (j : Fin 1024) : EReal :=
  hRow (fun q => W (ix2 p q)) (fun k => A.c (ix2 p k)) (fun k => A.e (ix2 p k)) (fun k => A.r (ix2 p k)) A.wcc A.wee A.wrr j

end Cert.KernelMath

end
-- ==== Proof.LibPlainMatmul.lean ====
/-
  A plain matrix product into a zero accumulator, read at an entry.

  For a dot whose dimension numbers contract the left operand's columns against the right operand's rows, with no batch
  axis — `[M, K] × [K, N] → [M, N]` — the product accumulated into the zero splat is, at the extended reals, the
  textbook sum: entry `(p, c)` is the sum over `k` of `lhs (p, k) · rhs (k, c)`. The dimension numbers enter only
  through four coordinate facts about the dot's operand indices (which a literal record proves by evaluating its
  membership tests) and the fact that exactly one axis, of extent `K`, is contracted; the lemma is general in the
  extents, the element types and the contraction precision, so it serves every such product of a kernel body.
-/
import Idealize.ShloMosaic.PureOps.Ideal.Laws
import Idealize.ShloMosaic.Lib.ValueIdx

noncomputable section

namespace Cert.LibPlainMatmul

open Idealize.ShloMosaic Idealize.ShloMosaic.ValueIdx
open scoped BigOperators

/-- Entry `(p, c)` of `lhs · rhs` accumulated into zero is `Σ k, lhs (p, k) · rhs (k, c)`: the dot's sum over its
    one-axis contraction index, re-indexed along the bijection of that index with `Fin K`, each operand index then
    identified by its two coordinates. -/
theorem matmul_zero_ix2 {M K N : ℕ} {φ₁ φ₂ : FTy}
    (D : DotDims ⟨2, ![M, K]⟩ ⟨2, ![K, N]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (lhs : FVec Ideal ⟨2, ![M, K]⟩ φ₁) (rhs : FVec Ideal ⟨2, ![K, N]⟩ φ₂) (p : Fin M) (c : Fin N) :
    matmul D prec lhs rhs (constant ⟨2, ![M, N]⟩ .f32 0x00000000#32) (ix2 p c)
      = ∑ k : Fin K, lhs (ix2 p k) * rhs (ix2 k c) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.LibPlainMatmul

end
-- ==== Proof.KernelPayload.lean ====
/-
  The kernels' stored values, entry by entry, at the extended reals.

  Each value a kernel stores is a term over the vectors it loaded. Read at an entry (p, j), the term is a formula over
  entries of the loads: a rounding to bf16 is the identity on extended reals, a shape cast to the same shape is the
  identity, a column slice at offset o reads column o + j, the row broadcast reads the one row, and a matrix product
  into the zero accumulator is the plain sum over the contracted coordinate. The first kernel's store is the projection
  of its row block; the second kernel's four stores are the row formulas of the cell (forget, input, c', e', r', out, h'
  in the kernel's own association) on row p of its blocks.
-/
import proofs.«129931_j44435731645052_2_alg».proof.Proof.Gen.KernelIdeal.Skeleton
import proofs.«129931_j44435731645052_2_alg».proof.Proof.KernelRows
import proofs.«129931_j44435731645052_2_alg».proof.Proof.LibPlainMatmul
import Idealize.ShloMosaic.Lib.ValueLayout
import Idealize.ShloMosaic.Lib.Pipeline.Value
import Idealize.ShloMosaic.Lib.IdealHost

noncomputable section

open scoped BigOperators

namespace Cert.KernelIdeal.Payload

open Idealize.ShloMosaic Idealize.ShloMosaic.ValueIdx Cert.KernelIdeal.Gen Cert.Spec Cert.KernelMath

/-! ## The four matrix products -/

theorem mm_512_5120 {φ₁ φ₂ : FTy} (l : FVec Ideal S128x512 φ₁) (r : FVec Ideal S512x5120 φ₂) (p : Fin 128) (c : Fin 5120) :
    matmul dot_S128x512_S512x5120_S128x5120_1_0_0_1_n_n none l r (constant (F := Ideal) S128x5120 .f32 0x00000000#32) (ix2 p c)
      = ∑ k : Fin 512, l (ix2 p k) * r (ix2 k c) :=
  Cert.LibPlainMatmul.matmul_zero_ix2 dot_S128x512_S512x5120_S128x5120_1_0_0_1_n_n none rfl rfl
    (fun _ _ => rfl) (fun i q => DotDims.lhsIdx_val_of_single _ rfl i q)
    (fun i q => DotDims.rhsIdx_val_of_single _ rfl i q) (fun _ _ => rfl) l r p c

theorem mm_1024_5120 {φ₁ φ₂ : FTy} (l : FVec Ideal S128x1024 φ₁) (r : FVec Ideal S1024x5120 φ₂) (p : Fin 128) (c : Fin 5120) :
    matmul dot_S128x1024_S1024x5120_S128x5120_1_0_0_1_n_n none l r (constant (F := Ideal) S128x5120 .f32 0x00000000#32) (ix2 p c)
      = ∑ k : Fin 1024, l (ix2 p k) * r (ix2 k c) :=
  Cert.LibPlainMatmul.matmul_zero_ix2 dot_S128x1024_S1024x5120_S128x5120_1_0_0_1_n_n none rfl rfl
    (fun _ _ => rfl) (fun i q => DotDims.lhsIdx_val_of_single _ rfl i q)
    (fun i q => DotDims.rhsIdx_val_of_single _ rfl i q) (fun _ _ => rfl) l r p c

theorem mm_1024_2048 {φ₁ φ₂ : FTy} (l : FVec Ideal S128x1024 φ₁) (r : FVec Ideal S1024x2048 φ₂) (p : Fin 128) (c : Fin 2048) :
    matmul dot_S128x1024_S1024x2048_S128x2048_1_0_0_1_n_n none l r (constant (F := Ideal) S128x2048 .f32 0x00000000#32) (ix2 p c)
      = ∑ k : Fin 1024, l (ix2 p k) * r (ix2 k c) :=
  Cert.LibPlainMatmul.matmul_zero_ix2 dot_S128x1024_S1024x2048_S128x2048_1_0_0_1_n_n none rfl rfl
    (fun _ _ => rfl) (fun i q => DotDims.lhsIdx_val_of_single _ rfl i q)
    (fun i q => DotDims.rhsIdx_val_of_single _ rfl i q) (fun _ _ => rfl) l r p c

theorem mm_1024_1024 {φ₁ φ₂ : FTy} (l : FVec Ideal S128x1024 φ₁) (r : FVec Ideal S1024x1024 φ₂) (p : Fin 128) (c : Fin 1024) :
    matmul dot_S128x1024_S1024x1024_S128x1024_1_0_0_1_n_n none l r (constant (F := Ideal) S128x1024 .f32 0x00000000#32) (ix2 p c)
      = ∑ k : Fin 1024, l (ix2 p k) * r (ix2 k c) :=
  Cert.LibPlainMatmul.matmul_zero_ix2 dot_S128x1024_S1024x1024_S128x1024_1_0_0_1_n_n none rfl rfl
    (fun _ _ => rfl) (fun i q => DotDims.lhsIdx_val_of_single _ rfl i q)
    (fun i q => DotDims.rhsIdx_val_of_single _ rfl i q) (fun _ _ => rfl) l r p c

/-! ## The first kernel: the projection of a row block -/

/-- Entry (p, q) of the first kernel's store: x·w_ii + h·w_hh on the block's row p, plus the bias row at q. -/
theorem k0_pay1_apply (v0 : Vec Ideal S128x512 .f32) (v2 : Vec Ideal S128x1024 .f32) (v4 : Vec Ideal S512x5120 .bf16)
    (v7 : Vec Ideal S1024x5120 .bf16) (v11 : Vec Ideal S1x5120 .f32) (p : Fin 128) (q : Fin 5120) :
    k0_pay1 v0 v2 v4 v7 v11 (ix2 p q)
      = ((∑ k : Fin 512, v0 (ix2 p k) * v4 (ix2 k q)) + ∑ k : Fin 1024, v2 (ix2 p k) * v7 (ix2 k q))
        + v11 (ix2 (0 : Fin 1) q) := by
  show (matmul dot_S128x512_S512x5120_S128x5120_1_0_0_1_n_n none (truncf .bf16 v0 bitsLt_bf16_f32)
          (shapeCast S512x5120 v4 shapeCasts_S512x5120_S512x5120) (constant (F := Ideal) S128x5120 .f32 0x00000000#32) (ix2 p q)
        + matmul dot_S128x1024_S1024x5120_S128x5120_1_0_0_1_n_n none (truncf .bf16 v2 bitsLt_bf16_f32)
          (shapeCast S1024x5120 v7 shapeCasts_S1024x5120_S1024x5120) (constant (F := Ideal) S128x5120 .f32 0x00000000#32) (ix2 p q))
      + broadcastTo S128x5120 (shapeCast S1x5120 v11 shapeCasts_S1x5120_S1x5120) broadcasts_S1x5120_S128x5120 (ix2 p q) = _
  rw [shapeCast_self, shapeCast_self, shapeCast_self, mm_512_5120, mm_1024_5120, broadcastTo_1b_ab_apply]
  rfl

/-! ## The second kernel: its loads behind the casts and slices -/

section Second

variable (v0 : Vec Ideal S128x5120 .f32) (v7 v8 v9 : Vec Ideal S128x1024 .f32) (v13 : Vec Ideal S1024x3072 .bf16)
  (v15 v17 : Vec Ideal S1024x4096 .bf16)

theorem k1_pay5_eq : k1_pay5 v0 = v0 := shapeCast_self _ _
theorem k1_pay11_eq : k1_pay11 v13 = v13 := shapeCast_self _ _
theorem k1_pay12_eq : k1_pay12 v15 = v15 := shapeCast_self _ _
theorem k1_pay13_eq : k1_pay13 v17 = v17 := shapeCast_self _ _

/-- A 1024-column block of the projected block, at offset o. -/
theorem wbSlice (o : Nat) (h : S128x5120.Slices ![0, o] S128x1024) (ho : o + 1024 ≤ 5120) (p : Fin 128) (j : Fin 1024) :
    extractStridedSlice S128x1024 ![0, o] (k1_pay5 v0) h (ix2 p j) = v0 (ix2 p (col o j ho)) := by
  rw [k1_pay5_eq]
  exact slice2_axis1_apply o v0 h p j (col o j ho) rfl

theorem k1_pay6_apply (p : Fin 128) (j : Fin 1024) : k1_pay6 v0 (ix2 p j) = v0 (ix2 p (col 2048 j)) :=
  wbSlice v0 2048 slices_S128x5120_o0_2048_S128x1024 (by omega) p j
theorem k1_pay7_apply (p : Fin 128) (j : Fin 1024) : k1_pay7 v0 (ix2 p j) = v0 (ix2 p (col 3072 j)) :=
  wbSlice v0 3072 slices_S128x5120_o0_3072_S128x1024 (by omega) p j
theorem k1_pay8_apply (p : Fin 128) (j : Fin 1024) : k1_pay8 v0 (ix2 p j) = v0 (ix2 p (col 4096 j)) :=
  wbSlice v0 4096 slices_S128x5120_o0_4096_S128x1024 (by omega) p j

theorem k1_pay14_apply (k j : Fin 1024) : k1_pay14 v13 (ix2 k j) = v13 (ix2 k (col 2048 j)) := by
  show extractStridedSlice S1024x1024 ![0, 2048] (k1_pay11 v13) slices_S1024x3072_o0_2048_S1024x1024 (ix2 k j) = _
  rw [k1_pay11_eq]
  exact slice2_axis1_apply 2048 v13 _ k j (col 2048 j) rfl

theorem k1_pay15_apply (k j : Fin 1024) : k1_pay15 v15 (ix2 k j) = v15 (ix2 k (col 2048 j)) := by
  show extractStridedSlice S1024x1024 ![0, 2048] (k1_pay12 v15) slices_S1024x4096_o0_2048_S1024x1024 (ix2 k j) = _
  rw [k1_pay12_eq]
  exact slice2_axis1_apply 2048 v15 _ k j (col 2048 j) rfl

theorem k1_pay16_apply (k j : Fin 1024) : k1_pay16 v15 (ix2 k j) = v15 (ix2 k (col 3072 j)) := by
  show extractStridedSlice S1024x1024 ![0, 3072] (k1_pay12 v15) slices_S1024x4096_o0_3072_S1024x1024 (ix2 k j) = _
  rw [k1_pay12_eq]
  exact slice2_axis1_apply 3072 v15 _ k j (col 3072 j) rfl

theorem k1_pay17_apply (k j : Fin 1024) : k1_pay17 v17 (ix2 k j) = v17 (ix2 k (col 2048 j)) := by
  show extractStridedSlice S1024x1024 ![0, 2048] (k1_pay13 v17) slices_S1024x4096_o0_2048_S1024x1024 (ix2 k j) = _
  rw [k1_pay13_eq]
  exact slice2_axis1_apply 2048 v17 _ k j (col 2048 j) rfl

theorem k1_pay18_apply (k j : Fin 1024) : k1_pay18 v17 (ix2 k j) = v17 (ix2 k (col 3072 j)) := by
  show extractStridedSlice S1024x1024 ![0, 3072] (k1_pay13 v17) slices_S1024x4096_o0_3072_S1024x1024 (ix2 k j) = _
  rw [k1_pay13_eq]
  exact slice2_axis1_apply 3072 v17 _ k j (col 3072 j) rfl

/-! ## The three wide products of the gates, block by block -/

/-- A column of the first 2048 read as a column of 3072. -/
def lo3 (c : Fin 2048) : Fin 3072 := ⟨c.val, by have := c.isLt; omega⟩
/-- A column of the first 2048 read as a column of 4096. -/
def lo4 (c : Fin 2048) : Fin 4096 := ⟨c.val, by have := c.isLt; omega⟩

theorem k1_pay19_apply (p : Fin 128) (c : Fin 2048) :
    k1_pay19 v7 v13 (ix2 p c) = ∑ k : Fin 1024, v7 (ix2 p k) * v13 (ix2 k (lo3 c)) := by
  show matmul dot_S128x1024_S1024x2048_S128x2048_1_0_0_1_n_n none (truncf .bf16 v7 bitsLt_bf16_f32)
      (extractStridedSlice S1024x2048 ![0, 0] (k1_pay11 v13) slices_S1024x3072_o0_0_S1024x2048)
      (constant (F := Ideal) S128x2048 .f32 0x00000000#32) (ix2 p c) = _
  rw [mm_1024_2048, k1_pay11_eq]
  refine Finset.sum_congr rfl fun k _ => ?_
  rw [slice2_axis1_apply 0 v13 _ k c (lo3 c) (Nat.zero_add _).symm]
  rfl

theorem k1_pay20_apply (p : Fin 128) (c : Fin 2048) :
    k1_pay20 v8 v15 (ix2 p c) = ∑ k : Fin 1024, v8 (ix2 p k) * v15 (ix2 k (lo4 c)) := by
  show matmul dot_S128x1024_S1024x2048_S128x2048_1_0_0_1_n_n none (truncf .bf16 v8 bitsLt_bf16_f32)
      (extractStridedSlice S1024x2048 ![0, 0] (k1_pay12 v15) slices_S1024x4096_o0_0_S1024x2048)
      (constant (F := Ideal) S128x2048 .f32 0x00000000#32) (ix2 p c) = _
  rw [mm_1024_2048, k1_pay12_eq]
  refine Finset.sum_congr rfl fun k _ => ?_
  rw [slice2_axis1_apply 0 v15 _ k c (lo4 c) (Nat.zero_add _).symm]
  rfl

theorem k1_pay21_apply (p : Fin 128) (c : Fin 2048) :
    k1_pay21 v9 v17 (ix2 p c) = ∑ k : Fin 1024, v9 (ix2 p k) * v17 (ix2 k (lo4 c)) := by
  show matmul dot_S128x1024_S1024x2048_S128x2048_1_0_0_1_n_n none (truncf .bf16 v9 bitsLt_bf16_f32)
      (extractStridedSlice S1024x2048 ![0, 0] (k1_pay13 v17) slices_S1024x4096_o0_0_S1024x2048)
      (constant (F := Ideal) S128x2048 .f32 0x00000000#32) (ix2 p c) = _
  rw [mm_1024_2048, k1_pay13_eq]
  refine Finset.sum_congr rfl fun k _ => ?_
  rw [slice2_axis1_apply 0 v17 _ k c (lo4 c) (Nat.zero_add _).symm]
  rfl

/-- Block o of c·w_cc₀₁. -/
theorem cMix (o : Nat) (h : S128x2048.Slices ![0, o] S128x1024) (ho : o + 1024 ≤ 2048) (p : Fin 128) (j : Fin 1024) :
    extractStridedSlice S128x1024 ![0, o] (k1_pay19 v7 v13) h (ix2 p j)
      = ∑ k : Fin 1024, v7 (ix2 p k) * v13 (ix2 k (col o j (by omega))) := by
  rw [slice2_axis1_apply o _ h p j (⟨o + j.val, by have := j.isLt; omega⟩ : Fin 2048) rfl, k1_pay19_apply]
  rfl

/-- Block o of e·w_ee₀₁. -/
theorem eMix (o : Nat) (h : S128x2048.Slices ![0, o] S128x1024) (ho : o + 1024 ≤ 2048) (p : Fin 128) (j : Fin 1024) :
    extractStridedSlice S128x1024 ![0, o] (k1_pay20 v8 v15) h (ix2 p j)
      = ∑ k : Fin 1024, v8 (ix2 p k) * v15 (ix2 k (col o j (by omega))) := by
  rw [slice2_axis1_apply o _ h p j (⟨o + j.val, by have := j.isLt; omega⟩ : Fin 2048) rfl, k1_pay20_apply]
  rfl

/-- Block o of r·w_rr₀₁. -/
theorem rMix (o : Nat) (h : S128x2048.Slices ![0, o] S128x1024) (ho : o + 1024 ≤ 2048) (p : Fin 128) (j : Fin 1024) :
    extractStridedSlice S128x1024 ![0, o] (k1_pay21 v9 v17) h (ix2 p j)
      = ∑ k : Fin 1024, v9 (ix2 p k) * v17 (ix2 k (col o j (by omega))) := by
  rw [slice2_axis1_apply o _ h p j (⟨o + j.val, by have := j.isLt; omega⟩ : Fin 2048) rfl, k1_pay21_apply]
  rfl

/-! ## Pointwise operations of the second kernel at an entry -/

theorem logistic_apply {s : Shape} {φ : FTy} (a : FVec Ideal s φ) (i : s.Idx) : logistic a i = Ideal.logistic (a i) := rfl

theorem absf_apply {s : Shape} {φ : FTy} (a : FVec Ideal s φ) (i : s.Idx) : absf a i = max (a i) (-(a i)) := rfl

/-- The kernel's softsign at an entry: x / (1 + |x|) with the literal one. -/
theorem softsign_apply {s : Shape} (a : FVec Ideal s .f32) (i : s.Idx) :
    divf a (addf (broadcast s (Scalar.ofBits (F := Ideal) .f32 0x3F800000#32)) (absf a)) i = softsign (a i) := by
  show Ideal.div (a i) (Ideal.ofBits .f32 0x3F800000#32 + max (a i) (-(a i))) = _
  rw [Ideal.ofBits_one_f32]
  rfl

/-! ## The gates -/

/-- The forget gate at (p, j). -/
theorem k1_pay22_apply (p : Fin 128) (j : Fin 1024) :
    k1_pay22 v0 v7 v8 v9 v13 v15 v17 (ix2 p j)
      = forgetRow (fun q => v0 (ix2 p q)) (fun k => v7 (ix2 p k)) (fun k => v8 (ix2 p k)) (fun k => v9 (ix2 p k)) v13 v15 v17 j := by
  show Ideal.logistic (((extractStridedSlice S128x1024 ![0, 0] (k1_pay5 v0) slices_S128x5120_o0_0_S128x1024 (ix2 p j)
      + extractStridedSlice S128x1024 ![0, 0] (k1_pay19 v7 v13) slices_S128x2048_o0_0_S128x1024 (ix2 p j))
      + extractStridedSlice S128x1024 ![0, 0] (k1_pay20 v8 v15) slices_S128x2048_o0_0_S128x1024 (ix2 p j))
      + extractStridedSlice S128x1024 ![0, 0] (k1_pay21 v9 v17) slices_S128x2048_o0_0_S128x1024 (ix2 p j)) = _
  rw [wbSlice v0 0 _ (by omega), cMix v7 v13 0 _ (by omega), eMix v8 v15 0 _ (by omega), rMix v9 v17 0 _ (by omega)]
  rfl

/-- The input gate's argument at (p, j): k1_pay23 is the sum without r·w_rr₁, k1_pay24 that last block. -/
theorem k1_pay23_24_apply (p : Fin 128) (j : Fin 1024) :
    Ideal.logistic (k1_pay23 v0 v7 v8 v13 v15 (ix2 p j) + k1_pay24 v9 v17 (ix2 p j))
      = inputRow (fun q => v0 (ix2 p q)) (fun k => v7 (ix2 p k)) (fun k => v8 (ix2 p k)) (fun k => v9 (ix2 p k)) v13 v15 v17 j := by
  show Ideal.logistic (((extractStridedSlice S128x1024 ![0, 1024] (k1_pay5 v0) slices_S128x5120_o0_1024_S128x1024 (ix2 p j)
      + extractStridedSlice S128x1024 ![0, 1024] (k1_pay19 v7 v13) slices_S128x2048_o0_1024_S128x1024 (ix2 p j))
      + extractStridedSlice S128x1024 ![0, 1024] (k1_pay20 v8 v15) slices_S128x2048_o0_1024_S128x1024 (ix2 p j))
      + extractStridedSlice S128x1024 ![0, 1024] (k1_pay21 v9 v17) slices_S128x2048_o0_1024_S128x1024 (ix2 p j)) = _
  rw [wbSlice v0 1024 _ (by omega), cMix v7 v13 1024 _ (by omega), eMix v8 v15 1024 _ (by omega), rMix v9 v17 1024 _ (by omega)]
  rfl

/-! ## The four stores -/

/-- The stored c' at (p, j). -/
theorem cnew_apply (p : Fin 128) (j : Fin 1024) :
    k1_pay1 (k1_pay6 v0) v7 (k1_pay22 v0 v7 v8 v9 v13 v15 v17) (k1_pay23 v0 v7 v8 v13 v15) (k1_pay24 v9 v17) (ix2 p j)
      = cRow (fun q => v0 (ix2 p q)) (fun k => v7 (ix2 p k)) (fun k => v8 (ix2 p k)) (fun k => v9 (ix2 p k)) v13 v15 v17 j := by
  show k1_pay22 v0 v7 v8 v9 v13 v15 v17 (ix2 p j) * v7 (ix2 p j)
      + Ideal.logistic (k1_pay23 v0 v7 v8 v13 v15 (ix2 p j) + k1_pay24 v9 v17 (ix2 p j))
        * divf (k1_pay6 v0) (addf (broadcast S128x1024 (Scalar.ofBits (F := Ideal) .f32 0x3F800000#32)) (absf (k1_pay6 v0))) (ix2 p j) = _
  rw [k1_pay22_apply, k1_pay23_24_apply, softsign_apply, k1_pay6_apply]
  rfl

/-- The stored e' at (p, j). -/
theorem enew_apply (p : Fin 128) (j : Fin 1024) :
    k1_pay2 (k1_pay7 v0) (k1_pay9 v8) (k1_pay15 v15) (ix2 p j) = eRow (fun q => v0 (ix2 p q)) (fun k => v8 (ix2 p k)) v15 j := by
  show divf (addf (k1_pay7 v0) (matmul dot_S128x1024_S1024x1024_S128x1024_1_0_0_1_n_n none (k1_pay9 v8) (k1_pay15 v15)
        (constant (F := Ideal) S128x1024 .f32 0x00000000#32)))
      (addf (broadcast S128x1024 (Scalar.ofBits (F := Ideal) .f32 0x3F800000#32))
        (absf (addf (k1_pay7 v0) (matmul dot_S128x1024_S1024x1024_S128x1024_1_0_0_1_n_n none (k1_pay9 v8) (k1_pay15 v15)
          (constant (F := Ideal) S128x1024 .f32 0x00000000#32))))) (ix2 p j) = _
  rw [softsign_apply, addf_apply, k1_pay7_apply, mm_1024_1024]
  simp only [k1_pay15_apply]
  rfl

/-- The stored r' at (p, j). -/
theorem rnew_apply (p : Fin 128) (j : Fin 1024) :
    k1_pay3 (k1_pay7 v0) (k1_pay10 v9) (k1_pay17 v17) (ix2 p j) = rRow (fun q => v0 (ix2 p q)) (fun k => v9 (ix2 p k)) v17 j := by
  show divf (addf (k1_pay7 v0) (matmul dot_S128x1024_S1024x1024_S128x1024_1_0_0_1_n_n none (k1_pay10 v9) (k1_pay17 v17)
        (constant (F := Ideal) S128x1024 .f32 0x00000000#32)))
      (addf (broadcast S128x1024 (Scalar.ofBits (F := Ideal) .f32 0x3F800000#32))
        (absf (addf (k1_pay7 v0) (matmul dot_S128x1024_S1024x1024_S128x1024_1_0_0_1_n_n none (k1_pay10 v9) (k1_pay17 v17)
          (constant (F := Ideal) S128x1024 .f32 0x00000000#32))))) (ix2 p j) = _
  rw [softsign_apply, addf_apply, k1_pay7_apply, mm_1024_1024]
  simp only [k1_pay17_apply]
  rfl

/-- The stored h' at (p, j). -/
theorem hnew_apply (p : Fin 128) (j : Fin 1024) :
    k1_pay4 (k1_pay6 v0) (k1_pay7 v0) (k1_pay8 v0) v7 (k1_pay9 v8) (k1_pay10 v9) (k1_pay14 v13) (k1_pay15 v15) (k1_pay16 v15)
        (k1_pay17 v17) (k1_pay18 v17) (k1_pay22 v0 v7 v8 v9 v13 v15 v17) (k1_pay23 v0 v7 v8 v13 v15) (k1_pay24 v9 v17) (ix2 p j)
      = hRow (fun q => v0 (ix2 p q)) (fun k => v7 (ix2 p k)) (fun k => v8 (ix2 p k)) (fun k => v9 (ix2 p k)) v13 v15 v17 j := by
  show Ideal.logistic ((k1_pay8 v0 (ix2 p j)
        + matmul dot_S128x1024_S1024x1024_S128x1024_1_0_0_1_n_n none
            (truncf .bf16 (k1_pay2 (k1_pay7 v0) (k1_pay9 v8) (k1_pay15 v15)) bitsLt_bf16_f32)
            (addf (k1_pay14 v13) (k1_pay16 v15)) (constant (F := Ideal) S128x1024 .f32 0x00000000#32) (ix2 p j))
        + matmul dot_S128x1024_S1024x1024_S128x1024_1_0_0_1_n_n none
            (truncf .bf16 (k1_pay3 (k1_pay7 v0) (k1_pay10 v9) (k1_pay17 v17)) bitsLt_bf16_f32)
            (k1_pay18 v17) (constant (F := Ideal) S128x1024 .f32 0x00000000#32) (ix2 p j))
      * divf (k1_pay1 (k1_pay6 v0) v7 (k1_pay22 v0 v7 v8 v9 v13 v15 v17) (k1_pay23 v0 v7 v8 v13 v15) (k1_pay24 v9 v17))
          (addf (broadcast S128x1024 (Scalar.ofBits (F := Ideal) .f32 0x3F800000#32))
            (absf (k1_pay1 (k1_pay6 v0) v7 (k1_pay22 v0 v7 v8 v9 v13 v15 v17) (k1_pay23 v0 v7 v8 v13 v15) (k1_pay24 v9 v17))))
          (ix2 p j) = _
  rw [softsign_apply, cnew_apply, k1_pay8_apply, mm_1024_1024, mm_1024_1024]
  simp only [truncf_apply, addf_apply, enew_apply, rnew_apply, k1_pay14_apply, k1_pay16_apply, k1_pay18_apply]
  rfl

end Second

end Cert.KernelIdeal.Payload

end
-- ==== Proof.KernelValue0.lean ====
/-
  Region 0's result array in closed form, over the extended reals.

  The projection kernel runs on 32 grid points; point t stores rows 128·t … 128·t + 127 of the [4096, 5120] result. The
  stored entry (p, q) of that block is  x·w_ii + h·w_hh  on the block's row p, at column q of the first 5120 columns of
  the two weight matrices, plus the one-row bias at column q. Row p of block t is row 128·t + p of x and of h, the
  weights and the bias are the same blocks at every point, and the 32 blocks tile the result: so the result array ends
  holding, at (i, q), the sum over k of x (i, k) · w_ii (k, q) plus the sum over k of h (i, k) · w_hh (k, q) plus the
  bias at q.
-/
import proofs.«129931_j44435731645052_2_alg».proof.Proof.FrameR0
import proofs.«129931_j44435731645052_2_alg».proof.Proof.KernelPayload
import Idealize.ShloMosaic.Lib.Pipeline.Value
import Idealize.ShloMosaic.Lib.ValueIdx

set_option maxRecDepth 16384

noncomputable section

open scoped BigOperators

namespace Cert.KernelIdeal.Val0

open Cert.KernelIdeal Cert.KernelIdeal.Gen Cert.KernelIdeal.Hand Cert.KernelIdeal.Payload Cert.KernelMath
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The arrays the region reads, as arrays of extended reals -/

/-- x as the region finds it. -/
abbrev xA (c : Dev nD) : S4096x512.Idx → EReal := V c main_arg0
/-- h as the region finds it. -/
abbrev hA (c : Dev nD) : S4096x1024.Idx → EReal := V c main_arg1
/-- The converted w_ii as the region finds it. -/
abbrev wiiA (c : Dev nD) : S512x6144.Idx → EReal := V c main_v0
/-- The converted w_hh as the region finds it. -/
abbrev whhA (c : Dev nD) : S1024x6144.Idx → EReal := V c main_v1
/-- The one-row bias as the region finds it. -/
abbrev bA (c : Dev nD) : S1x6144.Idx → EReal := V c main_v6

/-- The closed form of the result array: x·w_ii + h·w_hh on the first 5120 columns, plus the bias row. -/
def G0 (c : Dev nD) : S4096x5120.Idx → EReal := fun i =>
  ((∑ k : Fin 512, xA V c (ix2 (i 0) k) * wiiA V c (ix2 k (wide (i 1))))
    + ∑ k : Fin 1024, hA V c (ix2 (i 0) k) * whhA V c (ix2 k (wide (i 1))))
    + bA V c (ix2 0 (wide (i 1)))

/-! ## Where each block sits in its array -/

theorem hz : (![0, 0] : Fin 2 → Nat) = fun _ => 0 := funext fun a => by fin_cases a <;> rfl

/-- The block indices over the grid: the two row-blocked inputs and the output are at block row t, column block 0;
    the three cut windows are at block (0, 0) at every point. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of block t among the 4096 rows. -/
def row (t : Fin cfg0.N) (p : Fin 128) : Fin 4096 :=
  ⟨128 * t.val + p.val, by have ht : t.val < 32 := t.isLt; have := p.isLt; omega⟩

/-- Entry (p, k) of x's block at point t is x at row 128·t + p. -/
theorem iblk0_0_apply (c : Dev nD) (t : Fin cfg0.N) (p : Fin 128) (k : Fin 512) :
    iblk0 V c 0 t (ix2 p k) = xA V c (ix2 (row t p) k) := by
  obtain ⟨e0, e1, -⟩ := idx_facts t
  show V c main_arg0 (((cfg0.win 0).blk t).view.emb (ix2 p k)) = V c main_arg0 (ix2 (row t p) k)
  refine congrArg (V c main_arg0) (funext fun a => Fin.ext ?_)
  match a with
  | ⟨0, _⟩ => show win0_0.index t (0 : Fin 2) * 128 + 1 * p.val = 128 * t.val + p.val; omega
  | ⟨1, _⟩ => show win0_0.index t (1 : Fin 2) * 512 + 1 * k.val = k.val; omega

/-- Entry (p, k) of h's block at point t is h at row 128·t + p. -/
theorem iblk0_1_apply (c : Dev nD) (t : Fin cfg0.N) (p : Fin 128) (k : Fin 1024) :
    iblk0 V c 1 t (ix2 p k) = hA V c (ix2 (row t p) k) := by
  obtain ⟨-, -, e0, e1, -⟩ := idx_facts t
  show V c main_arg1 (((cfg0.win 1).blk t).view.emb (ix2 p k)) = V c main_arg1 (ix2 (row t p) k)
  refine congrArg (V c main_arg1) (funext fun a => Fin.ext ?_)
  match a with
  | ⟨0, _⟩ => show win0_1.index t (0 : Fin 2) * 128 + 1 * p.val = 128 * t.val + p.val; omega
  | ⟨1, _⟩ => show win0_1.index t (1 : Fin 2) * 1024 + 1 * k.val = k.val; omega

/-- Entry (k, q) of the staged w_ii block is w_ii at column q of the wide array, at every point. -/
theorem sblk0_2_apply (c : Dev nD) (t : Fin cfg0.N) (k : Fin 512) (q : Fin 5120) :
    sblk0_2 V c t (ix2 k q) = wiiA V c (ix2 k (wide q)) := by
  obtain ⟨-, -, -, -, e0, e1, -⟩ := idx_facts t
  unfold sblk0_2 Pipeline.Window.fill
  rw [dif_pos (moved0_2 _ _)]
  show V c main_v0 (((cfg0.win 2).blk t).view.emb _) = V c main_v0 (ix2 k (wide q))
  refine congrArg (V c main_v0) (funext fun a => Fin.ext ?_)
  match a with
  | ⟨0, _⟩ => show win0_2.index t (0 : Fin 2) * 512 + 1 * k.val = k.val; omega
  | ⟨1, _⟩ => show win0_2.index t (1 : Fin 2) * 5120 + 1 * q.val = q.val; omega

/-- Entry (k, q) of the staged w_hh block is w_hh at column q of the wide array, at every point. -/
theorem sblk0_3_apply (c : Dev nD) (t : Fin cfg0.N) (k : Fin 1024) (q : Fin 5120) :
    sblk0_3 V c t (ix2 k q) = whhA V c (ix2 k (wide q)) := by
  obtain ⟨-, -, -, -, -, -, e0, e1, -⟩ := idx_facts t
  unfold sblk0_3 Pipeline.Window.fill
  rw [dif_pos (moved0_3 _ _)]
  show V c main_v1 (((cfg0.win 3).blk t).view.emb _) = V c main_v1 (ix2 k (wide q))
  refine congrArg (V c main_v1) (funext fun a => Fin.ext ?_)
  match a with
  | ⟨0, _⟩ => show win0_3.index t (0 : Fin 2) * 1024 + 1 * k.val = k.val; omega
  | ⟨1, _⟩ => show win0_3.index t (1 : Fin 2) * 5120 + 1 * q.val = q.val; omega

/-- Entry (0, q) of the staged bias block is the bias at column q of the wide row, at every point. -/
theorem sblk0_4_apply (c : Dev nD) (t : Fin cfg0.N) (q : Fin 5120) :
    sblk0_4 V c t (ix2 (0 : Fin 1) q) = bA V c (ix2 0 (wide q)) := by
  obtain ⟨-, -, -, -, -, -, -, -, e0, e1, -⟩ := idx_facts t
  unfold sblk0_4 Pipeline.Window.fill
  rw [dif_pos (moved0_4 _ _)]
  show V c main_v6 (((cfg0.win 4).blk t).view.emb _) = V c main_v6 (ix2 0 (wide q))
  refine congrArg (V c main_v6) (funext fun a => Fin.ext ?_)
  match a with
  | ⟨0, _⟩ => show win0_4.index t (0 : Fin 2) * 1 + 1 * 0 = 0; omega
  | ⟨1, _⟩ => show win0_4.index t (1 : Fin 2) * 5120 + 1 * q.val = q.val; omega

/-- Entry (p, q) of the output's block at point t sits at row 128·t + p, column q of the result array. -/
theorem emb5 (t : Fin cfg0.N) (p : Fin 128) (q : Fin 5120) :
    ((cfg0.win 5).blk t).view.emb (ix2 p q) = ix2 (row t p) q := by
  obtain ⟨-, -, -, -, -, -, -, -, -, -, e0, e1⟩ := idx_facts t
  funext a; apply Fin.ext
  match a with
  | ⟨0, _⟩ => show win0_5.index t (0 : Fin 2) * 128 + 1 * p.val = 128 * t.val + p.val; omega
  | ⟨1, _⟩ => show win0_5.index t (1 : Fin 2) * 5120 + 1 * q.val = q.val; omega

/-! ## What each point writes back, and the whole array -/

/-- What point t writes back is block t of the closed form. -/
theorem flushed0_5_eq (c : Dev nD) (t : Fin cfg0.N) :
    (dat0 (F := Ideal) V c).flushed 5 t = ((cfg0.win 5).blk t).view.read (Elt Ideal) (G0 V c) := by
  show (cfg0.win 5).cut (grid0.coords t) ((dat0 (F := Ideal) V c).after 5 t) = _
  rw [after0_5]
  unfold out0_5
  rw [View.canon_unit_zero hz]
  simp only [View.ld_unit_zero (S := S128x512) hz, View.ld_unit_zero (S := S128x1024) hz, View.ld_unit_zero (S := S512x5120) hz,
    View.ld_unit_zero (S := S1024x5120) hz, View.ld_unit_zero (S := S1x5120) hz]
  funext j
  obtain ⟨p, q, rfl⟩ : ∃ (p : Fin 128) (q : Fin 5120), j = ix2 p q := ⟨j 0, j 1, eq_ix2 j⟩
  show k0_pay1 (iblk0 V c 0 t) (iblk0 V c 1 t) (sblk0_2 V c t) (sblk0_3 V c t) (sblk0_4 V c t) (ix2 p q)
    = G0 V c (((cfg0.win 5).blk t).view.emb (ix2 p q))
  rw [emb5]
  refine (k0_pay1_apply _ _ _ _ _ p q).trans ?_
  refine congrArg₂ (· + ·) (congrArg₂ (· + ·) (Finset.sum_congr rfl fun k _ => ?_) (Finset.sum_congr rfl fun k _ => ?_)) ?_
  · exact congrArg₂ (· * ·) (iblk0_0_apply V c t p k) (sblk0_2_apply V c t k q)
  · exact congrArg₂ (· * ·) (iblk0_1_apply V c t p k) (sblk0_3_apply V c t k q)
  · exact sblk0_4_apply V c t q

/-- An index of the result array is in point t's block iff each coordinate is in the block's range on its axis. -/
theorem mem_blk5 (t : Fin cfg0.N) (i : S4096x5120.Idx) :
    i ∈ ((cfg0.win 5).blk t).view.set ↔ ∀ a : Fin 2, win0_5.index t a * S128x5120.size a ≤ (i a).val
      ∧ (i a).val < win0_5.index t a * S128x5120.size a + S128x5120.size a := by
  show i ∈ ((View.whole main_v7).slice (win0_5.rect t)).set ↔ _
  rw [View.set_slice_whole, Rect.mem_set_unit]
  exact Iff.rfl

/-- Every index of the result array lies in the block of the point of its row block, which is written back. -/
theorem cover5 (i : S4096x5120.Idx) :
    ∃ t : Fin cfg0.N, (cfg0.win 5).flush t = true ∧ i ∈ ((cfg0.win 5).blk t).view.set := by
  have hi0 : (i 0).val < 4096 := (i 0).isLt
  have hi1 : (i 1).val < 5120 := (i 1).isLt
  obtain ⟨t, ht⟩ : ∃ t : Fin cfg0.N, t.val = (i 0).val / 128 :=
    ⟨⟨(i 0).val / 128, by show (i 0).val / 128 < 32; omega⟩, rfl⟩
  obtain ⟨-, -, -, -, -, -, -, -, -, -, e0, e1⟩ := idx_facts t
  refine ⟨t, flush0_5 t, ?_⟩
  rw [mem_blk5]
  intro a
  match a with
  | ⟨0, _⟩ => show win0_5.index t (0 : Fin 2) * 128 ≤ (i 0).val ∧ (i 0).val < win0_5.index t (0 : Fin 2) * 128 + 128; omega
  | ⟨1, _⟩ => show win0_5.index t (1 : Fin 2) * 5120 ≤ (i 1).val ∧ (i 1).val < win0_5.index t (1 : Fin 2) * 5120 + 5120; omega

/-- THE RESULT ARRAY after the region is the closed form. -/
theorem final0 (c : Dev nD) : (dat0 (F := Ideal) V c).arrAt 5 cfg0.N = G0 V c :=
  (dat0 (F := Ideal) V c).arrAt_eq_of_cover 5 (G0 V c) (fun t _ => flushed0_5_eq V c t) (cover5)

end Cert.KernelIdeal.Val0

end
-- ==== Proof.KernelBlocks.lean ====
/-
  From a block's stored values to the whole-array arrangement.

  Grid point t of either kernel works on batch rows 128·t … 128·t + 127. When the vectors a grid point loads are those
  rows of the arrays (and the weights whole, the first kernel's on their first 5120 columns, its bias row the sum
  b_ih + b_hh), the entries it stores are the whole-array formulas at row 128·t + p.
-/
import proofs.«129931_j44435731645052_2_alg».proof.Proof.KernelPayload

noncomputable section

open scoped BigOperators

namespace Cert.KernelIdeal.Payload

open Idealize.ShloMosaic Idealize.ShloMosaic.ValueIdx Cert.KernelIdeal.Gen Cert.Spec Cert.KernelMath

/-- Row p of block t among the 4096 batch rows. -/
def brow (t : Fin 32) (p : Fin 128) : Fin 4096 := ⟨128 * t.val + p.val, by have := t.isLt; have := p.isLt; omega⟩

@[simp] theorem brow_val (t : Fin 32) (p : Fin 128) : (brow t p).val = 128 * t.val + p.val := rfl

variable (A : Args)

/-- The first kernel's store at block t is the projection wbK on the block's rows. -/
theorem k0_pay1_block (t : Fin 32) (v0 : Vec Ideal S128x512 .f32) (v2 : Vec Ideal S128x1024 .f32) (v4 : Vec Ideal S512x5120 .bf16)
    (v7 : Vec Ideal S1024x5120 .bf16) (v11 : Vec Ideal S1x5120 .f32)
    (h0 : ∀ (p : Fin 128) (k : Fin 512), v0 (ix2 p k) = A.x (ix2 (brow t p) k))
    (h2 : ∀ (p : Fin 128) (k : Fin 1024), v2 (ix2 p k) = A.h (ix2 (brow t p) k))
    (h4 : ∀ (k : Fin 512) (q : Fin 5120), v4 (ix2 k q) = A.wii (ix2 k (wide q)))
    (h7 : ∀ (k : Fin 1024) (q : Fin 5120), v7 (ix2 k q) = A.whh (ix2 k (wide q)))
    (h11 : ∀ q : Fin 5120, v11 (ix2 (0 : Fin 1) q) = A.bih (ix1 (wide q)) + A.bhh (ix1 (wide q)))
    (p : Fin 128) (q : Fin 5120) : k0_pay1 v0 v2 v4 v7 v11 (ix2 p q) = wbK A (brow t p) q := by
  rw [k0_pay1_apply]
  simp only [h0, h2, h4, h7, h11]
  rfl

section Second

variable (W : Mat 4096 5120) (t : Fin 32) (v0 : Vec Ideal S128x5120 .f32) (v7 v8 v9 : Vec Ideal S128x1024 .f32)
  (v13 : Vec Ideal S1024x3072 .bf16) (v15 v17 : Vec Ideal S1024x4096 .bf16)
  (h0 : ∀ (p : Fin 128) (q : Fin 5120), v0 (ix2 p q) = W (ix2 (brow t p) q))
  (h7 : ∀ (p : Fin 128) (k : Fin 1024), v7 (ix2 p k) = A.c (ix2 (brow t p) k))
  (h8 : ∀ (p : Fin 128) (k : Fin 1024), v8 (ix2 p k) = A.e (ix2 (brow t p) k))
  (h9 : ∀ (p : Fin 128) (k : Fin 1024), v9 (ix2 p k) = A.r (ix2 (brow t p) k))
  (h13 : ∀ i, v13 i = A.wcc i) (h15 : ∀ i, v15 i = A.wee i) (h17 : ∀ i, v17 i = A.wrr i)

include h0 h7 h8 h9 h13 h15 h17 in
/-- The stored c' of block t is cK on the block's rows. -/
theorem cnew_block (p : Fin 128) (j : Fin 1024) :
    k1_pay1 (k1_pay6 v0) v7 (k1_pay22 v0 v7 v8 v9 v13 v15 v17) (k1_pay23 v0 v7 v8 v13 v15) (k1_pay24 v9 v17) (ix2 p j)
      = cK A W (brow t p) j := by
  obtain rfl : v13 = A.wcc := funext h13
  obtain rfl : v15 = A.wee := funext h15
  obtain rfl : v17 = A.wrr := funext h17
  rw [cnew_apply]
  simp only [h0, h7, h8, h9]
  rfl

include h0 h8 h15 in
/-- The stored e' of block t is eK on the block's rows. -/
theorem enew_block (p : Fin 128) (j : Fin 1024) :
    k1_pay2 (k1_pay7 v0) (k1_pay9 v8) (k1_pay15 v15) (ix2 p j) = eK A W (brow t p) j := by
  obtain rfl : v15 = A.wee := funext h15
  rw [enew_apply]
  simp only [h0, h8]
  rfl

include h0 h9 h17 in
/-- The stored r' of block t is rK on the block's rows. -/
theorem rnew_block (p : Fin 128) (j : Fin 1024) :
    k1_pay3 (k1_pay7 v0) (k1_pay10 v9) (k1_pay17 v17) (ix2 p j) = rK A W (brow t p) j := by
  obtain rfl : v17 = A.wrr := funext h17
  rw [rnew_apply]
  simp only [h0, h9]
  rfl

include h0 h7 h8 h9 h13 h15 h17 in
/-- The stored h' of block t is hK on the block's rows. -/
theorem hnew_block (p : Fin 128) (j : Fin 1024) :
    k1_pay4 (k1_pay6 v0) (k1_pay7 v0) (k1_pay8 v0) v7 (k1_pay9 v8) (k1_pay10 v9) (k1_pay14 v13) (k1_pay15 v15) (k1_pay16 v15)
        (k1_pay17 v17) (k1_pay18 v17) (k1_pay22 v0 v7 v8 v9 v13 v15 v17) (k1_pay23 v0 v7 v8 v13 v15) (k1_pay24 v9 v17) (ix2 p j)
      = hK A W (brow t p) j := by
  obtain rfl : v13 = A.wcc := funext h13
  obtain rfl : v15 = A.wee := funext h15
  obtain rfl : v17 = A.wrr := funext h17
  rw [hnew_apply]
  simp only [h0, h7, h8, h9]
  rfl

end Second

end Cert.KernelIdeal.Payload

end
-- ==== Proof.KernelValue1.lean ====
/-
  Region 1 (the gates kernel) in closed form: after the region each of its four output arrays is the whole-array
  formula of the kernel's arrangement — c', e', r', h' of the stored projection and of c, e, r and the three converted
  weight matrices as the region finds them — entry by entry.

  Grid point t reads rows 128·t … 128·t + 127 of the projection and of c, e, r, and the weight matrices whole (block
  (0, 0) at every point); what it writes back to an output is the stored payload of those blocks, which is the row
  formula on the block's row p, that is the whole-array formula at row 128·t + p; and the 32 blocks of an output tile it
  (row i lies in the block of point i / 128, which writes back).
-/
import proofs.«129931_j44435731645052_2_alg».proof.Proof.FrameR1
import proofs.«129931_j44435731645052_2_alg».proof.Proof.KernelBlocks
import Idealize.ShloMosaic.Lib.Pipeline.Value
import Idealize.ShloMosaic.Lib.ValueIdx

noncomputable section

namespace Cert.KernelIdeal.Val1

open Cert.KernelIdeal Cert.KernelIdeal.Gen Cert.KernelIdeal.Hand Cert.KernelIdeal.Payload Cert.KernelMath
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The cell's inputs as region 1 finds them on core c: the five batch arrays, the two projection weights and the bias
    rows at the arguments, the three recurrent weights at their converted copies (the arrays the region reads). -/
def A1 (c : Dev nD) : Cert.Spec.Args where
  x := V c main_arg0
  h := V c main_arg1
  c := V c main_arg2
  e := V c main_arg3
  r := V c main_arg4
  wii := V c main_arg5
  whh := V c main_arg6
  wcc := V c main_v2
  wee := V c main_v3
  wrr := V c main_v4
  bih := V c main_arg10
  bhh := V c main_arg11

theorem hz : (![0, 0] : Fin 2 → Nat) = fun _ => 0 := funext fun a => by fin_cases a <;> rfl

/-- The printed index maps, decided over the grid: the row-blocked windows are at block (t, 0), the weights at (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0
    ∧ win1_8.index t (0 : Fin 2) = t.val ∧ win1_8.index t (1 : Fin 2) = 0
    ∧ win1_9.index t (0 : Fin 2) = t.val ∧ win1_9.index t (1 : Fin 2) = 0
    ∧ win1_10.index t (0 : Fin 2) = t.val ∧ win1_10.index t (1 : Fin 2) = 0 :=
  (by decide +kernel : ∀ t : Fin grid1.N, _)

/-! ## The input blocks at point t, read off their arrays -/

theorem blk0 (c : Dev nD) (t : Fin cfg1.N) (p : Fin 128) (q : Fin 5120) :
    iblk1 V c 0 t (ix2 p q) = (V c main_v7 : Cert.Spec.Mat 4096 5120) (ix2 (brow (t.cast N_1) p) q) := by
  obtain ⟨e00, e01, e10, e11, e20, e21, e30, e31, -⟩ := idx_facts t
  show V c main_v7 (((cfg1.win 0).blk t).view.emb (ix2 p q)) = _
  refine congrArg (V c main_v7) (funext fun a => Fin.ext ?_)
  match a with
  | ⟨0, _⟩ => show win1_0.index t (0 : Fin 2) * 128 + 1 * p.val = 128 * t.val + p.val; omega
  | ⟨1, _⟩ => show win1_0.index t (1 : Fin 2) * 5120 + 1 * q.val = q.val; omega

theorem blk1 (c : Dev nD) (t : Fin cfg1.N) (p : Fin 128) (q : Fin 1024) :
    iblk1 V c 1 t (ix2 p q) = (V c main_arg2 : Cert.Spec.Mat 4096 1024) (ix2 (brow (t.cast N_1) p) q) := by
  obtain ⟨e00, e01, e10, e11, e20, e21, e30, e31, -⟩ := idx_facts t
  show V c main_arg2 (((cfg1.win 1).blk t).view.emb (ix2 p q)) = _
  refine congrArg (V c main_arg2) (funext fun a => Fin.ext ?_)
  match a with
  | ⟨0, _⟩ => show win1_1.index t (0 : Fin 2) * 128 + 1 * p.val = 128 * t.val + p.val; omega
  | ⟨1, _⟩ => show win1_1.index t (1 : Fin 2) * 1024 + 1 * q.val = q.val; omega

theorem blk2 (c : Dev nD) (t : Fin cfg1.N) (p : Fin 128) (q : Fin 1024) :
    iblk1 V c 2 t (ix2 p q) = (V c main_arg3 : Cert.Spec.Mat 4096 1024) (ix2 (brow (t.cast N_1) p) q) := by
  obtain ⟨e00, e01, e10, e11, e20, e21, e30, e31, -⟩ := idx_facts t
  show V c main_arg3 (((cfg1.win 2).blk t).view.emb (ix2 p q)) = _
  refine congrArg (V c main_arg3) (funext fun a => Fin.ext ?_)
  match a with
  | ⟨0, _⟩ => show win1_2.index t (0 : Fin 2) * 128 + 1 * p.val = 128 * t.val + p.val; omega
  | ⟨1, _⟩ => show win1_2.index t (1 : Fin 2) * 1024 + 1 * q.val = q.val; omega

theorem blk3 (c : Dev nD) (t : Fin cfg1.N) (p : Fin 128) (q : Fin 1024) :
    iblk1 V c 3 t (ix2 p q) = (V c main_arg4 : Cert.Spec.Mat 4096 1024) (ix2 (brow (t.cast N_1) p) q) := by
  obtain ⟨e00, e01, e10, e11, e20, e21, e30, e31, -⟩ := idx_facts t
  show V c main_arg4 (((cfg1.win 3).blk t).view.emb (ix2 p q)) = _
  refine congrArg (V c main_arg4) (funext fun a => Fin.ext ?_)
  match a with
  | ⟨0, _⟩ => show win1_3.index t (0 : Fin 2) * 128 + 1 * p.val = 128 * t.val + p.val; omega
  | ⟨1, _⟩ => show win1_3.index t (1 : Fin 2) * 1024 + 1 * q.val = q.val; omega

theorem blk4 (c : Dev nD) (t : Fin cfg1.N) (i : S1024x3072.Idx) : iblk1 V c 4 t i = V c main_v2 i := by
  obtain ⟨-, -, -, -, -, -, -, -, e40, e41, e50, e51, e60, e61, -⟩ := idx_facts t
  show V c main_v2 (((cfg1.win 4).blk t).view.emb i) = _
  refine congrArg (V c main_v2) (funext fun a => Fin.ext ?_)
  match a with
  | ⟨0, _⟩ => show win1_4.index t (0 : Fin 2) * 1024 + 1 * (i 0).val = (i 0).val; omega
  | ⟨1, _⟩ => show win1_4.index t (1 : Fin 2) * 3072 + 1 * (i 1).val = (i 1).val; omega

theorem blk5 (c : Dev nD) (t : Fin cfg1.N) (i : S1024x4096.Idx) : iblk1 V c 5 t i = V c main_v3 i := by
  obtain ⟨-, -, -, -, -, -, -, -, e40, e41, e50, e51, e60, e61, -⟩ := idx_facts t
  show V c main_v3 (((cfg1.win 5).blk t).view.emb i) = _
  refine congrArg (V c main_v3) (funext fun a => Fin.ext ?_)
  match a with
  | ⟨0, _⟩ => show win1_5.index t (0 : Fin 2) * 1024 + 1 * (i 0).val = (i 0).val; omega
  | ⟨1, _⟩ => show win1_5.index t (1 : Fin 2) * 4096 + 1 * (i 1).val = (i 1).val; omega

theorem blk6 (c : Dev nD) (t : Fin cfg1.N) (i : S1024x4096.Idx) : iblk1 V c 6 t i = V c main_v4 i := by
  obtain ⟨-, -, -, -, -, -, -, -, e40, e41, e50, e51, e60, e61, -⟩ := idx_facts t
  show V c main_v4 (((cfg1.win 6).blk t).view.emb i) = _
  refine congrArg (V c main_v4) (funext fun a => Fin.ext ?_)
  match a with
  | ⟨0, _⟩ => show win1_6.index t (0 : Fin 2) * 1024 + 1 * (i 0).val = (i 0).val; omega
  | ⟨1, _⟩ => show win1_6.index t (1 : Fin 2) * 4096 + 1 * (i 1).val = (i 1).val; omega

/-! ## Output window 7: c' -/

/-- What point t writes back to window 7's array is block t of the whole-array c'. -/
theorem flushed1_7_eq (c : Dev nD) (t : Fin cfg1.N) :
    (dat1 (F := Ideal) V c).flushed 7 t
      = ((cfg1.win 7).blk t).view.read (Elt Ideal) (fun i : S4096x1024.Idx => cK (A1 V c) (V c main_v7) (i 0) (i 1)) := by
  show (cfg1.win 7).cut (grid1.coords t) ((dat1 (F := Ideal) V c).after 7 t) = _
  rw [after1_7]
  unfold out1_7
  rw [View.canon_unit_zero hz]
  simp only [View.ld_unit_zero (S := S128x5120) hz, View.ld_unit_zero (S := S128x1024) hz,
    View.ld_unit_zero (S := S1024x3072) hz, View.ld_unit_zero (S := S1024x4096) hz]
  obtain ⟨-, -, -, -, -, -, -, -, -, -, -, -, -, -, e70, e71, e80, e81, e90, e91, e100, e101⟩ := idx_facts t
  funext j
  obtain ⟨p, q, rfl⟩ : ∃ (p : Fin 128) (q : Fin 1024), j = ix2 p q := ⟨j 0, j 1, eq_ix2 j⟩
  have hrow : ((cfg1.win 7).blk t).view.emb (ix2 p q) 0 = brow (t.cast N_1) p :=
    Fin.ext (show win1_7.index t (0 : Fin 2) * 128 + 1 * p.val = 128 * t.val + p.val by omega)
  have hcol : ((cfg1.win 7).blk t).view.emb (ix2 p q) 1 = q :=
    Fin.ext (show win1_7.index t (1 : Fin 2) * 1024 + 1 * q.val = q.val by omega)
  refine (cnew_block (A1 V c) (V c main_v7) (t.cast N_1) (iblk1 V c 0 t) (iblk1 V c 1 t) (iblk1 V c 2 t) (iblk1 V c 3 t) (iblk1 V c 4 t) (iblk1 V c 5 t) (iblk1 V c 6 t)
    (blk0 V c t) (blk1 V c t) (blk2 V c t) (blk3 V c t) (blk4 V c t) (blk5 V c t) (blk6 V c t) p q).trans ?_
  show _ = cK (A1 V c) (V c main_v7) (((cfg1.win 7).blk t).view.emb (ix2 p q) 0) (((cfg1.win 7).blk t).view.emb (ix2 p q) 1)
  rw [hrow, hcol]

/-- An index of the array is in point t's block iff each coordinate is in the block's range on its axis. -/
theorem mem_blk7 (t : Fin cfg1.N) (i : S4096x1024.Idx) :
    i ∈ ((cfg1.win 7).blk t).view.set ↔ ∀ a : Fin 2, win1_7.index t a * S128x1024.size a ≤ (i a).val
      ∧ (i a).val < win1_7.index t a * S128x1024.size a + S128x1024.size a := by
  show i ∈ ((View.whole main_v8_0).slice (win1_7.rect t)).set ↔ _
  rw [View.set_slice_whole, Rect.mem_set_unit]
  exact Iff.rfl

/-- Every index of the array is in the block of the point of its row's 128-row band, and that point writes back. -/
theorem cover7 (i : S4096x1024.Idx) :
    ∃ t : Fin cfg1.N, (cfg1.win 7).flush t = true ∧ i ∈ ((cfg1.win 7).blk t).view.set := by
  have hi0 : (i 0).val < 4096 := (i 0).isLt
  have hi1 : (i 1).val < 1024 := (i 1).isLt
  have hlt : (i 0).val / 128 < grid1.N := by rw [N_1]; omega
  obtain ⟨-, -, -, -, -, -, -, -, -, -, -, -, -, -, e70, e71, e80, e81, e90, e91, e100, e101⟩ := idx_facts ⟨(i 0).val / 128, hlt⟩
  refine ⟨⟨(i 0).val / 128, hlt⟩, flush1_7 _, ?_⟩
  rw [mem_blk7]
  intro a
  match a with
  | ⟨0, _⟩ =>
    show win1_7.index ⟨(i 0).val / 128, hlt⟩ (0 : Fin 2) * 128 ≤ (i 0).val
      ∧ (i 0).val < win1_7.index ⟨(i 0).val / 128, hlt⟩ (0 : Fin 2) * 128 + 128
    have hv : (⟨(i 0).val / 128, hlt⟩ : Fin cfg1.N).val = (i 0).val / 128 := rfl
    omega
  | ⟨1, _⟩ =>
    show win1_7.index ⟨(i 0).val / 128, hlt⟩ (1 : Fin 2) * 1024 ≤ (i 1).val
      ∧ (i 1).val < win1_7.index ⟨(i 0).val / 128, hlt⟩ (1 : Fin 2) * 1024 + 1024
    omega

/-- The array after the region is the whole-array c' of the kernel's arrangement. -/
theorem final1_7 (c : Dev nD) :
    (dat1 (F := Ideal) V c).arrAt 7 cfg1.N = fun i : S4096x1024.Idx => cK (A1 V c) (V c main_v7) (i 0) (i 1) :=
  (dat1 (F := Ideal) V c).arrAt_eq_of_cover 7 _ (fun t _ => flushed1_7_eq V c t) cover7

/-! ## Output window 8: e' -/

/-- What point t writes back to window 8's array is block t of the whole-array e'. -/
theorem flushed1_8_eq (c : Dev nD) (t : Fin cfg1.N) :
    (dat1 (F := Ideal) V c).flushed 8 t
      = ((cfg1.win 8).blk t).view.read (Elt Ideal) (fun i : S4096x1024.Idx => eK (A1 V c) (V c main_v7) (i 0) (i 1)) := by
  show (cfg1.win 8).cut (grid1.coords t) ((dat1 (F := Ideal) V c).after 8 t) = _
  rw [after1_8]
  unfold out1_8
  rw [View.canon_unit_zero hz]
  simp only [View.ld_unit_zero (S := S128x5120) hz, View.ld_unit_zero (S := S128x1024) hz,
    View.ld_unit_zero (S := S1024x3072) hz, View.ld_unit_zero (S := S1024x4096) hz]
  obtain ⟨-, -, -, -, -, -, -, -, -, -, -, -, -, -, e70, e71, e80, e81, e90, e91, e100, e101⟩ := idx_facts t
  funext j
  obtain ⟨p, q, rfl⟩ : ∃ (p : Fin 128) (q : Fin 1024), j = ix2 p q := ⟨j 0, j 1, eq_ix2 j⟩
  have hrow : ((cfg1.win 8).blk t).view.emb (ix2 p q) 0 = brow (t.cast N_1) p :=
    Fin.ext (show win1_8.index t (0 : Fin 2) * 128 + 1 * p.val = 128 * t.val + p.val by omega)
  have hcol : ((cfg1.win 8).blk t).view.emb (ix2 p q) 1 = q :=
    Fin.ext (show win1_8.index t (1 : Fin 2) * 1024 + 1 * q.val = q.val by omega)
  refine (enew_block (A1 V c) (V c main_v7) (t.cast N_1) (iblk1 V c 0 t) (iblk1 V c 2 t) (iblk1 V c 5 t)
    (blk0 V c t) (blk2 V c t) (blk5 V c t) p q).trans ?_
  show _ = eK (A1 V c) (V c main_v7) (((cfg1.win 8).blk t).view.emb (ix2 p q) 0) (((cfg1.win 8).blk t).view.emb (ix2 p q) 1)
  rw [hrow, hcol]

/-- An index of the array is in point t's block iff each coordinate is in the block's range on its axis. -/
theorem mem_blk8 (t : Fin cfg1.N) (i : S4096x1024.Idx) :
    i ∈ ((cfg1.win 8).blk t).view.set ↔ ∀ a : Fin 2, win1_8.index t a * S128x1024.size a ≤ (i a).val
      ∧ (i a).val < win1_8.index t a * S128x1024.size a + S128x1024.size a := by
  show i ∈ ((View.whole main_v8_1).slice (win1_8.rect t)).set ↔ _
  rw [View.set_slice_whole, Rect.mem_set_unit]
  exact Iff.rfl

/-- Every index of the array is in the block of the point of its row's 128-row band, and that point writes back. -/
theorem cover8 (i : S4096x1024.Idx) :
    ∃ t : Fin cfg1.N, (cfg1.win 8).flush t = true ∧ i ∈ ((cfg1.win 8).blk t).view.set := by
  have hi0 : (i 0).val < 4096 := (i 0).isLt
  have hi1 : (i 1).val < 1024 := (i 1).isLt
  have hlt : (i 0).val / 128 < grid1.N := by rw [N_1]; omega
  obtain ⟨-, -, -, -, -, -, -, -, -, -, -, -, -, -, e70, e71, e80, e81, e90, e91, e100, e101⟩ := idx_facts ⟨(i 0).val / 128, hlt⟩
  refine ⟨⟨(i 0).val / 128, hlt⟩, flush1_8 _, ?_⟩
  rw [mem_blk8]
  intro a
  match a with
  | ⟨0, _⟩ =>
    show win1_8.index ⟨(i 0).val / 128, hlt⟩ (0 : Fin 2) * 128 ≤ (i 0).val
      ∧ (i 0).val < win1_8.index ⟨(i 0).val / 128, hlt⟩ (0 : Fin 2) * 128 + 128
    have hv : (⟨(i 0).val / 128, hlt⟩ : Fin cfg1.N).val = (i 0).val / 128 := rfl
    omega
  | ⟨1, _⟩ =>
    show win1_8.index ⟨(i 0).val / 128, hlt⟩ (1 : Fin 2) * 1024 ≤ (i 1).val
      ∧ (i 1).val < win1_8.index ⟨(i 0).val / 128, hlt⟩ (1 : Fin 2) * 1024 + 1024
    omega

/-- The array after the region is the whole-array e' of the kernel's arrangement. -/
theorem final1_8 (c : Dev nD) :
    (dat1 (F := Ideal) V c).arrAt 8 cfg1.N = fun i : S4096x1024.Idx => eK (A1 V c) (V c main_v7) (i 0) (i 1) :=
  (dat1 (F := Ideal) V c).arrAt_eq_of_cover 8 _ (fun t _ => flushed1_8_eq V c t) cover8

/-! ## Output window 9: r' -/

/-- What point t writes back to window 9's array is block t of the whole-array r'. -/
theorem flushed1_9_eq (c : Dev nD) (t : Fin cfg1.N) :
    (dat1 (F := Ideal) V c).flushed 9 t
      = ((cfg1.win 9).blk t).view.read (Elt Ideal) (fun i : S4096x1024.Idx => rK (A1 V c) (V c main_v7) (i 0) (i 1)) := by
  show (cfg1.win 9).cut (grid1.coords t) ((dat1 (F := Ideal) V c).after 9 t) = _
  rw [after1_9]
  unfold out1_9
  rw [View.canon_unit_zero hz]
  simp only [View.ld_unit_zero (S := S128x5120) hz, View.ld_unit_zero (S := S128x1024) hz,
    View.ld_unit_zero (S := S1024x3072) hz, View.ld_unit_zero (S := S1024x4096) hz]
  obtain ⟨-, -, -, -, -, -, -, -, -, -, -, -, -, -, e70, e71, e80, e81, e90, e91, e100, e101⟩ := idx_facts t
  funext j
  obtain ⟨p, q, rfl⟩ : ∃ (p : Fin 128) (q : Fin 1024), j = ix2 p q := ⟨j 0, j 1, eq_ix2 j⟩
  have hrow : ((cfg1.win 9).blk t).view.emb (ix2 p q) 0 = brow (t.cast N_1) p :=
    Fin.ext (show win1_9.index t (0 : Fin 2) * 128 + 1 * p.val = 128 * t.val + p.val by omega)
  have hcol : ((cfg1.win 9).blk t).view.emb (ix2 p q) 1 = q :=
    Fin.ext (show win1_9.index t (1 : Fin 2) * 1024 + 1 * q.val = q.val by omega)
  refine (rnew_block (A1 V c) (V c main_v7) (t.cast N_1) (iblk1 V c 0 t) (iblk1 V c 3 t) (iblk1 V c 6 t)
    (blk0 V c t) (blk3 V c t) (blk6 V c t) p q).trans ?_
  show _ = rK (A1 V c) (V c main_v7) (((cfg1.win 9).blk t).view.emb (ix2 p q) 0) (((cfg1.win 9).blk t).view.emb (ix2 p q) 1)
  rw [hrow, hcol]

/-- An index of the array is in point t's block iff each coordinate is in the block's range on its axis. -/
theorem mem_blk9 (t : Fin cfg1.N) (i : S4096x1024.Idx) :
    i ∈ ((cfg1.win 9).blk t).view.set ↔ ∀ a : Fin 2, win1_9.index t a * S128x1024.size a ≤ (i a).val
      ∧ (i a).val < win1_9.index t a * S128x1024.size a + S128x1024.size a := by
  show i ∈ ((View.whole main_v8_2).slice (win1_9.rect t)).set ↔ _
  rw [View.set_slice_whole, Rect.mem_set_unit]
  exact Iff.rfl

/-- Every index of the array is in the block of the point of its row's 128-row band, and that point writes back. -/
theorem cover9 (i : S4096x1024.Idx) :
    ∃ t : Fin cfg1.N, (cfg1.win 9).flush t = true ∧ i ∈ ((cfg1.win 9).blk t).view.set := by
  have hi0 : (i 0).val < 4096 := (i 0).isLt
  have hi1 : (i 1).val < 1024 := (i 1).isLt
  have hlt : (i 0).val / 128 < grid1.N := by rw [N_1]; omega
  obtain ⟨-, -, -, -, -, -, -, -, -, -, -, -, -, -, e70, e71, e80, e81, e90, e91, e100, e101⟩ := idx_facts ⟨(i 0).val / 128, hlt⟩
  refine ⟨⟨(i 0).val / 128, hlt⟩, flush1_9 _, ?_⟩
  rw [mem_blk9]
  intro a
  match a with
  | ⟨0, _⟩ =>
    show win1_9.index ⟨(i 0).val / 128, hlt⟩ (0 : Fin 2) * 128 ≤ (i 0).val
      ∧ (i 0).val < win1_9.index ⟨(i 0).val / 128, hlt⟩ (0 : Fin 2) * 128 + 128
    have hv : (⟨(i 0).val / 128, hlt⟩ : Fin cfg1.N).val = (i 0).val / 128 := rfl
    omega
  | ⟨1, _⟩ =>
    show win1_9.index ⟨(i 0).val / 128, hlt⟩ (1 : Fin 2) * 1024 ≤ (i 1).val
      ∧ (i 1).val < win1_9.index ⟨(i 0).val / 128, hlt⟩ (1 : Fin 2) * 1024 + 1024
    omega

/-- The array after the region is the whole-array r' of the kernel's arrangement. -/
theorem final1_9 (c : Dev nD) :
    (dat1 (F := Ideal) V c).arrAt 9 cfg1.N = fun i : S4096x1024.Idx => rK (A1 V c) (V c main_v7) (i 0) (i 1) :=
  (dat1 (F := Ideal) V c).arrAt_eq_of_cover 9 _ (fun t _ => flushed1_9_eq V c t) cover9

/-! ## Output window 10: h' -/

/-- What point t writes back to window 10's array is block t of the whole-array h'. -/
theorem flushed1_10_eq (c : Dev nD) (t : Fin cfg1.N) :
    (dat1 (F := Ideal) V c).flushed 10 t
      = ((cfg1.win 10).blk t).view.read (Elt Ideal) (fun i : S4096x1024.Idx => hK (A1 V c) (V c main_v7) (i 0) (i 1)) := by
  show (cfg1.win 10).cut (grid1.coords t) ((dat1 (F := Ideal) V c).after 10 t) = _
  rw [after1_10]
  unfold out1_10
  rw [View.canon_unit_zero hz]
  simp only [View.ld_unit_zero (S := S128x5120) hz, View.ld_unit_zero (S := S128x1024) hz,
    View.ld_unit_zero (S := S1024x3072) hz, View.ld_unit_zero (S := S1024x4096) hz]
  obtain ⟨-, -, -, -, -, -, -, -, -, -, -, -, -, -, e70, e71, e80, e81, e90, e91, e100, e101⟩ := idx_facts t
  funext j
  obtain ⟨p, q, rfl⟩ : ∃ (p : Fin 128) (q : Fin 1024), j = ix2 p q := ⟨j 0, j 1, eq_ix2 j⟩
  have hrow : ((cfg1.win 10).blk t).view.emb (ix2 p q) 0 = brow (t.cast N_1) p :=
    Fin.ext (show win1_10.index t (0 : Fin 2) * 128 + 1 * p.val = 128 * t.val + p.val by omega)
  have hcol : ((cfg1.win 10).blk t).view.emb (ix2 p q) 1 = q :=
    Fin.ext (show win1_10.index t (1 : Fin 2) * 1024 + 1 * q.val = q.val by omega)
  refine (hnew_block (A1 V c) (V c main_v7) (t.cast N_1) (iblk1 V c 0 t) (iblk1 V c 1 t) (iblk1 V c 2 t) (iblk1 V c 3 t) (iblk1 V c 4 t) (iblk1 V c 5 t) (iblk1 V c 6 t)
    (blk0 V c t) (blk1 V c t) (blk2 V c t) (blk3 V c t) (blk4 V c t) (blk5 V c t) (blk6 V c t) p q).trans ?_
  show _ = hK (A1 V c) (V c main_v7) (((cfg1.win 10).blk t).view.emb (ix2 p q) 0) (((cfg1.win 10).blk t).view.emb (ix2 p q) 1)
  rw [hrow, hcol]

/-- An index of the array is in point t's block iff each coordinate is in the block's range on its axis. -/
theorem mem_blk10 (t : Fin cfg1.N) (i : S4096x1024.Idx) :
    i ∈ ((cfg1.win 10).blk t).view.set ↔ ∀ a : Fin 2, win1_10.index t a * S128x1024.size a ≤ (i a).val
      ∧ (i a).val < win1_10.index t a * S128x1024.size a + S128x1024.size a := by
  show i ∈ ((View.whole main_v8_3).slice (win1_10.rect t)).set ↔ _
  rw [View.set_slice_whole, Rect.mem_set_unit]
  exact Iff.rfl

/-- Every index of the array is in the block of the point of its row's 128-row band, and that point writes back. -/
theorem cover10 (i : S4096x1024.Idx) :
    ∃ t : Fin cfg1.N, (cfg1.win 10).flush t = true ∧ i ∈ ((cfg1.win 10).blk t).view.set := by
  have hi0 : (i 0).val < 4096 := (i 0).isLt
  have hi1 : (i 1).val < 1024 := (i 1).isLt
  have hlt : (i 0).val / 128 < grid1.N := by rw [N_1]; omega
  obtain ⟨-, -, -, -, -, -, -, -, -, -, -, -, -, -, e70, e71, e80, e81, e90, e91, e100, e101⟩ := idx_facts ⟨(i 0).val / 128, hlt⟩
  refine ⟨⟨(i 0).val / 128, hlt⟩, flush1_10 _, ?_⟩
  rw [mem_blk10]
  intro a
  match a with
  | ⟨0, _⟩ =>
    show win1_10.index ⟨(i 0).val / 128, hlt⟩ (0 : Fin 2) * 128 ≤ (i 0).val
      ∧ (i 0).val < win1_10.index ⟨(i 0).val / 128, hlt⟩ (0 : Fin 2) * 128 + 128
    have hv : (⟨(i 0).val / 128, hlt⟩ : Fin cfg1.N).val = (i 0).val / 128 := rfl
    omega
  | ⟨1, _⟩ =>
    show win1_10.index ⟨(i 0).val / 128, hlt⟩ (1 : Fin 2) * 1024 ≤ (i 1).val
      ∧ (i 1).val < win1_10.index ⟨(i 0).val / 128, hlt⟩ (1 : Fin 2) * 1024 + 1024
    omega

/-- The array after the region is the whole-array h' of the kernel's arrangement. -/
theorem final1_10 (c : Dev nD) :
    (dat1 (F := Ideal) V c).arrAt 10 cfg1.N = fun i : S4096x1024.Idx => hK (A1 V c) (V c main_v7) (i 0) (i 1) :=
  (dat1 (F := Ideal) V c).arrAt_eq_of_cover 10 _ (fun t _ => flushed1_10_eq V c t) cover10

end Cert.KernelIdeal.Val1

end
-- ==== Proof.HostValues.lean ====
/-
  What the host stretch before the first region leaves, over the extended reals. It converts the five weight matrices
  to a narrower float format, which over the extended reals changes nothing, adds the two bias rows, and recasts the
  sum [6144] as a one-row matrix [1, 6144].
-/
import proofs.«129931_j44435731645052_2_alg».proof.Proof.FrameRun
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.HostVal

open Cert.KernelIdeal Cert.KernelIdeal.Gen Cert.KernelIdeal.Hand
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-- The converted w_ii is w_ii. -/
theorem Wb_v0 (c : Dev nD) :
    (Wb (F := Ideal) m ρ c (Proc.devRef .tc main_v0) : S512x6144.Idx → EReal) = m ((c : Thread nD τ).loc main_arg5) := by
  show StableHlo.after hostOps0 _ (Proc.devRef .tc main_v0) = _
  after_results
  rfl

/-- The converted w_hh is w_hh. -/
theorem Wb_v1 (c : Dev nD) :
    (Wb (F := Ideal) m ρ c (Proc.devRef .tc main_v1) : S1024x6144.Idx → EReal) = m ((c : Thread nD τ).loc main_arg6) := by
  show StableHlo.after hostOps0 _ (Proc.devRef .tc main_v1) = _
  after_results
  rfl

/-- The converted w_cc is w_cc. -/
theorem Wb_v2 (c : Dev nD) :
    (Wb (F := Ideal) m ρ c (Proc.devRef .tc main_v2) : S1024x3072.Idx → EReal) = m ((c : Thread nD τ).loc main_arg7) := by
  show StableHlo.after hostOps0 _ (Proc.devRef .tc main_v2) = _
  after_results
  rfl

/-- The converted w_ee is w_ee. -/
theorem Wb_v3 (c : Dev nD) :
    (Wb (F := Ideal) m ρ c (Proc.devRef .tc main_v3) : S1024x4096.Idx → EReal) = m ((c : Thread nD τ).loc main_arg8) := by
  show StableHlo.after hostOps0 _ (Proc.devRef .tc main_v3) = _
  after_results
  rfl

/-- The converted w_rr is w_rr. -/
theorem Wb_v4 (c : Dev nD) :
    (Wb (F := Ideal) m ρ c (Proc.devRef .tc main_v4) : S1024x4096.Idx → EReal) = m ((c : Thread nD τ).loc main_arg9) := by
  show StableHlo.after hostOps0 _ (Proc.devRef .tc main_v4) = _
  after_results
  rfl

/-- The one-row bias matrix at column q is b_ih q + b_hh q. -/
theorem Wb_v6 (c : Dev nD) (q : Fin 6144) :
    (Wb (F := Ideal) m ρ c (Proc.devRef .tc main_v6) : S1x6144.Idx → EReal) (ix2 0 q)
      = @HAdd.hAdd EReal EReal EReal instHAdd (m ((c : Thread nD τ).loc main_arg10) (ix1 q)) (m ((c : Thread nD τ).loc main_arg11) (ix1 q)) := by
  have e : (Wb (F := Ideal) m ρ c (Proc.devRef .tc main_v6) : S1x6144.Idx → EReal)
      = shapeCast S1x6144 (addf (F := Ideal) (s := S6144) (φ := .f32) (m ((c : Thread nD τ).loc main_arg10)) (m ((c : Thread nD τ).loc main_arg11))) shapeCasts_S6144_S1x6144 := by
    show StableHlo.after hostOps0 _ (Proc.devRef .tc main_v6) = _
    after_results
    rfl
  rw [e]
  exact shapeCast_a_1a_apply _ _ 0 q

end Cert.KernelIdeal.HostVal

end
-- ==== Proof.LibRealEntries.lean ====
/-
  Real numbers inside the extended reals, for kernels whose inputs are finite: three facts a proof needs once it knows
  that the entries it meets are real numbers.

  * a finite sum of real numbers, each read as an extended real, is the real sum read as an extended real
    (`coe_sum`);
  * the quotient the ideal instance gives two real numbers, the divisor positive, is their real quotient
    (`div_pos_coe`); in particular it is again a real number, and positive when the dividend is;
  * a real number minus itself is zero (`sub_self_of_real`) — on the extended reals `x - x` is zero only for real `x`
    (`⊤ - ⊤ = ⊥`), which is what makes a split such as `x = hi + (x - hi)` collapse.
-/
import Idealize.ShloMosaic.PureOps.Ideal

noncomputable section

namespace Cert.LibRealEntries

open Idealize.ShloMosaic

/-- A sum of reals, over any finite index set, is the real sum. -/
theorem coe_sum {ι : Type*} (s : Finset ι) (f : ι → ℝ) : (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

/-- A real divided by a positive real, at the ideal values, is their real quotient. -/
theorem div_pos_coe {a b : ℝ} (hb : 0 < b) : Ideal.div (a : EReal) (b : EReal) = ((a / b : ℝ) : EReal) := by
  rw [Ideal.div_coe hb.ne', ← EReal.coe_mul]; congr 1; ring

/-- A real minus itself is zero on the extended reals. -/
theorem sub_self_of_real {x : EReal} (hx : ∃ r : ℝ, x = (r : EReal)) : x - x = 0 := by
  obtain ⟨r, rfl⟩ := hx
  rw [← EReal.coe_sub, sub_self, EReal.coe_zero]

end Cert.LibRealEntries

end
-- ==== Proof.KernelMath.lean ====
/-
  The kernel's arrangement computes the specified cell.

  The two arrangements differ in two places. The projection adds the bias rows in the other order (commutativity of
  addition). The output gate multiplies e' once against the sum of two weight blocks where the specification adds two
  products: on the extended reals x·(a + b) = x·a + x·b is not a law (take x = -1, a = ⊤, b = ⊥), so this step uses
  that the inputs are real numbers: then every entry of the projection is a real number, softsign of a real number z is
  the real number z / (1 + |z|) (the divisor is positive), so e' is real, and the products distribute inside ℝ; the sum
  of the sums and the reassociation of the additions hold on the extended reals as they stand.
-/
import proofs.«129931_j44435731645052_2_alg».proof.Proof.KernelRows
import proofs.«129931_j44435731645052_2_alg».proof.Proof.LibRealEntries

noncomputable section

open scoped BigOperators

namespace Cert.KernelMath

open Idealize.ShloMosaic Idealize.ShloMosaic.ValueIdx Cert.Spec

/-! ## Real entries -/

/-- An extended real that is a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sum {ι : Type*} (s : Finset ι) {f : ι → EReal} (hf : ∀ k, IsReal (f k)) : IsReal (∑ k ∈ s, f k) := by
  choose g hg using hf
  exact ⟨∑ k ∈ s, g k, by rw [← Cert.LibRealEntries.coe_sum]; exact Finset.sum_congr rfl fun k _ => hg k⟩

/-- softsign of a real number z is the real number z / (1 + |z|). -/
theorem softsign_coe (t : ℝ) : softsign (t : EReal) = ((t / (1 + |t|) : ℝ) : EReal) := by
  unfold softsign
  have h : (1 : EReal) + max (t : EReal) (-(t : EReal)) = ((1 + |t| : ℝ) : EReal) := by
    rw [← EReal.coe_neg, ← EReal.coe_strictMono.monotone.map_max, ← EReal.coe_one, ← EReal.coe_add, abs_eq_max_neg]
  rw [h, Cert.LibRealEntries.div_pos_coe (by positivity)]

theorem IsReal.softsign {x : EReal} (hx : IsReal x) : IsReal (softsign x) := by
  obtain ⟨t, rfl⟩ := hx; exact ⟨_, softsign_coe t⟩

/-- With real factors, a sum of products against a sum of two terms is the sum of the two sums of products. -/
theorem sum_mul_add_split {ι : Type*} (s : Finset ι) (x a b : ι → EReal) (hx : ∀ k, IsReal (x k)) (ha : ∀ k, IsReal (a k))
    (hb : ∀ k, IsReal (b k)) : ∑ k ∈ s, x k * (a k + b k) = ∑ k ∈ s, x k * a k + ∑ k ∈ s, x k * b k := by
  rw [← Finset.sum_add_distrib]
  refine Finset.sum_congr rfl fun k _ => ?_
  obtain ⟨xr, hx⟩ := hx k; obtain ⟨ar, ha⟩ := ha k; obtain ⟨br, hb⟩ := hb k
  rw [hx, ha, hb, ← EReal.coe_add, ← EReal.coe_mul, ← EReal.coe_mul, ← EReal.coe_mul, ← EReal.coe_add, mul_add]

variable (A : Args)

/-! ## The projection -/

/-- The stored projection is the specified one on the first 5120 columns: the bias rows commute. -/
theorem wbK_eq (p : Fin 4096) (q : Fin 5120) : wbK A p q = wb A p (wide q) := by
  unfold wbK wb
  rw [add_comm (A.bih (ix1 (wide q))) (A.bhh (ix1 (wide q)))]

/-- With real inputs every entry of the specified projection is a real number. -/
theorem wb_isReal (hx : ∀ i, ∃ r : ℝ, A.x i = (r : EReal)) (hh : ∀ i, ∃ r : ℝ, A.h i = (r : EReal))
    (hwii : ∀ i, ∃ r : ℝ, A.wii i = (r : EReal)) (hwhh : ∀ i, ∃ r : ℝ, A.whh i = (r : EReal))
    (hbih : ∀ i, ∃ r : ℝ, A.bih i = (r : EReal)) (hbhh : ∀ i, ∃ r : ℝ, A.bhh i = (r : EReal))
    (p : Fin 4096) (q : Fin 6144) : IsReal (wb A p q) := by
  unfold wb
  exact ((IsReal.sum _ fun k => IsReal.mul (hx _) (hwii _)).add (IsReal.sum _ fun k => IsReal.mul (hh _) (hwhh _))).add (IsReal.add (hbhh _) (hbih _))

/-! ## The second kernel against the specification, from any stored projection W that is the specified one -/

variable (W : Mat 4096 5120) (hW : ∀ (p : Fin 4096) (q : Fin 5120), W (ix2 p q) = wb A p (wide q))

include hW

theorem cK_eq (p : Fin 4096) (j : Fin 1024) : cK A W p j = cnew A p j := by
  unfold cK cRow forgetRow inputRow cnew forget input
  simp only [hW]
  rfl

theorem eK_eq (p : Fin 4096) (j : Fin 1024) : eK A W p j = enew A p j := by
  unfold eK eRow enew
  simp only [hW]
  rfl

theorem rK_eq (p : Fin 4096) (j : Fin 1024) : rK A W p j = rnew A p j := by
  unfold rK rRow rnew
  simp only [hW]
  rfl

/-- With real inputs the new e state is a real number. -/
theorem enew_isReal (hx : ∀ i, ∃ r : ℝ, A.x i = (r : EReal)) (hh : ∀ i, ∃ r : ℝ, A.h i = (r : EReal))
    (he : ∀ i, ∃ r : ℝ, A.e i = (r : EReal))
    (hwii : ∀ i, ∃ r : ℝ, A.wii i = (r : EReal)) (hwhh : ∀ i, ∃ r : ℝ, A.whh i = (r : EReal))
    (hwee : ∀ i, ∃ r : ℝ, A.wee i = (r : EReal))
    (hbih : ∀ i, ∃ r : ℝ, A.bih i = (r : EReal)) (hbhh : ∀ i, ∃ r : ℝ, A.bhh i = (r : EReal))
    (p : Fin 4096) (k : Fin 1024) : IsReal (enew A p k) := by
  unfold enew
  exact ((wb_isReal A hx hh hwii hwhh hbih hbhh p _).add (IsReal.sum _ fun k' => IsReal.mul (he _) (hwee _))).softsign

/-- The output gate: the one product against the summed weight blocks is the two products of the specification. -/
theorem outRow_eq (hx : ∀ i, ∃ r : ℝ, A.x i = (r : EReal)) (hh : ∀ i, ∃ r : ℝ, A.h i = (r : EReal))
    (he : ∀ i, ∃ r : ℝ, A.e i = (r : EReal))
    (hwii : ∀ i, ∃ r : ℝ, A.wii i = (r : EReal)) (hwhh : ∀ i, ∃ r : ℝ, A.whh i = (r : EReal))
    (hwcc : ∀ i, ∃ r : ℝ, A.wcc i = (r : EReal)) (hwee : ∀ i, ∃ r : ℝ, A.wee i = (r : EReal))
    (hbih : ∀ i, ∃ r : ℝ, A.bih i = (r : EReal)) (hbhh : ∀ i, ∃ r : ℝ, A.bhh i = (r : EReal))
    (p : Fin 4096) (j : Fin 1024) :
    outRow (fun q => W (ix2 p q)) (fun k => A.e (ix2 p k)) (fun k => A.r (ix2 p k)) A.wcc A.wee A.wrr j = outg A p j := by
  have hE : ∀ k, eRow (fun q => W (ix2 p q)) (fun k => A.e (ix2 p k)) A.wee k = enew A p k := fun k => eK_eq A W hW p k
  have hR : ∀ k, rRow (fun q => W (ix2 p q)) (fun k => A.r (ix2 p k)) A.wrr k = rnew A p k := fun k => rK_eq A W hW p k
  unfold outRow outg
  simp only [hE, hR]
  simp only [hW]
  rw [sum_mul_add_split _ _ _ _ (fun k => enew_isReal A W hW hx hh he hwii hwhh hwee hbih hbhh p k) (fun k => hwcc _)
    (fun k => hwee _), ← add_assoc]
  rfl

theorem hK_eq (hx : ∀ i, ∃ r : ℝ, A.x i = (r : EReal)) (hh : ∀ i, ∃ r : ℝ, A.h i = (r : EReal))
    (he : ∀ i, ∃ r : ℝ, A.e i = (r : EReal))
    (hwii : ∀ i, ∃ r : ℝ, A.wii i = (r : EReal)) (hwhh : ∀ i, ∃ r : ℝ, A.whh i = (r : EReal))
    (hwcc : ∀ i, ∃ r : ℝ, A.wcc i = (r : EReal)) (hwee : ∀ i, ∃ r : ℝ, A.wee i = (r : EReal))
    (hbih : ∀ i, ∃ r : ℝ, A.bih i = (r : EReal)) (hbhh : ∀ i, ∃ r : ℝ, A.bhh i = (r : EReal))
    (p : Fin 4096) (j : Fin 1024) : hK A W p j = hnew A p j := by
  unfold hK hRow hnew
  rw [outRow_eq A W hW hx hh he hwii hwhh hwcc hwee hbih hbhh p j]
  exact congrArg (fun z => outg A p j * softsign z) (cK_eq A W hW p j)

omit hW

/-! ## The stored projection of the first kernel -/

/-- The first kernel's projection as a matrix. -/
def WK : Mat 4096 5120 := fun i => wbK A (i 0) (i 1)

theorem WK_apply (p : Fin 4096) (q : Fin 5120) : WK A (ix2 p q) = wb A p (wide q) := wbK_eq A p q

end Cert.KernelMath

end
-- ==== Proof.Finite.lean ====
/-
  Finiteness of the inputs. The precondition says, of each of the twelve input arrays, that every entry's absolute
  value max x (-x) is below +∞. Over the extended reals that makes every entry a real number: the two infinities have
  absolute value +∞, which is not below +∞.
-/
import proofs.«129931_j44435731645052_2_alg».proof.Pre_finite_inputs
import Idealize.ShloMosaic.PureOps.Ideal
import Idealize.ShloMosaic.Lib.ValueIdx
import Idealize.ShloMosaic.Lib.ReduceAll

noncomputable section

namespace Cert.Finite

open Idealize.ShloMosaic Cert.Pre_finite_inputs

/-- The rank-0 shape has one index. -/
instance : Subsingleton S_.Idx := ⟨fun a b => funext fun d => d.elim0⟩

/-- An extended real whose absolute value max x (-x) is below +∞ is a real number. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- One array: if the conjunction over all entries of "absolute value below +∞" is true, every entry is a real. -/
theorem all_real {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi (cmpf .olt (Host.absf a) (broadcastInDim s ![] hb (constant S_ .f32 0x7F800000#32)))
          (constantI S_ 1 1#1) hr hu ValueIdx.ix0 = 1#1) (i : s.Idx) : ∃ r : ℝ, a i = (r : EReal) :=
  real_of_abs_lt_top (a i) (Host.reduce_andi_all _ _ hr hu _ e i)

/-- The precondition decoded: every entry of each of the twelve inputs is a real number. -/
theorem reals_of_pre [Facts] (a0 : FVec Ideal S4096x512 .f32) (a1 a2 a3 a4 : FVec Ideal S4096x1024 .f32)
    (a5 : FVec Ideal S512x6144 .f32) (a6 : FVec Ideal S1024x6144 .f32) (a7 : FVec Ideal S1024x3072 .f32)
    (a8 a9 : FVec Ideal S1024x4096 .f32) (a10 a11 : FVec Ideal S6144 .f32)
    (h : fn (F := Ideal) a0 a1 a2 a3 a4 a5 a6 a7 a8 a9 a10 a11 = fun _ => 1#1) :
    (∀ i, ∃ r : ℝ, a0 i = (r : EReal)) ∧ (∀ i, ∃ r : ℝ, a1 i = (r : EReal)) ∧ (∀ i, ∃ r : ℝ, a2 i = (r : EReal))
    ∧ (∀ i, ∃ r : ℝ, a3 i = (r : EReal)) ∧ (∀ i, ∃ r : ℝ, a4 i = (r : EReal)) ∧ (∀ i, ∃ r : ℝ, a5 i = (r : EReal))
    ∧ (∀ i, ∃ r : ℝ, a6 i = (r : EReal)) ∧ (∀ i, ∃ r : ℝ, a7 i = (r : EReal)) ∧ (∀ i, ∃ r : ℝ, a8 i = (r : EReal))
    ∧ (∀ i, ∃ r : ℝ, a9 i = (r : EReal)) ∧ (∀ i, ∃ r : ℝ, a10 i = (r : EReal))
    ∧ (∀ i, ∃ r : ℝ, a11 i = (r : EReal)) := by
  have e := congrFun h ValueIdx.ix0
  dsimp only [fn, fn_part1, fn_part2, fn_part3] at e
  obtain ⟨e, h11⟩ := IntOp.andi_eq_one.1 e
  obtain ⟨e, h10⟩ := IntOp.andi_eq_one.1 e
  obtain ⟨e, h9⟩ := IntOp.andi_eq_one.1 e
  obtain ⟨e, h8⟩ := IntOp.andi_eq_one.1 e
  obtain ⟨e, h7⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact ⟨all_real a0 _ _ _ h0, all_real a1 _ _ _ h1, all_real a2 _ _ _ h2, all_real a3 _ _ _ h3, all_real a4 _ _ _ h4,
    all_real a5 _ _ _ h5, all_real a6 _ _ _ h6, all_real a7 _ _ _ h7, all_real a8 _ _ _ h8, all_real a9 _ _ _ h9,
    all_real a10 _ _ _ h10, all_real a11 _ _ _ h11⟩

end Cert.Finite

end
-- ==== Proof.KernelRun.lean ====
/-
  The idealized kernel's run, read: its four result arrays are the specification's c', e', r', h' of the launch contents
  of the arguments, entry by entry, when every input entry is a real number.

  Region 0 leaves in its result array the kernel's arrangement of the projection; region 1 finds it there, together
  with c, e, r as launched and the converted weights (at the ideal instance a conversion is the identity), and leaves
  the kernel's arrangement of the four results, which is the specification's by the algebra of finite real entries.
-/
import proofs.«129931_j44435731645052_2_alg».proof.Defs
import proofs.«129931_j44435731645052_2_alg».proof.Proof.FrameRun
import proofs.«129931_j44435731645052_2_alg».proof.Proof.KernelValue0
import proofs.«129931_j44435731645052_2_alg».proof.Proof.KernelValue1
import proofs.«129931_j44435731645052_2_alg».proof.Proof.HostValues
import proofs.«129931_j44435731645052_2_alg».proof.Proof.KernelMath
import proofs.«129931_j44435731645052_2_alg».proof.Proof.Finite

set_option maxRecDepth 16384

noncomputable section

open scoped BigOperators

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Cert.Spec Cert.KernelMath

variable (m : (ℓ : Loc nD τ sig) → Buf (Elt Ideal) ℓ) (ρ : Dev nD → PrngReg)

/-- The specification's inputs read from the launch memory, on device `c`. -/
def argsK (c : Dev nD) : Cert.Spec.Args :=
  ⟨m ((c.tc : Thread nD τ).loc main_arg0), m ((c.tc : Thread nD τ).loc main_arg1), m ((c.tc : Thread nD τ).loc main_arg2), m ((c.tc : Thread nD τ).loc main_arg3),
   m ((c.tc : Thread nD τ).loc main_arg4), m ((c.tc : Thread nD τ).loc main_arg5), m ((c.tc : Thread nD τ).loc main_arg6), m ((c.tc : Thread nD τ).loc main_arg7),
   m ((c.tc : Thread nD τ).loc main_arg8), m ((c.tc : Thread nD τ).loc main_arg9), m ((c.tc : Thread nD τ).loc main_arg10), m ((c.tc : Thread nD τ).loc main_arg11)⟩

/-! ## No segment writes an argument -/

theorem Wc_main_arg0 (c : Dev nD) : Wc m ρ c (Proc.devRef .tc main_arg0) = m ((c : Thread nD τ).loc main_arg0) :=
  ((Wc_arr m ρ c 0).trans (((dat0 (Vb m ρ) c).arrAt_in 0 rfl _).trans (A_eq0 (Vb m ρ) c 0))).trans ((Wb_of_not_written m ρ c main_arg0 (by decide)).trans rfl)
theorem Wb_main_arg0 (c : Dev nD) : Wb m ρ c (Proc.devRef .tc main_arg0) = m ((c : Thread nD τ).loc main_arg0) :=
  (Wb_of_not_written m ρ c main_arg0 (by decide)).trans rfl
theorem Wc_main_arg1 (c : Dev nD) : Wc m ρ c (Proc.devRef .tc main_arg1) = m ((c : Thread nD τ).loc main_arg1) :=
  ((Wc_arr m ρ c 1).trans (((dat0 (Vb m ρ) c).arrAt_in 1 rfl _).trans (A_eq0 (Vb m ρ) c 1))).trans ((Wb_of_not_written m ρ c main_arg1 (by decide)).trans rfl)
theorem Wb_main_arg1 (c : Dev nD) : Wb m ρ c (Proc.devRef .tc main_arg1) = m ((c : Thread nD τ).loc main_arg1) :=
  (Wb_of_not_written m ρ c main_arg1 (by decide)).trans rfl
theorem Wc_main_arg2 (c : Dev nD) : Wc m ρ c (Proc.devRef .tc main_arg2) = m ((c : Thread nD τ).loc main_arg2) :=
  (Wc_of_ne m ρ c main_arg2 (by decide)).trans ((Wb_of_not_written m ρ c main_arg2 (by decide)).trans rfl)
theorem Wb_main_arg2 (c : Dev nD) : Wb m ρ c (Proc.devRef .tc main_arg2) = m ((c : Thread nD τ).loc main_arg2) :=
  (Wb_of_not_written m ρ c main_arg2 (by decide)).trans rfl
theorem Wc_main_arg3 (c : Dev nD) : Wc m ρ c (Proc.devRef .tc main_arg3) = m ((c : Thread nD τ).loc main_arg3) :=
  (Wc_of_ne m ρ c main_arg3 (by decide)).trans ((Wb_of_not_written m ρ c main_arg3 (by decide)).trans rfl)
theorem Wb_main_arg3 (c : Dev nD) : Wb m ρ c (Proc.devRef .tc main_arg3) = m ((c : Thread nD τ).loc main_arg3) :=
  (Wb_of_not_written m ρ c main_arg3 (by decide)).trans rfl
theorem Wc_main_arg4 (c : Dev nD) : Wc m ρ c (Proc.devRef .tc main_arg4) = m ((c : Thread nD τ).loc main_arg4) :=
  (Wc_of_ne m ρ c main_arg4 (by decide)).trans ((Wb_of_not_written m ρ c main_arg4 (by decide)).trans rfl)
theorem Wb_main_arg4 (c : Dev nD) : Wb m ρ c (Proc.devRef .tc main_arg4) = m ((c : Thread nD τ).loc main_arg4) :=
  (Wb_of_not_written m ρ c main_arg4 (by decide)).trans rfl
theorem Wc_main_arg5 (c : Dev nD) : Wc m ρ c (Proc.devRef .tc main_arg5) = m ((c : Thread nD τ).loc main_arg5) :=
  (Wc_of_ne m ρ c main_arg5 (by decide)).trans ((Wb_of_not_written m ρ c main_arg5 (by decide)).trans rfl)
theorem Wb_main_arg5 (c : Dev nD) : Wb m ρ c (Proc.devRef .tc main_arg5) = m ((c : Thread nD τ).loc main_arg5) :=
  (Wb_of_not_written m ρ c main_arg5 (by decide)).trans rfl
theorem Wc_main_arg6 (c : Dev nD) : Wc m ρ c (Proc.devRef .tc main_arg6) = m ((c : Thread nD τ).loc main_arg6) :=
  (Wc_of_ne m ρ c main_arg6 (by decide)).trans ((Wb_of_not_written m ρ c main_arg6 (by decide)).trans rfl)
theorem Wb_main_arg6 (c : Dev nD) : Wb m ρ c (Proc.devRef .tc main_arg6) = m ((c : Thread nD τ).loc main_arg6) :=
  (Wb_of_not_written m ρ c main_arg6 (by decide)).trans rfl
theorem Wc_main_arg7 (c : Dev nD) : Wc m ρ c (Proc.devRef .tc main_arg7) = m ((c : Thread nD τ).loc main_arg7) :=
  (Wc_of_ne m ρ c main_arg7 (by decide)).trans ((Wb_of_not_written m ρ c main_arg7 (by decide)).trans rfl)
theorem Wb_main_arg7 (c : Dev nD) : Wb m ρ c (Proc.devRef .tc main_arg7) = m ((c : Thread nD τ).loc main_arg7) :=
  (Wb_of_not_written m ρ c main_arg7 (by decide)).trans rfl
theorem Wc_main_arg8 (c : Dev nD) : Wc m ρ c (Proc.devRef .tc main_arg8) = m ((c : Thread nD τ).loc main_arg8) :=
  (Wc_of_ne m ρ c main_arg8 (by decide)).trans ((Wb_of_not_written m ρ c main_arg8 (by decide)).trans rfl)
theorem Wb_main_arg8 (c : Dev nD) : Wb m ρ c (Proc.devRef .tc main_arg8) = m ((c : Thread nD τ).loc main_arg8) :=
  (Wb_of_not_written m ρ c main_arg8 (by decide)).trans rfl
theorem Wc_main_arg9 (c : Dev nD) : Wc m ρ c (Proc.devRef .tc main_arg9) = m ((c : Thread nD τ).loc main_arg9) :=
  (Wc_of_ne m ρ c main_arg9 (by decide)).trans ((Wb_of_not_written m ρ c main_arg9 (by decide)).trans rfl)
theorem Wb_main_arg9 (c : Dev nD) : Wb m ρ c (Proc.devRef .tc main_arg9) = m ((c : Thread nD τ).loc main_arg9) :=
  (Wb_of_not_written m ρ c main_arg9 (by decide)).trans rfl
theorem Wc_main_arg10 (c : Dev nD) : Wc m ρ c (Proc.devRef .tc main_arg10) = m ((c : Thread nD τ).loc main_arg10) :=
  (Wc_of_ne m ρ c main_arg10 (by decide)).trans ((Wb_of_not_written m ρ c main_arg10 (by decide)).trans rfl)
theorem Wb_main_arg10 (c : Dev nD) : Wb m ρ c (Proc.devRef .tc main_arg10) = m ((c : Thread nD τ).loc main_arg10) :=
  (Wb_of_not_written m ρ c main_arg10 (by decide)).trans rfl
theorem Wc_main_arg11 (c : Dev nD) : Wc m ρ c (Proc.devRef .tc main_arg11) = m ((c : Thread nD τ).loc main_arg11) :=
  (Wc_of_ne m ρ c main_arg11 (by decide)).trans ((Wb_of_not_written m ρ c main_arg11 (by decide)).trans rfl)
theorem Wb_main_arg11 (c : Dev nD) : Wb m ρ c (Proc.devRef .tc main_arg11) = m ((c : Thread nD τ).loc main_arg11) :=
  (Wb_of_not_written m ρ c main_arg11 (by decide)).trans rfl

/-! ## What each region finds and leaves -/

/-- Region 1 finds the inputs as launched and the converted weights equal to the weights. -/
theorem A1_eq (c : Dev nD) : Cert.KernelIdeal.Val1.A1 (Vc m ρ) c = argsK m c := by
  unfold Cert.KernelIdeal.Val1.A1 argsK
  have e2 : Vc m ρ c main_v2 = m ((c.tc : Thread nD τ).loc main_arg7) :=
    (Wc_of_ne m ρ c main_v2 (by decide)).trans (Cert.KernelIdeal.HostVal.Wb_v2 m ρ c)
  have e3 : Vc m ρ c main_v3 = m ((c.tc : Thread nD τ).loc main_arg8) :=
    (Wc_of_ne m ρ c main_v3 (by decide)).trans (Cert.KernelIdeal.HostVal.Wb_v3 m ρ c)
  have e4 : Vc m ρ c main_v4 = m ((c.tc : Thread nD τ).loc main_arg9) :=
    (Wc_of_ne m ρ c main_v4 (by decide)).trans (Cert.KernelIdeal.HostVal.Wb_v4 m ρ c)
  rw [show Vc m ρ c main_arg0 = _ from Wc_main_arg0 m ρ c, show Vc m ρ c main_arg1 = _ from Wc_main_arg1 m ρ c,
    show Vc m ρ c main_arg2 = _ from Wc_main_arg2 m ρ c, show Vc m ρ c main_arg3 = _ from Wc_main_arg3 m ρ c,
    show Vc m ρ c main_arg4 = _ from Wc_main_arg4 m ρ c, show Vc m ρ c main_arg5 = _ from Wc_main_arg5 m ρ c,
    show Vc m ρ c main_arg6 = _ from Wc_main_arg6 m ρ c, show Vc m ρ c main_arg10 = _ from Wc_main_arg10 m ρ c,
    show Vc m ρ c main_arg11 = _ from Wc_main_arg11 m ρ c, e2, e3, e4]

/-- Region 1 finds in the projection's array the specification's projection, on its first 5120 columns. -/
theorem proj_eq (c : Dev nD) (p : Fin 4096) (q : Fin 5120) :
    Vc m ρ c main_v7 (ix2 p q) = Cert.Spec.wb (argsK m c) p (wide q) := by
  have h1 : Vc m ρ c main_v7 = Cert.KernelIdeal.Val0.G0 (Vb m ρ) c :=
    (Wc_arr m ρ c 5).trans (Cert.KernelIdeal.Val0.final0 (Vb m ρ) c)
  have ex : Cert.KernelIdeal.Val0.xA (Vb m ρ) c = m ((c.tc : Thread nD τ).loc main_arg0) := Wb_main_arg0 m ρ c
  have eh : Cert.KernelIdeal.Val0.hA (Vb m ρ) c = m ((c.tc : Thread nD τ).loc main_arg1) := Wb_main_arg1 m ρ c
  have ewii : Cert.KernelIdeal.Val0.wiiA (Vb m ρ) c = m ((c.tc : Thread nD τ).loc main_arg5) := Cert.KernelIdeal.HostVal.Wb_v0 m ρ c
  have ewhh : Cert.KernelIdeal.Val0.whhA (Vb m ρ) c = m ((c.tc : Thread nD τ).loc main_arg6) := Cert.KernelIdeal.HostVal.Wb_v1 m ρ c
  have eb : Cert.KernelIdeal.Val0.bA (Vb m ρ) c (ix2 0 (wide q))
      = @HAdd.hAdd EReal EReal EReal instHAdd (m ((c.tc : Thread nD τ).loc main_arg10) (ix1 (wide q))) (m ((c.tc : Thread nD τ).loc main_arg11) (ix1 (wide q))) :=
    Cert.KernelIdeal.HostVal.Wb_v6 m ρ c (wide q)
  rw [h1, ← wbK_eq]
  unfold Cert.KernelIdeal.Val0.G0 wbK argsK
  rw [ex, eh, ewii, ewhh]
  exact congrArg _ eb

/-! ## The run, read -/

/-- Every weakly fair execution of the idealized kernel terminates with its four results the specification's h', c', e',
    r' of the launch contents of the arguments, and the arguments unchanged. -/
theorem kernel_run [Cert.Pre_finite_inputs.Facts] (hpre : Cert.Pre_KernelIdeal m) :
    θ_run (defs (F := Ideal)) (onTc (τ := τ) (main (F := Ideal))) ⟨m, fun _ => 0, ρ⟩ fun r => ∀ c : Dev nD,
      r.2.mem ((c.tc : Thread nD τ).loc main_v8_3) = (fun i => Cert.Spec.hnew (argsK m c) (i 0) (i 1))
      ∧ r.2.mem ((c.tc : Thread nD τ).loc main_v8_0) = (fun i => Cert.Spec.cnew (argsK m c) (i 0) (i 1))
      ∧ r.2.mem ((c.tc : Thread nD τ).loc main_v8_1) = (fun i => Cert.Spec.enew (argsK m c) (i 0) (i 1))
      ∧ r.2.mem ((c.tc : Thread nD τ).loc main_v8_2) = (fun i => Cert.Spec.rnew (argsK m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) := by
  refine (θ_run defs _ _).mono (fun r h c => ?_) (run_all (F := Ideal) m ρ)
  obtain ⟨f0, f1, f2, f3, f4, f5, f6, f7, f8, f9, f10, f11⟩ := Cert.Finite.reals_of_pre _ _ _ _ _ _ _ _ _ _ _ _ (hpre c)
  refine ⟨?_, ?_, ?_, ?_, (h c _ (mem_uc main_arg0 (by decide))).trans (Wd_main_arg0 m ρ c),
    (h c _ (mem_uc main_arg1 (by decide))).trans (Wd_main_arg1 m ρ c),
    (h c _ (mem_uc main_arg2 (by decide))).trans (Wd_main_arg2 m ρ c),
    (h c _ (mem_uc main_arg3 (by decide))).trans (Wd_main_arg3 m ρ c),
    (h c _ (mem_uc main_arg4 (by decide))).trans (Wd_main_arg4 m ρ c),
    (h c _ (mem_uc main_arg5 (by decide))).trans (Wd_main_arg5 m ρ c),
    (h c _ (mem_uc main_arg6 (by decide))).trans (Wd_main_arg6 m ρ c),
    (h c _ (mem_uc main_arg7 (by decide))).trans (Wd_main_arg7 m ρ c),
    (h c _ (mem_uc main_arg8 (by decide))).trans (Wd_main_arg8 m ρ c),
    (h c _ (mem_uc main_arg9 (by decide))).trans (Wd_main_arg9 m ρ c),
    (h c _ (mem_uc main_arg10 (by decide))).trans (Wd_main_arg10 m ρ c),
    (h c _ (mem_uc main_arg11 (by decide))).trans (Wd_main_arg11 m ρ c)⟩
  · refine (h c _ (mem_uc main_v8_3 (by decide))).trans (((Wd_arr m ρ c 10).trans (Cert.KernelIdeal.Val1.final1_10 (Vc m ρ) c)).trans ?_)
    funext i
    rw [A1_eq m ρ c]
    exact hK_eq (argsK m c) _ (proj_eq m ρ c) f0 f1 f3 f5 f6 f7 f8 f10 f11 (i 0) (i 1)
  · refine (h c _ (mem_uc main_v8_0 (by decide))).trans (((Wd_arr m ρ c 7).trans (Cert.KernelIdeal.Val1.final1_7 (Vc m ρ) c)).trans ?_)
    funext i
    rw [A1_eq m ρ c]
    exact cK_eq (argsK m c) _ (proj_eq m ρ c) (i 0) (i 1)
  · refine (h c _ (mem_uc main_v8_1 (by decide))).trans (((Wd_arr m ρ c 8).trans (Cert.KernelIdeal.Val1.final1_8 (Vc m ρ) c)).trans ?_)
    funext i
    rw [A1_eq m ρ c]
    exact eK_eq (argsK m c) _ (proj_eq m ρ c) (i 0) (i 1)
  · refine (h c _ (mem_uc main_v8_2 (by decide))).trans (((Wd_arr m ρ c 9).trans (Cert.KernelIdeal.Val1.final1_9 (Vc m ρ) c)).trans ?_)
    funext i
    rw [A1_eq m ρ c]
    exact rK_eq (argsK m c) _ (proj_eq m ρ c) (i 0) (i 1)

end Cert.KernelIdeal.Val

end
-- ==== Proof.RefValue.lean ====
/-
  The reference's four results, read index by index, are the specification's h', c', e', r'.

  The reference computes wb = (x·w_ii + h·w_hh) + (b_hh + b_ih) over all 6144 columns, cuts it and the weight matrices
  into blocks of 1024 columns, and spells  σ z  as  1 / (1 + e^(-z))  and  softsign z  as  z / (1 + |z|)  with the
  constant one.  Reading each array operation at an index (p, j): a slice at column offset `off` reads its operand at
  column `off + j`, a matrix product is the sum over the contracted coordinate, and the pointwise operations act on
  the entries.  That is the specification, entry by entry.
-/
import proofs.«129931_j44435731645052_2_alg».proof.Defs
import proofs.«129931_j44435731645052_2_alg».proof.Proof.Gen.ReferenceIdeal.Read
import proofs.«129931_j44435731645052_2_alg».proof.Proof.Spec
import Idealize.ShloMosaic.Lib.ValueIdx
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx
open scoped BigOperators

/-! ## The two scalar functions as the reference spells them -/

/-- 1 / (1 + e^(-z)) with the constant one is the logistic function. -/
theorem sigmoid_eq (z : EReal) :
    FloatOps.hostDivf (F := Ideal) (φ := .f32) (FloatOps.ofBits .f32 0x3F800000#32)
      (FloatOps.addf (FloatOps.ofBits .f32 0x3F800000#32) (FloatOps.hostUnary .exp (FloatOps.hostNegf z)))
      = Ideal.logistic z := by
  show Ideal.div (Ideal.ofBits .f32 0x3F800000#32) (Ideal.ofBits .f32 0x3F800000#32 + Ideal.exp (-z)) = Ideal.div 1 (1 + Ideal.exp (-z))
  rw [Ideal.ofBits_one_f32]

/-- z / (1 + |z|) with the constant one is softsign. -/
theorem softsign_eq (z : EReal) :
    FloatOps.hostDivf (F := Ideal) (φ := .f32) z (FloatOps.addf (FloatOps.ofBits .f32 0x3F800000#32) (FloatOps.hostAbsf z))
      = Cert.Spec.softsign z := by
  show Ideal.div z (Ideal.ofBits .f32 0x3F800000#32 + max z (-z)) = Ideal.div z (1 + max z (-z))
  rw [Ideal.ofBits_one_f32]

/-! ## The inputs -/

variable (x0 : (⟨S4096x512, .f32⟩ : BufTy).Contents (Elt Ideal)) (x1 x2 x3 x4 : (⟨S4096x1024, .f32⟩ : BufTy).Contents (Elt Ideal))
  (x5 : (⟨S512x6144, .f32⟩ : BufTy).Contents (Elt Ideal)) (x6 : (⟨S1024x6144, .f32⟩ : BufTy).Contents (Elt Ideal))
  (x7 : (⟨S1024x3072, .f32⟩ : BufTy).Contents (Elt Ideal)) (x8 x9 : (⟨S1024x4096, .f32⟩ : BufTy).Contents (Elt Ideal))
  (x10 x11 : (⟨S6144, .f32⟩ : BufTy).Contents (Elt Ideal))

/-- The specification's inputs, from the twelve argument arrays in the program's order:
    x, h, c, e, r, w_ii, w_hh, w_cc, w_ee, w_rr, b_ih, b_hh. -/
def args : Cert.Spec.Args := ⟨x0, x1, x2, x3, x4, x5, x6, x7, x8, x9, x10, x11⟩

/-! ## The fused projection -/

/-- The reference's projection with the combined bias, at row p and column q, is the specification's wb. -/
theorem wb_eq (p : Fin 4096) (q : Fin 6144) :
    val_main_v6 (F := Ideal) x0 x1 x5 x6 x10 x11 (ix2 p q) = Cert.Spec.wb (args x0 x1 x2 x3 x4 x5 x6 x7 x8 x9 x10 x11) p q := by
  rw [val_main_v6_apply, val_main_v2_apply, val_main_v0_apply, val_main_v1_apply, val_main_v5_apply, val_main_v4_apply,
    val_main_v3_apply]
  have l0 : ∀ k, lidx_main_v0 (ix2 p q) k = ix2 p k := fun k => funext fun a => by
    match a with | ⟨0, _⟩ => rfl | ⟨1, _⟩ => rfl
  have r0 : ∀ k, ridx_main_v0 (ix2 p q) k = ix2 k q := fun k => funext fun a => by
    match a with | ⟨0, _⟩ => rfl | ⟨1, _⟩ => rfl
  have l1 : ∀ k, lidx_main_v1 (ix2 p q) k = ix2 p k := fun k => funext fun a => by
    match a with | ⟨0, _⟩ => rfl | ⟨1, _⟩ => rfl
  have r1 : ∀ k, ridx_main_v1 (ix2 p q) k = ix2 k q := fun k => funext fun a => by
    match a with | ⟨0, _⟩ => rfl | ⟨1, _⟩ => rfl
  have b : idx_main_v4 (idx_main_v5 (ix2 p q)) = ix1 q := funext fun a => by
    match a with | ⟨0, _⟩ => rfl
  simp only [l0, r0, l1, r1, b]
  rfl

/-! ## The six column blocks of wb (the sixth is never read) -/

/-- Block 0 of wb: the slice at column offset 0 reads wb at column 0 + j. -/
theorem wb0_eq (p : Fin 4096) (j : Fin 1024) :
    val_main_v7 (F := Ideal) x0 x1 x5 x6 x10 x11 (ix2 p j) = Cert.Spec.wb (args x0 x1 x2 x3 x4 x5 x6 x7 x8 x9 x10 x11) p (Cert.Spec.col 0 j) := by
  rw [val_main_v7_apply]
  have e : idx_main_v7 (ix2 p j) = ix2 p (Cert.Spec.col 0 j) := funext fun a => by
    match a with
    | ⟨0, _⟩ => rfl
    | ⟨1, _⟩ => exact Fin.ext (Nat.zero_add _).symm
  rw [e, wb_eq]

/-- Block 1 of wb: the slice at column offset 1024 reads wb at column 1024 + j. -/
theorem wb1_eq (p : Fin 4096) (j : Fin 1024) :
    val_main_v8 (F := Ideal) x0 x1 x5 x6 x10 x11 (ix2 p j) = Cert.Spec.wb (args x0 x1 x2 x3 x4 x5 x6 x7 x8 x9 x10 x11) p (Cert.Spec.col 1024 j) := by
  rw [val_main_v8_apply]
  have e : idx_main_v8 (ix2 p j) = ix2 p (Cert.Spec.col 1024 j) := funext fun a => by
    match a with
    | ⟨0, _⟩ => rfl
    | ⟨1, _⟩ => rfl
  rw [e, wb_eq]

/-- Block 2 of wb: the slice at column offset 2048 reads wb at column 2048 + j. -/
theorem wb2_eq (p : Fin 4096) (j : Fin 1024) :
    val_main_v9 (F := Ideal) x0 x1 x5 x6 x10 x11 (ix2 p j) = Cert.Spec.wb (args x0 x1 x2 x3 x4 x5 x6 x7 x8 x9 x10 x11) p (Cert.Spec.col 2048 j) := by
  rw [val_main_v9_apply]
  have e : idx_main_v9 (ix2 p j) = ix2 p (Cert.Spec.col 2048 j) := funext fun a => by
    match a with
    | ⟨0, _⟩ => rfl
    | ⟨1, _⟩ => rfl
  rw [e, wb_eq]

/-- Block 3 of wb: the slice at column offset 3072 reads wb at column 3072 + j. -/
theorem wb3_eq (p : Fin 4096) (j : Fin 1024) :
    val_main_v10 (F := Ideal) x0 x1 x5 x6 x10 x11 (ix2 p j) = Cert.Spec.wb (args x0 x1 x2 x3 x4 x5 x6 x7 x8 x9 x10 x11) p (Cert.Spec.col 3072 j) := by
  rw [val_main_v10_apply]
  have e : idx_main_v10 (ix2 p j) = ix2 p (Cert.Spec.col 3072 j) := funext fun a => by
    match a with
    | ⟨0, _⟩ => rfl
    | ⟨1, _⟩ => rfl
  rw [e, wb_eq]

/-- Block 4 of wb: the slice at column offset 4096 reads wb at column 4096 + j. -/
theorem wb4_eq (p : Fin 4096) (j : Fin 1024) :
    val_main_v11 (F := Ideal) x0 x1 x5 x6 x10 x11 (ix2 p j) = Cert.Spec.wb (args x0 x1 x2 x3 x4 x5 x6 x7 x8 x9 x10 x11) p (Cert.Spec.col 4096 j) := by
  rw [val_main_v11_apply]
  have e : idx_main_v11 (ix2 p j) = ix2 p (Cert.Spec.col 4096 j) := funext fun a => by
    match a with
    | ⟨0, _⟩ => rfl
    | ⟨1, _⟩ => rfl
  rw [e, wb_eq]

/-! ## The products with a column block of a weight matrix -/

/-- c · w_cc₀: the sum over the contracted coordinate, the weight read at column 0 + j. -/
theorem dot_c0 (p : Fin 4096) (j : Fin 1024) :
    val_main_v24 (F := Ideal) x2 x7 (ix2 p j) = ∑ k : Fin 1024, x2 (ix2 p k) * x7 (ix2 k (Cert.Spec.col 0 j)) := by
  rw [val_main_v24_apply]
  refine Finset.sum_congr rfl fun k _ => ?_
  rw [val_main_v13_apply]
  have l : lidx_main_v24 (ix2 p j) k = ix2 p k := funext fun a => by
    match a with
    | ⟨0, _⟩ => rfl
    | ⟨1, _⟩ => rfl
  have r : idx_main_v13 (ridx_main_v24 (ix2 p j) k) = ix2 k (Cert.Spec.col 0 j) := funext fun a => by
    match a with
    | ⟨0, _⟩ => rfl
    | ⟨1, _⟩ => exact Fin.ext (Nat.zero_add _).symm
  rw [l, r]

/-- e · w_ee₀: the sum over the contracted coordinate, the weight read at column 0 + j. -/
theorem dot_e0 (p : Fin 4096) (j : Fin 1024) :
    val_main_v26 (F := Ideal) x3 x8 (ix2 p j) = ∑ k : Fin 1024, x3 (ix2 p k) * x8 (ix2 k (Cert.Spec.col 0 j)) := by
  rw [val_main_v26_apply]
  refine Finset.sum_congr rfl fun k _ => ?_
  rw [val_main_v16_apply]
  have l : lidx_main_v26 (ix2 p j) k = ix2 p k := funext fun a => by
    match a with
    | ⟨0, _⟩ => rfl
    | ⟨1, _⟩ => rfl
  have r : idx_main_v16 (ridx_main_v26 (ix2 p j) k) = ix2 k (Cert.Spec.col 0 j) := funext fun a => by
    match a with
    | ⟨0, _⟩ => rfl
    | ⟨1, _⟩ => exact Fin.ext (Nat.zero_add _).symm
  rw [l, r]

/-- r · w_rr₀: the sum over the contracted coordinate, the weight read at column 0 + j. -/
theorem dot_r0 (p : Fin 4096) (j : Fin 1024) :
    val_main_v28 (F := Ideal) x4 x9 (ix2 p j) = ∑ k : Fin 1024, x4 (ix2 p k) * x9 (ix2 k (Cert.Spec.col 0 j)) := by
  rw [val_main_v28_apply]
  refine Finset.sum_congr rfl fun k _ => ?_
  rw [val_main_v20_apply]
  have l : lidx_main_v28 (ix2 p j) k = ix2 p k := funext fun a => by
    match a with
    | ⟨0, _⟩ => rfl
    | ⟨1, _⟩ => rfl
  have r : idx_main_v20 (ridx_main_v28 (ix2 p j) k) = ix2 k (Cert.Spec.col 0 j) := funext fun a => by
    match a with
    | ⟨0, _⟩ => rfl
    | ⟨1, _⟩ => exact Fin.ext (Nat.zero_add _).symm
  rw [l, r]

/-- c · w_cc₁: the sum over the contracted coordinate, the weight read at column 1024 + j. -/
theorem dot_c1 (p : Fin 4096) (j : Fin 1024) :
    val_main_v36 (F := Ideal) x2 x7 (ix2 p j) = ∑ k : Fin 1024, x2 (ix2 p k) * x7 (ix2 k (Cert.Spec.col 1024 j)) := by
  rw [val_main_v36_apply]
  refine Finset.sum_congr rfl fun k _ => ?_
  rw [val_main_v14_apply]
  have l : lidx_main_v36 (ix2 p j) k = ix2 p k := funext fun a => by
    match a with
    | ⟨0, _⟩ => rfl
    | ⟨1, _⟩ => rfl
  have r : idx_main_v14 (ridx_main_v36 (ix2 p j) k) = ix2 k (Cert.Spec.col 1024 j) := funext fun a => by
    match a with
    | ⟨0, _⟩ => rfl
    | ⟨1, _⟩ => rfl
  rw [l, r]

/-- e · w_ee₁: the sum over the contracted coordinate, the weight read at column 1024 + j. -/
theorem dot_e1 (p : Fin 4096) (j : Fin 1024) :
    val_main_v38 (F := Ideal) x3 x8 (ix2 p j) = ∑ k : Fin 1024, x3 (ix2 p k) * x8 (ix2 k (Cert.Spec.col 1024 j)) := by
  rw [val_main_v38_apply]
  refine Finset.sum_congr rfl fun k _ => ?_
  rw [val_main_v17_apply]
  have l : lidx_main_v38 (ix2 p j) k = ix2 p k := funext fun a => by
    match a with
    | ⟨0, _⟩ => rfl
    | ⟨1, _⟩ => rfl
  have r : idx_main_v17 (ridx_main_v38 (ix2 p j) k) = ix2 k (Cert.Spec.col 1024 j) := funext fun a => by
    match a with
    | ⟨0, _⟩ => rfl
    | ⟨1, _⟩ => rfl
  rw [l, r]

/-- r · w_rr₁: the sum over the contracted coordinate, the weight read at column 1024 + j. -/
theorem dot_r1 (p : Fin 4096) (j : Fin 1024) :
    val_main_v40 (F := Ideal) x4 x9 (ix2 p j) = ∑ k : Fin 1024, x4 (ix2 p k) * x9 (ix2 k (Cert.Spec.col 1024 j)) := by
  rw [val_main_v40_apply]
  refine Finset.sum_congr rfl fun k _ => ?_
  rw [val_main_v21_apply]
  have l : lidx_main_v40 (ix2 p j) k = ix2 p k := funext fun a => by
    match a with
    | ⟨0, _⟩ => rfl
    | ⟨1, _⟩ => rfl
  have r : idx_main_v21 (ridx_main_v40 (ix2 p j) k) = ix2 k (Cert.Spec.col 1024 j) := funext fun a => by
    match a with
    | ⟨0, _⟩ => rfl
    | ⟨1, _⟩ => rfl
  rw [l, r]

/-- e · w_ee₂: the sum over the contracted coordinate, the weight read at column 2048 + j. -/
theorem dot_e2 (p : Fin 4096) (j : Fin 1024) :
    val_main_v55 (F := Ideal) x3 x8 (ix2 p j) = ∑ k : Fin 1024, x3 (ix2 p k) * x8 (ix2 k (Cert.Spec.col 2048 j)) := by
  rw [val_main_v55_apply]
  refine Finset.sum_congr rfl fun k _ => ?_
  rw [val_main_v18_apply]
  have l : lidx_main_v55 (ix2 p j) k = ix2 p k := funext fun a => by
    match a with
    | ⟨0, _⟩ => rfl
    | ⟨1, _⟩ => rfl
  have r : idx_main_v18 (ridx_main_v55 (ix2 p j) k) = ix2 k (Cert.Spec.col 2048 j) := funext fun a => by
    match a with
    | ⟨0, _⟩ => rfl
    | ⟨1, _⟩ => rfl
  rw [l, r]

/-- r · w_rr₂: the sum over the contracted coordinate, the weight read at column 2048 + j. -/
theorem dot_r2 (p : Fin 4096) (j : Fin 1024) :
    val_main_v61 (F := Ideal) x4 x9 (ix2 p j) = ∑ k : Fin 1024, x4 (ix2 p k) * x9 (ix2 k (Cert.Spec.col 2048 j)) := by
  rw [val_main_v61_apply]
  refine Finset.sum_congr rfl fun k _ => ?_
  rw [val_main_v22_apply]
  have l : lidx_main_v61 (ix2 p j) k = ix2 p k := funext fun a => by
    match a with
    | ⟨0, _⟩ => rfl
    | ⟨1, _⟩ => rfl
  have r : idx_main_v22 (ridx_main_v61 (ix2 p j) k) = ix2 k (Cert.Spec.col 2048 j) := funext fun a => by
    match a with
    | ⟨0, _⟩ => rfl
    | ⟨1, _⟩ => rfl
  rw [l, r]

/-! ## The gates and the new states -/

/-- The forget gate. -/
theorem forget_eq (p : Fin 4096) (j : Fin 1024) :
    val_main_v35 (F := Ideal) x0 x1 x2 x3 x4 x5 x6 x7 x8 x9 x10 x11 (ix2 p j) = Cert.Spec.forget (args x0 x1 x2 x3 x4 x5 x6 x7 x8 x9 x10 x11) p j := by
  rw [val_main_v35_apply, val_main_v34_apply, val_main_cst_0_apply, val_main_v33_apply, val_main_v32_apply,
    val_main_cst_apply, val_main_v31_apply, val_main_v30_apply, sigmoid_eq, val_main_v29_apply, val_main_v27_apply,
    val_main_v25_apply, wb0_eq, dot_c0, dot_e0, dot_r0]
  rfl

/-- The input gate. -/
theorem input_eq (p : Fin 4096) (j : Fin 1024) :
    val_main_v47 (F := Ideal) x0 x1 x2 x3 x4 x5 x6 x7 x8 x9 x10 x11 (ix2 p j) = Cert.Spec.input (args x0 x1 x2 x3 x4 x5 x6 x7 x8 x9 x10 x11) p j := by
  rw [val_main_v47_apply, val_main_v46_apply, val_main_cst_2_apply, val_main_v45_apply, val_main_v44_apply,
    val_main_cst_1_apply, val_main_v43_apply, val_main_v42_apply, sigmoid_eq, val_main_v41_apply, val_main_v39_apply,
    val_main_v37_apply, wb1_eq, dot_c1, dot_e1, dot_r1]
  rfl

/-- The new cell state c'. -/
theorem cnew_eq (p : Fin 4096) (j : Fin 1024) :
    val_main_v54 (F := Ideal) x0 x1 x2 x3 x4 x5 x6 x7 x8 x9 x10 x11 (ix2 p j) = Cert.Spec.cnew (args x0 x1 x2 x3 x4 x5 x6 x7 x8 x9 x10 x11) p j := by
  rw [val_main_v54_apply, val_main_v48_apply, forget_eq, val_main_v53_apply, input_eq, val_main_v52_apply,
    val_main_v51_apply, val_main_v50_apply, val_main_cst_3_apply, val_main_v49_apply, softsign_eq, wb2_eq]
  rfl

/-- The new state e'. -/
theorem enew_eq (p : Fin 4096) (j : Fin 1024) :
    val_main_v60 (F := Ideal) x0 x1 x3 x5 x6 x8 x10 x11 (ix2 p j) = Cert.Spec.enew (args x0 x1 x2 x3 x4 x5 x6 x7 x8 x9 x10 x11) p j := by
  rw [val_main_v60_apply, val_main_v59_apply, val_main_v58_apply, val_main_cst_4_apply, val_main_v57_apply, softsign_eq,
    val_main_v56_apply, wb3_eq, dot_e2]
  rfl

/-- The new state r'. -/
theorem rnew_eq (p : Fin 4096) (j : Fin 1024) :
    val_main_v66 (F := Ideal) x0 x1 x4 x5 x6 x9 x10 x11 (ix2 p j) = Cert.Spec.rnew (args x0 x1 x2 x3 x4 x5 x6 x7 x8 x9 x10 x11) p j := by
  rw [val_main_v66_apply, val_main_v65_apply, val_main_v64_apply, val_main_cst_5_apply, val_main_v63_apply, softsign_eq,
    val_main_v62_apply, wb3_eq, dot_r2]
  rfl

/-! ## The output gate and h' -/

/-- e' · w_cc₂. -/
theorem dot_ec2 (p : Fin 4096) (j : Fin 1024) :
    val_main_v67 (F := Ideal) x0 x1 x3 x5 x6 x7 x8 x10 x11 (ix2 p j)
      = ∑ k : Fin 1024, Cert.Spec.enew (args x0 x1 x2 x3 x4 x5 x6 x7 x8 x9 x10 x11) p k * x7 (ix2 k (Cert.Spec.col 2048 j)) := by
  rw [val_main_v67_apply]
  refine Finset.sum_congr rfl fun k _ => ?_
  rw [val_main_v15_apply]
  have l : lidx_main_v67 (ix2 p j) k = ix2 p k := funext fun a => by
    match a with
    | ⟨0, _⟩ => rfl
    | ⟨1, _⟩ => rfl
  have r : idx_main_v15 (ridx_main_v67 (ix2 p j) k) = ix2 k (Cert.Spec.col 2048 j) := funext fun a => by
    match a with
    | ⟨0, _⟩ => rfl
    | ⟨1, _⟩ => rfl
  rw [l, r, enew_eq x0 x1 x2 x3 x4 x5 x6 x7 x8 x9 x10 x11]

/-- e' · w_ee₃. -/
theorem dot_ee3 (p : Fin 4096) (j : Fin 1024) :
    val_main_v69 (F := Ideal) x0 x1 x3 x5 x6 x8 x10 x11 (ix2 p j)
      = ∑ k : Fin 1024, Cert.Spec.enew (args x0 x1 x2 x3 x4 x5 x6 x7 x8 x9 x10 x11) p k * x8 (ix2 k (Cert.Spec.col 3072 j)) := by
  rw [val_main_v69_apply]
  refine Finset.sum_congr rfl fun k _ => ?_
  rw [val_main_v19_apply]
  have l : lidx_main_v69 (ix2 p j) k = ix2 p k := funext fun a => by
    match a with
    | ⟨0, _⟩ => rfl
    | ⟨1, _⟩ => rfl
  have r : idx_main_v19 (ridx_main_v69 (ix2 p j) k) = ix2 k (Cert.Spec.col 3072 j) := funext fun a => by
    match a with
    | ⟨0, _⟩ => rfl
    | ⟨1, _⟩ => rfl
  rw [l, r, enew_eq x0 x1 x2 x3 x4 x5 x6 x7 x8 x9 x10 x11]

/-- r' · w_rr₃. -/
theorem dot_rr3 (p : Fin 4096) (j : Fin 1024) :
    val_main_v71 (F := Ideal) x0 x1 x4 x5 x6 x9 x10 x11 (ix2 p j)
      = ∑ k : Fin 1024, Cert.Spec.rnew (args x0 x1 x2 x3 x4 x5 x6 x7 x8 x9 x10 x11) p k * x9 (ix2 k (Cert.Spec.col 3072 j)) := by
  rw [val_main_v71_apply]
  refine Finset.sum_congr rfl fun k _ => ?_
  rw [val_main_v23_apply]
  have l : lidx_main_v71 (ix2 p j) k = ix2 p k := funext fun a => by
    match a with
    | ⟨0, _⟩ => rfl
    | ⟨1, _⟩ => rfl
  have r : idx_main_v23 (ridx_main_v71 (ix2 p j) k) = ix2 k (Cert.Spec.col 3072 j) := funext fun a => by
    match a with
    | ⟨0, _⟩ => rfl
    | ⟨1, _⟩ => rfl
  rw [l, r, rnew_eq x0 x1 x2 x3 x4 x5 x6 x7 x8 x9 x10 x11]

/-- The output gate. -/
theorem outg_eq (p : Fin 4096) (j : Fin 1024) :
    val_main_v78 (F := Ideal) x0 x1 x3 x4 x5 x6 x7 x8 x9 x10 x11 (ix2 p j) = Cert.Spec.outg (args x0 x1 x2 x3 x4 x5 x6 x7 x8 x9 x10 x11) p j := by
  rw [val_main_v78_apply, val_main_v77_apply, val_main_cst_7_apply, val_main_v76_apply, val_main_v75_apply,
    val_main_cst_6_apply, val_main_v74_apply, val_main_v73_apply, sigmoid_eq, val_main_v72_apply, val_main_v70_apply,
    val_main_v68_apply, wb4_eq, dot_ec2 x0 x1 x2 x3 x4 x5 x6 x7 x8 x9 x10 x11, dot_ee3 x0 x1 x2 x3 x4 x5 x6 x7 x8 x9 x10 x11, dot_rr3 x0 x1 x2 x3 x4 x5 x6 x7 x8 x9 x10 x11]
  rfl

/-- The new hidden state h'. -/
theorem hnew_eq (p : Fin 4096) (j : Fin 1024) :
    val_main_v83 (F := Ideal) x0 x1 x2 x3 x4 x5 x6 x7 x8 x9 x10 x11 (ix2 p j) = Cert.Spec.hnew (args x0 x1 x2 x3 x4 x5 x6 x7 x8 x9 x10 x11) p j := by
  rw [val_main_v83_apply, outg_eq x0 x1 x2 x3 x4 x5 x6 x7 x8 x9 x10 x11, val_main_v82_apply, val_main_v81_apply, val_main_v80_apply, val_main_cst_8_apply,
    val_main_v79_apply, softsign_eq, cnew_eq]
  rfl

/-! ## The four results as whole arrays, and the run -/

/-- h' as an array. -/
theorem hnew_fun : val_main_v83 (F := Ideal) x0 x1 x2 x3 x4 x5 x6 x7 x8 x9 x10 x11 = fun i => Cert.Spec.hnew (args x0 x1 x2 x3 x4 x5 x6 x7 x8 x9 x10 x11) (i 0) (i 1) := by
  funext i
  obtain ⟨p, j, rfl⟩ : ∃ (p : Fin 4096) (j : Fin 1024), i = ix2 p j := ⟨i 0, i 1, eq_ix2 i⟩
  exact hnew_eq x0 x1 x2 x3 x4 x5 x6 x7 x8 x9 x10 x11 p j

/-- c' as an array. -/
theorem cnew_fun : val_main_v54 (F := Ideal) x0 x1 x2 x3 x4 x5 x6 x7 x8 x9 x10 x11 = fun i => Cert.Spec.cnew (args x0 x1 x2 x3 x4 x5 x6 x7 x8 x9 x10 x11) (i 0) (i 1) := by
  funext i
  obtain ⟨p, j, rfl⟩ : ∃ (p : Fin 4096) (j : Fin 1024), i = ix2 p j := ⟨i 0, i 1, eq_ix2 i⟩
  exact cnew_eq x0 x1 x2 x3 x4 x5 x6 x7 x8 x9 x10 x11 p j

/-- e' as an array. -/
theorem enew_fun : val_main_v60 (F := Ideal) x0 x1 x3 x5 x6 x8 x10 x11 = fun i => Cert.Spec.enew (args x0 x1 x2 x3 x4 x5 x6 x7 x8 x9 x10 x11) (i 0) (i 1) := by
  funext i
  obtain ⟨p, j, rfl⟩ : ∃ (p : Fin 4096) (j : Fin 1024), i = ix2 p j := ⟨i 0, i 1, eq_ix2 i⟩
  exact enew_eq x0 x1 x2 x3 x4 x5 x6 x7 x8 x9 x10 x11 p j

/-- r' as an array. -/
theorem rnew_fun : val_main_v66 (F := Ideal) x0 x1 x4 x5 x6 x9 x10 x11 = fun i => Cert.Spec.rnew (args x0 x1 x2 x3 x4 x5 x6 x7 x8 x9 x10 x11) (i 0) (i 1) := by
  funext i
  obtain ⟨p, j, rfl⟩ : ∃ (p : Fin 4096) (j : Fin 1024), i = ix2 p j := ⟨i 0, i 1, eq_ix2 i⟩
  exact rnew_eq x0 x1 x2 x3 x4 x5 x6 x7 x8 x9 x10 x11 p j

/-- The specification's inputs read from a memory, on device c. -/
def argsOf (m : (ℓ : Loc nD τ sig) → Buf (Elt Ideal) ℓ) (c : Dev nD) : Cert.Spec.Args :=
  args (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))

/-- Every weakly fair execution of the reference terminates with its four results the specification's h', c', e', r'
    of the launch contents of the arguments, and the arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v83) = (fun i => Cert.Spec.hnew (argsOf m c) (i 0) (i 1))
      ∧ r.2.mem ((c.tc : Thread nD τ).loc main_v54) = (fun i => Cert.Spec.cnew (argsOf m c) (i 0) (i 1))
      ∧ r.2.mem ((c.tc : Thread nD τ).loc main_v60) = (fun i => Cert.Spec.enew (argsOf m c) (i 0) (i 1))
      ∧ r.2.mem ((c.tc : Thread nD τ).loc main_v66) = (fun i => Cert.Spec.rnew (argsOf m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c =>
    ⟨(h c).1.trans ((val_main_v83_eq m c).trans (hnew_fun (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)))),
     (h c).2.1.trans ((val_main_v54_eq m c).trans (cnew_fun (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)))),
     (h c).2.2.1.trans ((val_main_v60_eq (m ((c.tc : Thread nD τ).loc main_arg0)) (m ((c.tc : Thread nD τ).loc main_arg1)) (m ((c.tc : Thread nD τ).loc main_arg3)) (m ((c.tc : Thread nD τ).loc main_arg5)) (m ((c.tc : Thread nD τ).loc main_arg6)) (m ((c.tc : Thread nD τ).loc main_arg8)) (m ((c.tc : Thread nD τ).loc main_arg10)) (m ((c.tc : Thread nD τ).loc main_arg11))).trans
       (enew_fun (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)))),
     (h c).2.2.2.1.trans ((val_main_v66_eq (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg9)) (m ((c.tc : Thread nD τ).loc main_arg10)) (m ((c.tc : Thread nD τ).loc main_arg11))).trans
       (rnew_fun (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)))),
     (h c).2.2.2.2⟩)
    (Cert.ReferenceIdeal.Value.run (F := Ideal) m ρ)

/-- The reference runs to the end, faults nowhere, and leaves its arguments unchanged. -/
theorem frame_ri [Cert.Pre_finite_inputs.Facts] : Cert.frame_ReferenceIdeal :=
  fun m ρ _ => (θ_run defs _ _).mono (fun _ h c => (h c).2.2.2.2) (Cert.ReferenceIdeal.Value.run (F := Ideal) m ρ)

end Cert.ReferenceIdeal.RefValue

end
-- ==== Proof.lean ====
/-
  The certificate's claim, assembled.

  The three programs compute one recurrent cell. With softsign z = z / (1 + |z|) and σ z = 1 / (1 + e^(-z)), from the
  batch-major inputs x, h, c, e, r, the weights w_ii, w_hh, w_cc, w_ee, w_rr and the biases b_ih, b_hh:

      wb = x·w_ii + h·w_hh + (b_hh + b_ih),   forget = σ (wb₀ + c·w_cc₀ + e·w_ee₀ + r·w_rr₀),   input likewise at block 1,
      c' = forget ⊙ c + input ⊙ softsign wb₂,   e' = softsign (wb₃ + e·w_ee₂),   r' = softsign (wb₃ + r·w_rr₂),
      out = σ (wb₄ + e'·w_cc₂ + e'·w_ee₃ + r'·w_rr₃),   h' = out ⊙ softsign c'.

  The kernel computes the first 5120 columns of wb in one grid of 32 row blocks and the four results in a second
  grid of 32 row blocks, adding the biases in the other order, taking the gates' products against column-adjacent
  weight blocks two at a time, and folding  e'·w_cc₂ + e'·w_ee₃  into  e'·(w_cc₂ + w_ee₃).  Over the extended reals
  the last step is the distributive law, which holds because every input entry is a real number (the precondition),
  hence so is every entry of e'; everything else is associativity and commutativity of addition and re-indexing.

  Frames: each kernel program is a host stretch followed by its two regions; each region's body loads whole staging
  blocks, computes, and stores whole blocks, so it runs at every grid point and writes only its result arrays.
  The reference is host operations only. The idealization rewrote nothing, so it preserves the kernel trivially.
-/
import proofs.«129931_j44435731645052_2_alg».proof.Defs
import proofs.«129931_j44435731645052_2_alg».proof.Proof.Gen.Kernel
import proofs.«129931_j44435731645052_2_alg».proof.Proof.Gen.Kernel.Skeleton
import proofs.«129931_j44435731645052_2_alg».proof.Proof.Gen.Kernel.Launch
import proofs.«129931_j44435731645052_2_alg».proof.Proof.Gen.Kernel.Regions
import proofs.«129931_j44435731645052_2_alg».proof.Proof.Gen.Kernel.Points
import proofs.«129931_j44435731645052_2_alg».proof.Proof.Gen.KernelIdeal
import proofs.«129931_j44435731645052_2_alg».proof.Proof.Gen.KernelIdeal.Skeleton
import proofs.«129931_j44435731645052_2_alg».proof.Proof.Gen.KernelIdeal.Launch
import proofs.«129931_j44435731645052_2_alg».proof.Proof.Gen.KernelIdeal.Regions
import proofs.«129931_j44435731645052_2_alg».proof.Proof.Gen.KernelIdeal.Points
import proofs.«129931_j44435731645052_2_alg».proof.Proof.Gen.ReferenceIdeal
import proofs.«129931_j44435731645052_2_alg».proof.Proof.Gen.Pre_finite_inputs
import proofs.«129931_j44435731645052_2_alg».proof.Proof.KFrameRun
import proofs.«129931_j44435731645052_2_alg».proof.Proof.FrameRun
import proofs.«129931_j44435731645052_2_alg».proof.Proof.KernelRun
import proofs.«129931_j44435731645052_2_alg».proof.Proof.RefValue
import Idealize.ShloMosaic.Adequacy
import Idealize.ShloMosaic.Init

noncomputable section

namespace Cert.Proof

open Idealize.ShloMosaic Idealize.SL.Sem

/-- The kernel as printed runs to the end, faults nowhere and leaves its arguments unchanged. -/
theorem frame_k : Cert.frame_Kernel (hKernel := Cert.Kernel.Gen.facts) (hPre_finite_inputs := Cert.Pre_finite_inputs.Gen.facts) :=
  fun m ρ _ => Cert.Kernel.Hand.frame (F := Bits) m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- And the reference. -/
theorem frame_ri : Cert.frame_ReferenceIdeal (hReferenceIdeal := Cert.ReferenceIdeal.Gen.facts) (hPre_finite_inputs := Cert.Pre_finite_inputs.Gen.facts) :=
  Cert.ReferenceIdeal.RefValue.frame_ri

/-- At the ideal instance, from memories that agree on the arguments, the idealized kernel and the reference both end
    with the specification's h', c', e', r' of those arguments: the kernel by its run read back, the reference by its. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c i => Cert.Spec.hnew (Cert.KernelIdeal.Val.argsK m c) (i 0) (i 1), fun c i => Cert.Spec.cnew (Cert.KernelIdeal.Val.argsK m c) (i 0) (i 1),
    fun c i => Cert.Spec.enew (Cert.KernelIdeal.Val.argsK m c) (i 0) (i 1), fun c i => Cert.Spec.rnew (Cert.KernelIdeal.Val.argsK m c) (i 0) (i 1),
    Cert.KernelIdeal.Val.kernel_run (hpre := hpre) m ρ, ?_⟩
  refine (θ_run Cert.ReferenceIdeal.defs _ _).mono (fun r h c => ?_) (Cert.ReferenceIdeal.RefValue.ref_run m' ρ')
  have hA : Cert.ReferenceIdeal.RefValue.argsOf m' c = Cert.KernelIdeal.Val.argsK m c := by
    obtain ⟨e0, e1, e2, e3, e4, e5, e6, e7, e8, e9, e10, e11⟩ := hagree c
    unfold Cert.ReferenceIdeal.RefValue.argsOf Cert.ReferenceIdeal.RefValue.args Cert.KernelIdeal.Val.argsK
    rw [e0, e1, e2, e3, e4, e5, e6, e7, e8, e9, e10, e11]
  have hc := h c
  rw [hA] at hc
  exact hc

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
